-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S1x1024x1024 : Shape := ⟨3, ![1, 1024, 1024]⟩
abbrev S1x256x1024 : Shape := ⟨3, ![1, 256, 1024]⟩
abbrev S1x1024x1 : Shape := ⟨3, ![1, 1024, 1]⟩
abbrev S1x1024x256 : Shape := ⟨3, ![1, 1024, 256]⟩

abbrev nBuf : Space → Nat
  | .hbm => 18
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S4x2048x1024, .bf16⟩
  | .hbm, ⟨15, _⟩ => ⟨S4x2048x1024, .bf16⟩
  | .hbm, ⟨16, _⟩ => ⟨S4x2048x1024, .bf16⟩
  | .hbm, ⟨17, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x1024x1024, .f32⟩
  | .local _ .vmem, ⟨21, _⟩ => ⟨S1x1024x1024, .f32⟩
  | .local _ .vmem, ⟨22, _⟩ => ⟨S1x1024x1, .f32⟩
  | .local _ .vmem, ⟨23, _⟩ => ⟨S1x1024x1, .f32⟩
  | .local _ .vmem, ⟨24, _⟩ => ⟨S1x1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨3, ![4, 2, 8], ![false, false, false]⟩

def k1_cond2 (i : grid1.Coords) : BitVec 1 :=
  let arg2 : BitVec 32 := BitVec.ofNat 32 (i 2).val
  let c7_i32 : BitVec 32 := 7#32
  let v42 : BitVec 1 := Scalar.cmpi .eq arg2 c7_i32
  let v43 : BitVec 32 := Scalar.extui v42
  let c0_i32_34 : BitVec 32 := 0#32
  let v44 : BitVec 1 := Scalar.cmpi .ne v43 c0_i32_34
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S1x256x1024 : S1x256x1024.ShapeCasts S1x256x1024
  reduces_S1x1024x256_S1x1024 : S1x1024x256.Reduces [2] S1x1024
  shapeCasts_S1x1024_S1x1024x1 : S1x1024.ShapeCasts S1x1024x1
  broadcasts_S1x1024x1_S1x1024x256 : S1x1024x1.Broadcasts S1x1024x256
  broadcasts_S1x1024x1_S1x1024x1024 : S1x1024x1.Broadcasts S1x1024x1024
  dot_S512x1024_S1024x1024_S512x1024_1_1_0_0_n_n_wf : DotDims.WF S512x1024 S1024x1024 S512x1024 [1] [1] [0] [0] [] []
  dot_S1x1024x1024_S1x256x1024_S1x1024x256_2_2_1_1_0_0_wf : DotDims.WF S1x1024x1024 S1x256x1024 S1x1024x256 [2] [2] [1] [1] [0] [0]
  dot_S1x1024x256_S1x256x1024_S1x1024x1024_2_1_1_2_0_0_wf : DotDims.WF S1x1024x256 S1x256x1024 S1x1024x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .f32 = 32 ∨ (Rect.block (s := S1024x1024) S1024x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S4x2048x1024.size a
  hwx1_1 : ∀ i : grid1.Coords, EltTy.bits .bf16 = 32 ∨ (Rect.block (s := S4x2048x1024) S1x256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1024.size a ≤ S4x2048x1024.size a
  hwx1_2 : ∀ i : grid1.Coords, EltTy.bits .bf16 = 32 ∨ (Rect.block (s := S4x2048x1024) S1x256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S1x1024x1024_S1x256x1024_S1x1024x256_2_2_1_1_0_0 : DotDims S1x1024x1024 S1x256x1024 S1x1024x256 where
  lhsContracting := [2]
  rhsContracting := [2]
  lhsNonContracting := [1]
  rhsNonContracting := [1]
  lhsBatch := [0]
  rhsBatch := [0]
  wf := dot_S1x1024x1024_S1x256x1024_S1x1024x256_2_2_1_1_0_0_wf
def dot_S1x1024x256_S1x256x1024_S1x1024x1024_2_1_1_2_0_0 : DotDims S1x1024x256 S1x256x1024 S1x1024x1024 where
  lhsContracting := [2]
  rhsContracting := [1]
  lhsNonContracting := [1]
  rhsNonContracting := [2]
  lhsBatch := [0]
  rhsBatch := [0]
  wf := dot_S1x1024x256_S1x256x1024_S1x1024x1024_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v5) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.ProjRegionBits.lean ====
/-
  The first kernel region: sixteen grid points, each taking 512 rows of the flattened activations and the three
  weight matrices and bias rows whole, and writing 512 rows of each of the three projections. A block of a window
  is its array read through the window's rectangle at the point; what the body leaves in each output buffer is one
  whole-buffer store of a pure function of the input blocks. Stated at any float instance and at any contents `V`
  of the core's buffers on entry.
-/
import proofs.«116119_j1176821039548_2_alg».proof.Proof.Gen.Kernel.Launch
import proofs.«116119_j1176821039548_2_alg».proof.Proof.Gen.Kernel.Skeleton
import proofs.«116119_j1176821039548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Window `w`'s block at point `t`: the window's array, as found on entry, read through the block's rectangle. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetched it or the block index
    has not moved since it was fetched. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)

/-! ## What the body stores -/

abbrev rX0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0

/-- The query projection's buffer after the body: one store of the whole block. -/
def outQ (x0 : Vec F S512x1024 .f32) (x1 : Vec F S1024x1024 .f32) (x2 : Vec F S1x1024 .f32) : Vec F S512x1024 .bf16 :=
  View.canon [⟨rX0, k0_pay2 (View.ld x0 rX0) (View.ld x1 rW0) (View.ld x2 rB0)⟩]
/-- The key projection's. -/
def outK (x0 : Vec F S512x1024 .f32) (x3 : Vec F S1024x1024 .f32) (x4 : Vec F S1x1024 .f32) : Vec F S512x1024 .bf16 :=
  View.canon [⟨rX0, k0_pay3 (View.ld x0 rX0) (View.ld x3 rW0) (View.ld x4 rB0)⟩]
/-- The value projection's. -/
def outV (x0 : Vec F S512x1024 .f32) (x5 : Vec F S1024x1024 .f32) (x6 : Vec F S1x1024 .f32) : Vec F S512x1024 .bf16 :=
  View.canon [⟨rX0, k0_pay4 (View.ld x0 rX0) (View.ld x5 rW0) (View.ld x6 rB0)⟩]

/-- One whole-buffer store covers the buffer. -/
theorem cover0 (p0 : Vec F S512x1024 .bf16) (y : S512x1024.Idx) :
    ∃ pc ∈ ([⟨rX0, p0⟩] : List (View.Piece (Elt F) S512x1024 .bf16)), y ∈ pc.1.set :=
  View.cover_of_tiled [⟨rX0, p0⟩] S512x1024.size (by rfl) y

/-! ## The body's triple -/

set_option maxHeartbeats 4000000 in
/-- The body on whole buffers, the inputs' at known contents and the outputs' at anything, runs to the end leaving the
    inputs as they were and each output buffer at its one store. -/
theorem sound_kernel0 (c : Dev nD) (E : Set ℕ) (i : grid0.Coords) (arg1 : Memref sig .tc .vmem S512x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S512x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outQ x0 x1 x2) ∗ owns (c : Thread nD τ) arg9 fullShare (outK x0 x3 x4) ∗ owns (c : Thread nD τ) arg10 fullShare (outV x0 x5 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## The proof data -/

/-- The region's proof data on core `c`: the arrays as found; after the body each input buffer at its block and each
    output buffer at its store of the point's input blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => outQ (blk0 V c 0 t) (blk0 V c 1 t) (blk0 V c 2 t)
    | ⟨8, _⟩ => outK (blk0 V c 0 t) (blk0 V c 3 t) (blk0 V c 4 t)
    | ⟨9, _⟩ => outV (blk0 V c 0 t) (blk0 V c 5 t) (blk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = outQ (blk0 V c 0 t) (blk0 V c 1 t) (blk0 V c 2 t) := by dsimp only [dat0]
theorem after0_8 (c : Dev nD) (t : Fin cfg0.N) : (dat0 V c).after 8 t = outK (blk0 V c 0 t) (blk0 V c 3 t) (blk0 V c 4 t) := by dsimp only [dat0]
theorem after0_9 (c : Dev nD) (t : Fin cfg0.N) : (dat0 V c).after 9 t = outV (blk0 V c 0 t) (blk0 V c 5 t) (blk0 V c 6 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d
theorem before0_5 (c : Dev nD) (t : Fin cfg0.N) (d) : (dat0 V c).before 5 t d = blk0 V c 5 t :=
  before0_5_of V (dat0 V c) (A_eq0 V c 5) (after0_5 V c) t d
theorem before0_6 (c : Dev nD) (t : Fin cfg0.N) (d) : (dat0 V c).before 6 t d = blk0 V c 6 t :=
  before0_6_of V (dat0 V c) (A_eq0 V c 6) (after0_6 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (blk0 V c 0 t) (blk0 V c 1 t) (blk0 V c 2 t) (blk0 V c 3 t) (blk0 V c 4 t) (blk0 V c 5 t) (blk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.AttnRunsBits.lean ====
/-
  The second kernel region's body, run once for each of the three ways its two conditionals fall: at the first key
  block of a row of blocks (the running maximum, denominator and accumulator are reset, then updated), at a middle
  block (updated only), and at the last block (updated, then the quotient stored into the output block). Each run
  records, per buffer the body stores into, the pieces it wrote.
-/
import proofs.«116119_j1176821039548_2_alg».proof.Proof.Gen.Kernel.Launch
import proofs.«116119_j1176821039548_2_alg».proof.Proof.Gen.Kernel.Skeleton
import proofs.«116119_j1176821039548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, as the body computes them from the grid coordinates -/

/-- "This is the first key block": the third grid coordinate is zero. -/
abbrev condFirst (i : grid1.Coords) : Prop := (Scalar.cmpi .ne (Scalar.extui (Scalar.cmpi .eq (BitVec.ofNat 32 (i 2).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)

/-- "This is the last key block": the third grid coordinate is seven. -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

/-- The output window is idle and not written back except at the last key block. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem idle1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
theorem live1_3 : ∀ t : Fin cfg1.N, condLast (grid1.coords t) → cfg1.idle 3 (grid1.coords t) = false := by decide +kernel

/-! ## The runs -/

set_option maxHeartbeats 4000000 in
/-- First key block: the three scratch buffers at anything, the output buffer handed back untouched. -/
noncomputable def runFirst (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : condFirst i) (hc1 : ¬condLast i) (x0 : Vec F S1x1024x1024 .bf16) (x1 : Vec F S1x256x1024 .bf16) (x2 : Vec F S1x256x1024 .bf16) :
    Σ' (L0 : List (View.Piece (Elt F) S1x1024x1 .f32)) (L1 : List (View.Piece (Elt F) S1x1024x1 .f32)), { L2 : List (View.Piece (Elt F) S1x1024x1024 .f32) //
      ∀ (xi : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact H6

set_option maxHeartbeats 4000000 in
/-- A middle key block: the scratch buffers at what the block before left, the output buffer handed back untouched. -/
noncomputable def runMid (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : ¬condLast i) (x0 : Vec F S1x1024x1024 .bf16) (x1 : Vec F S1x256x1024 .bf16) (x2 : Vec F S1x256x1024 .bf16) (s0 : Vec F S1x1024x1 .f32) (s1 : Vec F S1x1024x1 .f32) (s2 : Vec F S1x1024x1024 .f32) :
    Σ' (L0 : List (View.Piece (Elt F) S1x1024x1 .f32)) (L1 : List (View.Piece (Elt F) S1x1024x1 .f32)), { L2 : List (View.Piece (Elt F) S1x1024x1024 .f32) //
      ∀ (xi : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare s0 ∗ owns (c : Thread nD τ) arg8 fullShare s1 ∗ owns (c : Thread nD τ) arg9 fullShare s2
            ∗ (iprop(owns (c : Thread nD τ) arg3 fullShare x0 ∗ owns (c : Thread nD τ) arg4 fullShare x1 ∗ owns (c : Thread nD τ) arg5 fullShare x2 ∗ owns (c : Thread nD τ) arg6 fullShare xi ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact H6

set_option maxHeartbeats 4000000 in
/-- The last key block: the scratch buffers at what the block before left, the output buffer at anything and stored whole. -/
noncomputable def runLast (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : condLast i) (x0 : Vec F S1x1024x1024 .bf16) (x1 : Vec F S1x256x1024 .bf16) (x2 : Vec F S1x256x1024 .bf16) (s0 : Vec F S1x1024x1 .f32) (s1 : Vec F S1x1024x1 .f32) (s2 : Vec F S1x1024x1024 .f32) :
    Σ' (LO : List (View.Piece (Elt F) S1x1024x1024 .f32)) (L0 : List (View.Piece (Elt F) S1x1024x1 .f32)) (L1 : List (View.Piece (Elt F) S1x1024x1 .f32)), { L2 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare s0 ∗ owns (c : Thread nD τ) arg8 fullShare s1 ∗ owns (c : Thread nD τ) arg9 fullShare s2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2
    obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [H5]; · iexists _; iexact H5
    iexists _; iexact H6

end Cert.Kernel.Hand

end
-- ==== Proof.AttnRegionBits.lean ====
/-
  The second kernel region: sixty-four grid points (batch member, block of 1024 query rows, block of 256 key rows, the
  key blocks innermost). Across the eight key blocks of one query block the body keeps three scratch buffers — the
  running row maximum, the running denominator and the running weighted sum — resetting them at the first key block
  and storing the quotient into the output block at the last. What the scratch buffers and the output buffer hold
  after each point is defined by recursion on the point; the region's invariant carries the scratch buffers at those
  contents. Stated at any float instance and any contents `V` of the core's buffers on entry.
-/
import proofs.«116119_j1176821039548_2_alg».proof.Proof.AttnRunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Window `w`'s block at point `t`: the window's array, as found on entry, read through the block's rectangle. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The buffers the body is called with -/

abbrev VO : View sig .tc .vmem S1x1024x1024 .f32 := (Memref.whole cc1_stg3_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
abbrev scM0 : Memref sig .tc .vmem S1x1024x1 .f32 := Memref.whole cc1_scratch0
abbrev scM1 : Memref sig .tc .vmem S1x1024x1 .f32 := Memref.whole cc1_scratch1
abbrev scM2 : Memref sig .tc .vmem S1x1024x1024 .f32 := Memref.whole cc1_scratch2
abbrev VS0 : View sig .tc .vmem S1x1024x1 .f32 := scM0.view
abbrev VS1 : View sig .tc .vmem S1x1024x1 .f32 := scM1.view
abbrev VS2 : View sig .tc .vmem S1x1024x1024 .f32 := scM2.view

/-- A whole scoped buffer of the core at some contents. -/
abbrev anyBuf (c : Dev nD) (b : Ref sig .tc) : sProp 𝕄 :=
  iprop(∃ f : Buf (Elt F) ((c : Thread nD τ).loc b), ((c : Thread nD τ).loc b) ↦{fullShare} f)

/-- The scoped rest of the region with the three scratch buffers as owned memrefs. -/
theorem PhiA1_eq (c : Dev nD) :
    (Pipeline.ΦA spec1 c : sProp 𝕄)
      = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg7_1 ∗ anyBuf (F := F) c cc0_stg8_0 ∗ anyBuf (F := F) c cc0_stg8_1 ∗ anyBuf (F := F) c cc0_stg9_0 ∗ anyBuf (F := F) c cc0_stg9_1 ∗ (∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest1_eq]; simp only [scM0, scM1, scM2, owns_whole]; try rfl

/-! ## The stored pieces cover their buffers -/

theorem coverFirst0 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : condFirst i) (hc1 : ¬condLast i) (x0 : Vec F S1x1024x1024 .bf16) (x1 : Vec F S1x256x1024 .bf16) (x2 : Vec F S1x256x1024 .bf16)  (y : S1x1024x1.Idx) :
    ∃ pc ∈ (runFirst c i arg3 harg3 arg4 harg4 arg5 harg5 arg6 harg6 arg7 harg7 arg8 harg8 arg9 harg9 hc0 hc1 x0 x1 x2 ).1, y ∈ pc.1.set :=
  View.cover_of_tiledL (runFirst c i arg3 harg3 arg4 harg4 arg5 harg5 arg6 harg6 arg7 harg7 arg8 harg8 arg9 harg9 hc0 hc1 x0 x1 x2 ).1 S1x1024x1.size (by sl_kernel_rfl) y
theorem coverFirst1 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : condFirst i) (hc1 : ¬condLast i) (x0 : Vec F S1x1024x1024 .bf16) (x1 : Vec F S1x256x1024 .bf16) (x2 : Vec F S1x256x1024 .bf16)  (y : S1x1024x1.Idx) :
    ∃ pc ∈ (runFirst c i arg3 harg3 arg4 harg4 arg5 harg5 arg6 harg6 arg7 harg7 arg8 harg8 arg9 harg9 hc0 hc1 x0 x1 x2 ).2.1, y ∈ pc.1.set :=
  View.cover_of_tiledL (runFirst c i arg3 harg3 arg4 harg4 arg5 harg5 arg6 harg6 arg7 harg7 arg8 harg8 arg9 harg9 hc0 hc1 x0 x1 x2 ).2.1 S1x1024x1.size (by sl_kernel_rfl) y
theorem coverFirst2 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : condFirst i) (hc1 : ¬condLast i) (x0 : Vec F S1x1024x1024 .bf16) (x1 : Vec F S1x256x1024 .bf16) (x2 : Vec F S1x256x1024 .bf16)  (y : S1x1024x1024.Idx) :
    ∃ pc ∈ (runFirst c i arg3 harg3 arg4 harg4 arg5 harg5 arg6 harg6 arg7 harg7 arg8 harg8 arg9 harg9 hc0 hc1 x0 x1 x2 ).2.2.1, y ∈ pc.1.set :=
  View.cover_of_tiledL (runFirst c i arg3 harg3 arg4 harg4 arg5 harg5 arg6 harg6 arg7 harg7 arg8 harg8 arg9 harg9 hc0 hc1 x0 x1 x2 ).2.2.1 S1x1024x1024.size (by sl_kernel_rfl) y
theorem coverMid0 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : ¬condLast i) (x0 : Vec F S1x1024x1024 .bf16) (x1 : Vec F S1x256x1024 .bf16) (x2 : Vec F S1x256x1024 .bf16) (s0 : Vec F S1x1024x1 .f32) (s1 : Vec F S1x1024x1 .f32) (s2 : Vec F S1x1024x1024 .f32) (y : S1x1024x1.Idx) :
    ∃ pc ∈ (runMid c i arg3 harg3 arg4 harg4 arg5 harg5 arg6 harg6 arg7 harg7 arg8 harg8 arg9 harg9 hc0 hc1 x0 x1 x2 s0 s1 s2).1, y ∈ pc.1.set :=
  View.cover_of_tiledL (runMid c i arg3 harg3 arg4 harg4 arg5 harg5 arg6 harg6 arg7 harg7 arg8 harg8 arg9 harg9 hc0 hc1 x0 x1 x2 s0 s1 s2).1 S1x1024x1.size (by sl_kernel_rfl) y
theorem coverMid1 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : ¬condLast i) (x0 : Vec F S1x1024x1024 .bf16) (x1 : Vec F S1x256x1024 .bf16) (x2 : Vec F S1x256x1024 .bf16) (s0 : Vec F S1x1024x1 .f32) (s1 : Vec F S1x1024x1 .f32) (s2 : Vec F S1x1024x1024 .f32) (y : S1x1024x1.Idx) :
    ∃ pc ∈ (runMid c i arg3 harg3 arg4 harg4 arg5 harg5 arg6 harg6 arg7 harg7 arg8 harg8 arg9 harg9 hc0 hc1 x0 x1 x2 s0 s1 s2).2.1, y ∈ pc.1.set :=
  View.cover_of_tiledL (runMid c i arg3 harg3 arg4 harg4 arg5 harg5 arg6 harg6 arg7 harg7 arg8 harg8 arg9 harg9 hc0 hc1 x0 x1 x2 s0 s1 s2).2.1 S1x1024x1.size (by sl_kernel_rfl) y
theorem coverMid2 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : ¬condLast i) (x0 : Vec F S1x1024x1024 .bf16) (x1 : Vec F S1x256x1024 .bf16) (x2 : Vec F S1x256x1024 .bf16) (s0 : Vec F S1x1024x1 .f32) (s1 : Vec F S1x1024x1 .f32) (s2 : Vec F S1x1024x1024 .f32) (y : S1x1024x1024.Idx) :
    ∃ pc ∈ (runMid c i arg3 harg3 arg4 harg4 arg5 harg5 arg6 harg6 arg7 harg7 arg8 harg8 arg9 harg9 hc0 hc1 x0 x1 x2 s0 s1 s2).2.2.1, y ∈ pc.1.set :=
  View.cover_of_tiledL (runMid c i arg3 harg3 arg4 harg4 arg5 harg5 arg6 harg6 arg7 harg7 arg8 harg8 arg9 harg9 hc0 hc1 x0 x1 x2 s0 s1 s2).2.2.1 S1x1024x1024.size (by sl_kernel_rfl) y
theorem coverLastO (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : condLast i) (x0 : Vec F S1x1024x1024 .bf16) (x1 : Vec F S1x256x1024 .bf16) (x2 : Vec F S1x256x1024 .bf16) (s0 : Vec F S1x1024x1 .f32) (s1 : Vec F S1x1024x1 .f32) (s2 : Vec F S1x1024x1024 .f32) (y : S1x1024x1024.Idx) :
    ∃ pc ∈ (runLast c i arg3 harg3 arg4 harg4 arg5 harg5 arg6 harg6 arg7 harg7 arg8 harg8 arg9 harg9 hc0 hc1 x0 x1 x2 s0 s1 s2).1, y ∈ pc.1.set :=
  View.cover_of_tiledL (runLast c i arg3 harg3 arg4 harg4 arg5 harg5 arg6 harg6 arg7 harg7 arg8 harg8 arg9 harg9 hc0 hc1 x0 x1 x2 s0 s1 s2).1 S1x1024x1024.size (by sl_kernel_rfl) y
theorem coverLast0 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : condLast i) (x0 : Vec F S1x1024x1024 .bf16) (x1 : Vec F S1x256x1024 .bf16) (x2 : Vec F S1x256x1024 .bf16) (s0 : Vec F S1x1024x1 .f32) (s1 : Vec F S1x1024x1 .f32) (s2 : Vec F S1x1024x1024 .f32) (y : S1x1024x1.Idx) :
    ∃ pc ∈ (runLast c i arg3 harg3 arg4 harg4 arg5 harg5 arg6 harg6 arg7 harg7 arg8 harg8 arg9 harg9 hc0 hc1 x0 x1 x2 s0 s1 s2).2.1, y ∈ pc.1.set :=
  View.cover_of_tiledL (runLast c i arg3 harg3 arg4 harg4 arg5 harg5 arg6 harg6 arg7 harg7 arg8 harg8 arg9 harg9 hc0 hc1 x0 x1 x2 s0 s1 s2).2.1 S1x1024x1.size (by sl_kernel_rfl) y
theorem coverLast1 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : condLast i) (x0 : Vec F S1x1024x1024 .bf16) (x1 : Vec F S1x256x1024 .bf16) (x2 : Vec F S1x256x1024 .bf16) (s0 : Vec F S1x1024x1 .f32) (s1 : Vec F S1x1024x1 .f32) (s2 : Vec F S1x1024x1024 .f32) (y : S1x1024x1.Idx) :
    ∃ pc ∈ (runLast c i arg3 harg3 arg4 harg4 arg5 harg5 arg6 harg6 arg7 harg7 arg8 harg8 arg9 harg9 hc0 hc1 x0 x1 x2 s0 s1 s2).2.2.1, y ∈ pc.1.set :=
  View.cover_of_tiledL (runLast c i arg3 harg3 arg4 harg4 arg5 harg5 arg6 harg6 arg7 harg7 arg8 harg8 arg9 harg9 hc0 hc1 x0 x1 x2 s0 s1 s2).2.2.1 S1x1024x1.size (by sl_kernel_rfl) y
theorem coverLast2 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : condLast i) (x0 : Vec F S1x1024x1024 .bf16) (x1 : Vec F S1x256x1024 .bf16) (x2 : Vec F S1x256x1024 .bf16) (s0 : Vec F S1x1024x1 .f32) (s1 : Vec F S1x1024x1 .f32) (s2 : Vec F S1x1024x1024 .f32) (y : S1x1024x1024.Idx) :
    ∃ pc ∈ (runLast c i arg3 harg3 arg4 harg4 arg5 harg5 arg6 harg6 arg7 harg7 arg8 harg8 arg9 harg9 hc0 hc1 x0 x1 x2 s0 s1 s2).2.2.2.1, y ∈ pc.1.set :=
  View.cover_of_tiledL (runLast c i arg3 harg3 arg4 harg4 arg5 harg5 arg6 harg6 arg7 harg7 arg8 harg8 arg9 harg9 hc0 hc1 x0 x1 x2 s0 s1 s2).2.2.2.1 S1x1024x1024.size (by sl_kernel_rfl) y

/-! ## What the buffers hold after each point -/

/-- The output buffer and the three scratch buffers. -/
abbrev St (F : FTy → Type) [FloatOps F] : Type :=
  Vec F S1x1024x1024 .f32 × Vec F S1x1024x1 .f32 × Vec F S1x1024x1 .f32 × Vec F S1x1024x1024 .f32

/-- The four buffers read back after the given pieces were written (over contents that do not matter when the pieces
    cover the buffer). -/
def stOf (LO : List (View.Piece (Elt F) S1x1024x1024 .f32)) (L0 L1 : List (View.Piece (Elt F) S1x1024x1 .f32))
    (L2 : List (View.Piece (Elt F) S1x1024x1024 .f32)) : St F :=
  (VO.read (Elt F) (VO.writes (Elt F) VO.junk LO), VS0.read (Elt F) (VS0.writes (Elt F) VS0.junk L0),
    VS1.read (Elt F) (VS1.writes (Elt F) VS1.junk L1), VS2.read (Elt F) (VS2.writes (Elt F) VS2.junk L2))

/-- The run at a first key block, at the point's buffers and blocks. -/
def rF (c : Dev nD) (t : Fin cfg1.N) (h0 : t.val % 8 = 0) (h1 : ¬t.val % 8 = 7) :=
  runFirst (F := F) c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) ((hcondFirst t).mpr h0) (fun h => h1 ((hcondLast t).mp h)) (blk1 V c 0 t) (blk1 V c 1 t) (blk1 V c 2 t)
/-- The run at a middle key block, over what the point before left in the scratch buffers. -/
def rM (c : Dev nD) (t : Fin cfg1.N) (h0 : ¬t.val % 8 = 0) (h1 : ¬t.val % 8 = 7) (s : St F) :=
  runMid (F := F) c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) (fun h => h0 ((hcondFirst t).mp h)) (fun h => h1 ((hcondLast t).mp h)) (blk1 V c 0 t) (blk1 V c 1 t) (blk1 V c 2 t) s.2.1 s.2.2.1 s.2.2.2
/-- The run at a last key block. -/
def rL (c : Dev nD) (t : Fin cfg1.N) (h0 : ¬t.val % 8 = 0) (h1 : t.val % 8 = 7) (s : St F) :=
  runLast (F := F) c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) (fun h => h0 ((hcondFirst t).mp h)) ((hcondLast t).mpr h1) (blk1 V c 0 t) (blk1 V c 1 t) (blk1 V c 2 t) s.2.1 s.2.2.1 s.2.2.2

/-- What the four buffers hold after the body at position `n`: by the case of `n` modulo eight, over what position
    `n - 1` left. -/
def stAt (c : Dev nD) : (n : ℕ) → n < cfg1.N → St F
  | 0, hn => stOf [] (rF V c ⟨0, hn⟩ (Nat.zero_mod _) (by show ¬ ((0 : ℕ) % 8 = 7); decide)).1 (rF V c ⟨0, hn⟩ (Nat.zero_mod _) (by show ¬ ((0 : ℕ) % 8 = 7); decide)).2.1 (rF V c ⟨0, hn⟩ (Nat.zero_mod _) (by show ¬ ((0 : ℕ) % 8 = 7); decide)).2.2.1
  | n + 1, hn =>
    if h0 : (n + 1) % 8 = 0 then
      if h1 : (n + 1) % 8 = 7 then False.elim (by omega)
      else stOf [] (rF V c ⟨n + 1, hn⟩ h0 h1).1 (rF V c ⟨n + 1, hn⟩ h0 h1).2.1 (rF V c ⟨n + 1, hn⟩ h0 h1).2.2.1
    else
      if h1 : (n + 1) % 8 = 7 then
        stOf (rL V c ⟨n + 1, hn⟩ h0 h1 (stAt c n (Nat.lt_of_succ_lt hn))).1 (rL V c ⟨n + 1, hn⟩ h0 h1 (stAt c n (Nat.lt_of_succ_lt hn))).2.1
          (rL V c ⟨n + 1, hn⟩ h0 h1 (stAt c n (Nat.lt_of_succ_lt hn))).2.2.1 (rL V c ⟨n + 1, hn⟩ h0 h1 (stAt c n (Nat.lt_of_succ_lt hn))).2.2.2.1
      else
        stOf [] (rM V c ⟨n + 1, hn⟩ h0 h1 (stAt c n (Nat.lt_of_succ_lt hn))).1 (rM V c ⟨n + 1, hn⟩ h0 h1 (stAt c n (Nat.lt_of_succ_lt hn))).2.1
          (rM V c ⟨n + 1, hn⟩ h0 h1 (stAt c n (Nat.lt_of_succ_lt hn))).2.2.1

theorem stAt_first (c : Dev nD) (t : Fin cfg1.N) (h0 : t.val % 8 = 0) (h1 : ¬t.val % 8 = 7) :
    stAt V c t.val t.isLt = stOf [] (rF V c t h0 h1).1 (rF V c t h0 h1).2.1 (rF V c t h0 h1).2.2.1 := by
  obtain ⟨n, hn⟩ := t
  cases n with
  | zero => exact rfl
  | succ n => exact (dif_pos h0).trans ((dif_neg h1).trans rfl)

theorem stAt_mid (c : Dev nD) (t : Fin cfg1.N) (h0 : ¬t.val % 8 = 0) (h1 : ¬t.val % 8 = 7) :
    stAt V c t.val t.isLt = stOf [] (rM V c t h0 h1 (stAt V c (t.val - 1) (Nat.lt_of_le_of_lt (Nat.sub_le _ _) t.isLt))).1 (rM V c t h0 h1 (stAt V c (t.val - 1) (Nat.lt_of_le_of_lt (Nat.sub_le _ _) t.isLt))).2.1 (rM V c t h0 h1 (stAt V c (t.val - 1) (Nat.lt_of_le_of_lt (Nat.sub_le _ _) t.isLt))).2.2.1 := by
  obtain ⟨n, hn⟩ := t
  cases n with
  | zero => exact absurd (Nat.zero_mod _) h0
  | succ n => exact (dif_neg h0).trans ((dif_neg h1).trans rfl)

theorem stAt_last (c : Dev nD) (t : Fin cfg1.N) (h0 : ¬t.val % 8 = 0) (h1 : t.val % 8 = 7) :
    stAt V c t.val t.isLt = stOf (rL V c t h0 h1 (stAt V c (t.val - 1) (Nat.lt_of_le_of_lt (Nat.sub_le _ _) t.isLt))).1 (rL V c t h0 h1 (stAt V c (t.val - 1) (Nat.lt_of_le_of_lt (Nat.sub_le _ _) t.isLt))).2.1 (rL V c t h0 h1 (stAt V c (t.val - 1) (Nat.lt_of_le_of_lt (Nat.sub_le _ _) t.isLt))).2.2.1 (rL V c t h0 h1 (stAt V c (t.val - 1) (Nat.lt_of_le_of_lt (Nat.sub_le _ _) t.isLt))).2.2.2.1 := by
  obtain ⟨n, hn⟩ := t
  cases n with
  | zero => exact absurd (Nat.zero_mod _) h0
  | succ n => exact (dif_neg h0).trans ((dif_pos h1).trans rfl)

/-! ## The invariant -/

/-- Before position `n`: before the first point every scoped buffer that is no staging buffer of the region at
    anything; afterwards the three scratch buffers at what the point before left, the others at anything; the
    generator register at some state throughout. -/
def PhiS (c : Dev nD) : (n : ℕ) → n ≤ cfg1.N → sProp 𝕄
  | 0, _ => Pipeline.ΦA spec1 c
  | n + 1, hn => iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg7_1 ∗ anyBuf (F := F) c cc0_stg8_0 ∗ anyBuf (F := F) c cc0_stg8_1 ∗ anyBuf (F := F) c cc0_stg9_0 ∗ anyBuf (F := F) c cc0_stg9_1 ∗ owns (c : Thread nD τ) scM0 fullShare (stAt V c n hn).2.1 ∗ owns (c : Thread nD τ) scM1 fullShare (stAt V c n hn).2.2.1 ∗ owns (c : Thread nD τ) scM2 fullShare (stAt V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg7_1 ∗ anyBuf (F := F) c cc0_stg8_0 ∗ anyBuf (F := F) c cc0_stg8_1 ∗ anyBuf (F := F) c cc0_stg9_0 ∗ anyBuf (F := F) c cc0_stg9_1 ∗ owns (c : Thread nD τ) scM0 fullShare (stAt V c n hn).2.1 ∗ owns (c : Thread nD τ) scM1 fullShare (stAt V c n hn).2.2.1 ∗ owns (c : Thread nD τ) scM2 fullShare (stAt V c n hn).2.2.2) ∗ (∃ r, prngReg c r)) := rfl

theorem PhiS_pos (c : Dev nD) (n : ℕ) (h : n ≤ cfg1.N) (hz : n ≠ 0) :
    PhiS V c n h = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg7_1 ∗ anyBuf (F := F) c cc0_stg8_0 ∗ anyBuf (F := F) c cc0_stg8_1 ∗ anyBuf (F := F) c cc0_stg9_0 ∗ anyBuf (F := F) c cc0_stg9_1 ∗ owns (c : Thread nD τ) scM0 fullShare (stAt V c (n - 1) (by omega)).2.1 ∗ owns (c : Thread nD τ) scM1 fullShare (stAt V c (n - 1) (by omega)).2.2.1 ∗ owns (c : Thread nD τ) scM2 fullShare (stAt V c (n - 1) (by omega)).2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (stAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = (stAt V c t.val t.isLt).1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' buffers hold their blocks; the point's position modulo eight says which run
    applies; the invariant hands over the scratch buffers (at anything before the first point, else at what the point
    before left) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 8 = 0
  · have h1 : ¬t.val % 8 = 7 := by omega
    rw [show (dat1 V c).leavesExact 0 t = owns (c : Thread nD τ) (ms1_0 t) fullShare ((dat1 V c).after 0 t) from by
        unfold Dat.leavesExact; rw [live1_0 t], after1_0]
    rw [show (dat1 V c).leavesExact 1 t = owns (c : Thread nD τ) (ms1_1 t) fullShare ((dat1 V c).after 1 t) from by
        unfold Dat.leavesExact; rw [live1_1 t], after1_1]
    rw [show (dat1 V c).leavesExact 2 t = owns (c : Thread nD τ) (ms1_2 t) fullShare ((dat1 V c).after 2 t) from by
        unfold Dat.leavesExact; rw [live1_2 t], after1_2]
    rw [Dat.leavesExact_idle (dat1 V c) 3 t (idle1_3 t (fun h => h1 ((hcondLast t).mp h))) (noFlush1_3 t (fun h => h1 ((hcondLast t).mp h)))]
    rw [stAt_first V c t h0 h1]
    unfold stOf rF; (try dsimp only)
    by_cases hz : t.val = 0
    · rw [PhiS_castSucc V c t, PhiS_zero V c _ _ hz, PhiA1_eq]
      iintro ⟨⟨⟨E0, E1, E2, E3, E4, E5, E6, E7, E8, E9, E10, E11, E12, E13, HS0, HS1, HS2⟩, Hg⟩, Ho, ⟨%d0, H0⟩, ⟨%d1, H1⟩, ⟨%d2, H2⟩, ⟨%d3, H3⟩⟩
      iapply ((runFirst c (grid1.coords t) _ _ _ _ _ _ _ _ _ _ _ _ _ _ ((hcondFirst t).mpr h0) (fun h => h1 ((hcondLast t).mp h)) (blk1 V c 0 t) (blk1 V c 1 t) (blk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [E0 E1 E2 E3 E4 E5 E6 E7 E8 E9 E10 E11 E12 E13 HS0 HS1 HS2 Hg]
      · isplitl [E0 E1 E2 E3 E4 E5 E6 E7 E8 E9 E10 E11 E12 E13 HS0 HS1 HS2]
        swap; · iexact Hg
        isplitl [E0]; · iexact E0
        isplitl [E1]; · iexact E1
        isplitl [E2]; · iexact E2
        isplitl [E3]; · iexact E3
        isplitl [E4]; · iexact E4
        isplitl [E5]; · iexact E5
        isplitl [E6]; · iexact E6
        isplitl [E7]; · iexact E7
        isplitl [E8]; · iexact E8
        isplitl [E9]; · iexact E9
        isplitl [E10]; · iexact E10
        isplitl [E11]; · iexact E11
        isplitl [E12]; · iexact E12
        isplitl [E13]; · iexact E13
        isplitl [HS0]
        · unfold owns; iexists _; isplitr
          swap; · iexact HS0
          ipureintro; exact View.read_writes_of_cover _ _ _ _ _ (coverFirst0 c _ _ _ _ _ _ _ _ _ _ _ _ _ _ _ _ _ _ _ _)
        isplitl [HS1]
        · unfold owns; iexists _; isplitr
          swap; · iexact HS1
          ipureintro; exact View.read_writes_of_cover _ _ _ _ _ (coverFirst1 c _ _ _ _ _ _ _ _ _ _ _ _ _ _ _ _ _ _ _ _)
        unfold owns; iexists _; isplitr
        swap; · iexact HS2
        ipureintro; exact View.read_writes_of_cover _ _ _ _ _ (coverFirst2 c _ _ _ _ _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨E0, E1, E2, E3, E4, E5, E6, E7, E8, E9, E10, E11, E12, E13, HS0, HS1, HS2⟩, Hg⟩, Ho, ⟨%d0, H0⟩, ⟨%d1, H1⟩, ⟨%d2, H2⟩, ⟨%d3, H3⟩⟩
      iapply ((runFirst c (grid1.coords t) _ _ _ _ _ _ _ _ _ _ _ _ _ _ ((hcondFirst t).mpr h0) (fun h => h1 ((hcondLast t).mp h)) (blk1 V c 0 t) (blk1 V c 1 t) (blk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [E0 E1 E2 E3 E4 E5 E6 E7 E8 E9 E10 E11 E12 E13 HS0 HS1 HS2 Hg]
      · isplitl [E0 E1 E2 E3 E4 E5 E6 E7 E8 E9 E10 E11 E12 E13 HS0 HS1 HS2]
        swap; · iexact Hg
        isplitl [E0]; · iexact E0
        isplitl [E1]; · iexact E1
        isplitl [E2]; · iexact E2
        isplitl [E3]; · iexact E3
        isplitl [E4]; · iexact E4
        isplitl [E5]; · iexact E5
        isplitl [E6]; · iexact E6
        isplitl [E7]; · iexact E7
        isplitl [E8]; · iexact E8
        isplitl [E9]; · iexact E9
        isplitl [E10]; · iexact E10
        isplitl [E11]; · iexact E11
        isplitl [E12]; · iexact E12
        isplitl [E13]; · iexact E13
        isplitl [HS0]
        · unfold owns; iexists _; isplitr
          swap; · iexact HS0
          ipureintro; exact View.read_writes_of_cover _ _ _ _ _ (coverFirst0 c _ _ _ _ _ _ _ _ _ _ _ _ _ _ _ _ _ _ _ _)
        isplitl [HS1]
        · unfold owns; iexists _; isplitr
          swap; · iexact HS1
          ipureintro; exact View.read_writes_of_cover _ _ _ _ _ (coverFirst1 c _ _ _ _ _ _ _ _ _ _ _ _ _ _ _ _ _ _ _ _)
        unfold owns; iexists _; isplitr
        swap; · iexact HS2
        ipureintro; exact View.read_writes_of_cover _ _ _ _ _ (coverFirst2 c _ _ _ _ _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat1 V c).leavesExact 0 t = owns (c : Thread nD τ) (ms1_0 t) fullShare ((dat1 V c).after 0 t) from by
          unfold Dat.leavesExact; rw [live1_0 t], after1_0]
      rw [show (dat1 V c).leavesExact 1 t = owns (c : Thread nD τ) (ms1_1 t) fullShare ((dat1 V c).after 1 t) from by
          unfold Dat.leavesExact; rw [live1_1 t], after1_1]
      rw [show (dat1 V c).leavesExact 2 t = owns (c : Thread nD τ) (ms1_2 t) fullShare ((dat1 V c).after 2 t) from by
          unfold Dat.leavesExact; rw [live1_2 t], after1_2]
      rw [show (dat1 V c).leavesExact 3 t = owns (c : Thread nD τ) (ms1_3 t) fullShare ((dat1 V c).after 3 t) from by
          unfold Dat.leavesExact; rw [live1_3 t ((hcondLast t).mpr h1)], after1_3]
      rw [stAt_last V c t h0 h1]
      unfold stOf rL; (try dsimp only)
      rw [PhiS_castSucc V c t, PhiS_pos V c _ _ hz]
      iintro ⟨⟨⟨E0, E1, E2, E3, E4, E5, E6, E7, E8, E9, E10, E11, E12, E13, HS0, HS1, HS2⟩, Hg⟩, Ho, ⟨%d0, H0⟩, ⟨%d1, H1⟩, ⟨%d2, H2⟩, ⟨%d3, H3⟩⟩
      iapply ((runLast c (grid1.coords t) _ _ _ _ _ _ _ _ _ _ _ _ _ _ (fun h => h0 ((hcondFirst t).mp h)) ((hcondLast t).mpr h1) (blk1 V c 0 t) (blk1 V c 1 t) (blk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [E0 E1 E2 E3 E4 E5 E6 E7 E8 E9 E10 E11 E12 E13 HS0 HS1 HS2 Hg]
      · isplitl [E0 E1 E2 E3 E4 E5 E6 E7 E8 E9 E10 E11 E12 E13 HS0 HS1 HS2]
        swap; · iexact Hg
        isplitl [E0]; · iexact E0
        isplitl [E1]; · iexact E1
        isplitl [E2]; · iexact E2
        isplitl [E3]; · iexact E3
        isplitl [E4]; · iexact E4
        isplitl [E5]; · iexact E5
        isplitl [E6]; · iexact E6
        isplitl [E7]; · iexact E7
        isplitl [E8]; · iexact E8
        isplitl [E9]; · iexact E9
        isplitl [E10]; · iexact E10
        isplitl [E11]; · iexact E11
        isplitl [E12]; · iexact E12
        isplitl [E13]; · iexact E13
        isplitl [HS0]
        · unfold owns; iexists _; isplitr
          swap; · iexact HS0
          ipureintro; exact View.read_writes_of_cover _ _ _ _ _ (coverLast0 c _ _ _ _ _ _ _ _ _ _ _ _ _ _ _ _ _ _ _ _ _ _ _)
        isplitl [HS1]
        · unfold owns; iexists _; isplitr
          swap; · iexact HS1
          ipureintro; exact View.read_writes_of_cover _ _ _ _ _ (coverLast1 c _ _ _ _ _ _ _ _ _ _ _ _ _ _ _ _ _ _ _ _ _ _ _)
        unfold owns; iexists _; isplitr
        swap; · iexact HS2
        ipureintro; exact View.read_writes_of_cover _ _ _ _ _ (coverLast2 c _ _ _ _ _ _ _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastO c _ _ _ _ _ _ _ _ _ _ _ _ _ _ _ _ _ _ _ _ _ _ _)
    · rw [show (dat1 V c).leavesExact 0 t = owns (c : Thread nD τ) (ms1_0 t) fullShare ((dat1 V c).after 0 t) from by
          unfold Dat.leavesExact; rw [live1_0 t], after1_0]
      rw [show (dat1 V c).leavesExact 1 t = owns (c : Thread nD τ) (ms1_1 t) fullShare ((dat1 V c).after 1 t) from by
          unfold Dat.leavesExact; rw [live1_1 t], after1_1]
      rw [show (dat1 V c).leavesExact 2 t = owns (c : Thread nD τ) (ms1_2 t) fullShare ((dat1 V c).after 2 t) from by
          unfold Dat.leavesExact; rw [live1_2 t], after1_2]
      rw [Dat.leavesExact_idle (dat1 V c) 3 t (idle1_3 t (fun h => h1 ((hcondLast t).mp h))) (noFlush1_3 t (fun h => h1 ((hcondLast t).mp h)))]
      rw [stAt_mid V c t h0 h1]
      unfold stOf rM; (try dsimp only)
      rw [PhiS_castSucc V c t, PhiS_pos V c _ _ hz]
      iintro ⟨⟨⟨E0, E1, E2, E3, E4, E5, E6, E7, E8, E9, E10, E11, E12, E13, HS0, HS1, HS2⟩, Hg⟩, Ho, ⟨%d0, H0⟩, ⟨%d1, H1⟩, ⟨%d2, H2⟩, ⟨%d3, H3⟩⟩
      iapply ((runMid c (grid1.coords t) _ _ _ _ _ _ _ _ _ _ _ _ _ _ (fun h => h0 ((hcondFirst t).mp h)) (fun h => h1 ((hcondLast t).mp h)) (blk1 V c 0 t) (blk1 V c 1 t) (blk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [E0 E1 E2 E3 E4 E5 E6 E7 E8 E9 E10 E11 E12 E13 HS0 HS1 HS2 Hg]
      · isplitl [E0 E1 E2 E3 E4 E5 E6 E7 E8 E9 E10 E11 E12 E13 HS0 HS1 HS2]
        swap; · iexact Hg
        isplitl [E0]; · iexact E0
        isplitl [E1]; · iexact E1
        isplitl [E2]; · iexact E2
        isplitl [E3]; · iexact E3
        isplitl [E4]; · iexact E4
        isplitl [E5]; · iexact E5
        isplitl [E6]; · iexact E6
        isplitl [E7]; · iexact E7
        isplitl [E8]; · iexact E8
        isplitl [E9]; · iexact E9
        isplitl [E10]; · iexact E10
        isplitl [E11]; · iexact E11
        isplitl [E12]; · iexact E12
        isplitl [E13]; · iexact E13
        isplitl [HS0]
        · unfold owns; iexists _; isplitr
          swap; · iexact HS0
          ipureintro; exact View.read_writes_of_cover _ _ _ _ _ (coverMid0 c _ _ _ _ _ _ _ _ _ _ _ _ _ _ _ _ _ _ _ _ _ _ _)
        isplitl [HS1]
        · unfold owns; iexists _; isplitr
          swap; · iexact HS1
          ipureintro; exact View.read_writes_of_cover _ _ _ _ _ (coverMid1 c _ _ _ _ _ _ _ _ _ _ _ _ _ _ _ _ _ _ _ _ _ _ _)
        unfold owns; iexists _; isplitr
        swap; · iexact HS2
        ipureintro; exact View.read_writes_of_cover _ _ _ _ _ (coverMid2 c _ _ _ _ _ _ _ _ _ _ _ _ _ _ _ _ _ _ _ _ _ _ _)
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back, the scratch buffers' contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨E0, E1, E2, E3, E4, E5, E6, E7, E8, E9, E10, E11, E12, E13, HS0, HS1, HS2⟩, Hg⟩
  isplitl [E0 E1 E2 E3 E4 E5 E6 E7 E8 E9 E10 E11 E12 E13 HS0 HS1 HS2]
  swap; · iexact Hg
  isplitl [E0]; · iexact E0
  isplitl [E1]; · iexact E1
  isplitl [E2]; · iexact E2
  isplitl [E3]; · iexact E3
  isplitl [E4]; · iexact E4
  isplitl [E5]; · iexact E5
  isplitl [E6]; · iexact E6
  isplitl [E7]; · iexact E7
  isplitl [E8]; · iexact E8
  isplitl [E9]; · iexact E9
  isplitl [E10]; · iexact E10
  isplitl [E11]; · iexact E11
  isplitl [E12]; · iexact E12
  isplitl [E13]; · iexact E13
  isplitl [HS0]; · iexists _; iexact HS0
  isplitl [HS1]; · iexists _; iexact HS1
  iexists _; iexact HS2

end Cert.Kernel.Hand

end
-- ==== Proof.MainRunBits.lean ====
/-
  The whole program as four segments — the reshapes of the activations and the bias vectors, the projection region,
  the reshapes of the three projections back to batches, the attention region — and the buffer contents at each
  boundary as a fold from the launch memory. Every weakly fair execution terminates and every unscoped buffer ends
  at the last boundary's contents; the argument arrays' contents there are the launch contents, no segment writing one.
-/
import proofs.«116119_j1176821039548_2_alg».proof.Proof.ProjRegionBits
import proofs.«116119_j1176821039548_2_alg».proof.Proof.AttnRegionBits
import proofs.«116119_j1176821039548_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention region. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched; the result is the attention region's output array -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide : main_arg1 ∉ hostOps1_W)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_writes_sub hostOps0 _ hostOps0_writes (by decide : main_arg1 ∉ hostOps0_W)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide : main_arg2 ∉ hostOps1_W)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide : main_arg3 ∉ hostOps1_W)
    _ = W1 m c (Proc.devRef .tc main_arg3) := (W2_arr m c 3).trans (((dat0 (V1 m) c).arrAt_in 3 rfl _).trans (A_eq0 (V1 m) c 3))
    _ = W0 m c (Proc.devRef .tc main_arg3) := StableHlo.after_of_writes_sub hostOps0 _ hostOps0_writes (by decide : main_arg3 ∉ hostOps0_W)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide : main_arg4 ∉ hostOps1_W)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide : main_arg5 ∉ hostOps1_W)
    _ = W1 m c (Proc.devRef .tc main_arg5) := (W2_arr m c 5).trans (((dat0 (V1 m) c).arrAt_in 5 rfl _).trans (A_eq0 (V1 m) c 5))
    _ = W0 m c (Proc.devRef .tc main_arg5) := StableHlo.after_of_writes_sub hostOps0 _ hostOps0_writes (by decide : main_arg5 ∉ hostOps0_W)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide : main_arg6 ∉ hostOps1_W)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl

theorem W4_main_v8 (c : Dev nD) : W4 m c (Proc.devRef .tc main_v8) = (dat1 (V3 m) c).arrAt 3 cfg1.N := W4_arr m c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-- The scoped rest and the generator register, taken apart. -/
theorem PhiA1_elim (c : Dev nD) : (Pipeline.ΦA spec1 c : sProp 𝕄)
    ⊢ iprop(Pipeline.scopedRest (Ix := Unit) (Name := ℕ) (U := UR sig nD τ) (Lvl := ℕ) (Val := Elt F) spec1 c ∗ ∃ r, prngReg c r) := by
  unfold Pipeline.ΦA; exact BI.Entails.refl _

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = (dat1 (V3 m) c).Φ (Fin.last cfg1.N) from rfl]
    iintro Hphi
    ihave H := ((hout1 (V3 m) c).trans (PhiA1_elim c)) $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution of the program from memory `m` terminates, and every unscoped buffer of every core
    ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.Kernel.Hand

end
-- ==== Proof.ProjRegionIdeal.lean ====
/-
  The first kernel region: sixteen grid points, each taking 512 rows of the flattened activations and the three
  weight matrices and bias rows whole, and writing 512 rows of each of the three projections. A block of a window
  is its array read through the window's rectangle at the point; what the body leaves in each output buffer is one
  whole-buffer store of a pure function of the input blocks. Stated at any float instance and at any contents `V`
  of the core's buffers on entry.
-/
import proofs.«116119_j1176821039548_2_alg».proof.Proof.Gen.KernelIdeal.Launch
import proofs.«116119_j1176821039548_2_alg».proof.Proof.Gen.KernelIdeal.Skeleton
import proofs.«116119_j1176821039548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Window `w`'s block at point `t`: the window's array, as found on entry, read through the block's rectangle. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetched it or the block index
    has not moved since it was fetched. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)

/-! ## What the body stores -/

abbrev rX0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0

/-- The query projection's buffer after the body: one store of the whole block. -/
def outQ (x0 : Vec F S512x1024 .f32) (x1 : Vec F S1024x1024 .f32) (x2 : Vec F S1x1024 .f32) : Vec F S512x1024 .bf16 :=
  View.canon [⟨rX0, k0_pay2 (View.ld x0 rX0) (View.ld x1 rW0) (View.ld x2 rB0)⟩]
/-- The key projection's. -/
def outK (x0 : Vec F S512x1024 .f32) (x3 : Vec F S1024x1024 .f32) (x4 : Vec F S1x1024 .f32) : Vec F S512x1024 .bf16 :=
  View.canon [⟨rX0, k0_pay3 (View.ld x0 rX0) (View.ld x3 rW0) (View.ld x4 rB0)⟩]
/-- The value projection's. -/
def outV (x0 : Vec F S512x1024 .f32) (x5 : Vec F S1024x1024 .f32) (x6 : Vec F S1x1024 .f32) : Vec F S512x1024 .bf16 :=
  View.canon [⟨rX0, k0_pay4 (View.ld x0 rX0) (View.ld x5 rW0) (View.ld x6 rB0)⟩]

/-- One whole-buffer store covers the buffer. -/
theorem cover0 (p0 : Vec F S512x1024 .bf16) (y : S512x1024.Idx) :
    ∃ pc ∈ ([⟨rX0, p0⟩] : List (View.Piece (Elt F) S512x1024 .bf16)), y ∈ pc.1.set :=
  View.cover_of_tiled [⟨rX0, p0⟩] S512x1024.size (by rfl) y

/-! ## The body's triple -/

set_option maxHeartbeats 4000000 in
/-- The body on whole buffers, the inputs' at known contents and the outputs' at anything, runs to the end leaving the
    inputs as they were and each output buffer at its one store. -/
theorem sound_kernel0 (c : Dev nD) (E : Set ℕ) (i : grid0.Coords) (arg1 : Memref sig .tc .vmem S512x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S512x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outQ x0 x1 x2) ∗ owns (c : Thread nD τ) arg9 fullShare (outK x0 x3 x4) ∗ owns (c : Thread nD τ) arg10 fullShare (outV x0 x5 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## The proof data -/

/-- The region's proof data on core `c`: the arrays as found; after the body each input buffer at its block and each
    output buffer at its store of the point's input blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => outQ (blk0 V c 0 t) (blk0 V c 1 t) (blk0 V c 2 t)
    | ⟨8, _⟩ => outK (blk0 V c 0 t) (blk0 V c 3 t) (blk0 V c 4 t)
    | ⟨9, _⟩ => outV (blk0 V c 0 t) (blk0 V c 5 t) (blk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = outQ (blk0 V c 0 t) (blk0 V c 1 t) (blk0 V c 2 t) := by dsimp only [dat0]
theorem after0_8 (c : Dev nD) (t : Fin cfg0.N) : (dat0 V c).after 8 t = outK (blk0 V c 0 t) (blk0 V c 3 t) (blk0 V c 4 t) := by dsimp only [dat0]
theorem after0_9 (c : Dev nD) (t : Fin cfg0.N) : (dat0 V c).after 9 t = outV (blk0 V c 0 t) (blk0 V c 5 t) (blk0 V c 6 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d
theorem before0_5 (c : Dev nD) (t : Fin cfg0.N) (d) : (dat0 V c).before 5 t d = blk0 V c 5 t :=
  before0_5_of V (dat0 V c) (A_eq0 V c 5) (after0_5 V c) t d
theorem before0_6 (c : Dev nD) (t : Fin cfg0.N) (d) : (dat0 V c).before 6 t d = blk0 V c 6 t :=
  before0_6_of V (dat0 V c) (A_eq0 V c 6) (after0_6 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (blk0 V c 0 t) (blk0 V c 1 t) (blk0 V c 2 t) (blk0 V c 3 t) (blk0 V c 4 t) (blk0 V c 5 t) (blk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AttnRunsIdeal.lean ====
/-
  The second kernel region's body, run once for each of the three ways its two conditionals fall: at the first key
  block of a row of blocks (the running maximum, denominator and accumulator are reset, then updated), at a middle
  block (updated only), and at the last block (updated, then the quotient stored into the output block). Each run
  records, per buffer the body stores into, the pieces it wrote.
-/
import proofs.«116119_j1176821039548_2_alg».proof.Proof.Gen.KernelIdeal.Launch
import proofs.«116119_j1176821039548_2_alg».proof.Proof.Gen.KernelIdeal.Skeleton
import proofs.«116119_j1176821039548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, as the body computes them from the grid coordinates -/

/-- "This is the first key block": the third grid coordinate is zero. -/
abbrev condFirst (i : grid1.Coords) : Prop := (Scalar.cmpi .ne (Scalar.extui (Scalar.cmpi .eq (BitVec.ofNat 32 (i 2).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)

/-- "This is the last key block": the third grid coordinate is seven. -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

/-- The output window is idle and not written back except at the last key block. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem idle1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
theorem live1_3 : ∀ t : Fin cfg1.N, condLast (grid1.coords t) → cfg1.idle 3 (grid1.coords t) = false := by decide +kernel

/-! ## The runs -/

set_option maxHeartbeats 4000000 in
/-- First key block: the three scratch buffers at anything, the output buffer handed back untouched. -/
noncomputable def runFirst (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : condFirst i) (hc1 : ¬condLast i) (x0 : Vec F S1x1024x1024 .bf16) (x1 : Vec F S1x256x1024 .bf16) (x2 : Vec F S1x256x1024 .bf16) :
    Σ' (L0 : List (View.Piece (Elt F) S1x1024x1 .f32)) (L1 : List (View.Piece (Elt F) S1x1024x1 .f32)), { L2 : List (View.Piece (Elt F) S1x1024x1024 .f32) //
      ∀ (xi : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact H6

set_option maxHeartbeats 4000000 in
/-- A middle key block: the scratch buffers at what the block before left, the output buffer handed back untouched. -/
noncomputable def runMid (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : ¬condLast i) (x0 : Vec F S1x1024x1024 .bf16) (x1 : Vec F S1x256x1024 .bf16) (x2 : Vec F S1x256x1024 .bf16) (s0 : Vec F S1x1024x1 .f32) (s1 : Vec F S1x1024x1 .f32) (s2 : Vec F S1x1024x1024 .f32) :
    Σ' (L0 : List (View.Piece (Elt F) S1x1024x1 .f32)) (L1 : List (View.Piece (Elt F) S1x1024x1 .f32)), { L2 : List (View.Piece (Elt F) S1x1024x1024 .f32) //
      ∀ (xi : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare s0 ∗ owns (c : Thread nD τ) arg8 fullShare s1 ∗ owns (c : Thread nD τ) arg9 fullShare s2
            ∗ (iprop(owns (c : Thread nD τ) arg3 fullShare x0 ∗ owns (c : Thread nD τ) arg4 fullShare x1 ∗ owns (c : Thread nD τ) arg5 fullShare x2 ∗ owns (c : Thread nD τ) arg6 fullShare xi ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact H6

set_option maxHeartbeats 4000000 in
/-- The last key block: the scratch buffers at what the block before left, the output buffer at anything and stored whole. -/
noncomputable def runLast (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : condLast i) (x0 : Vec F S1x1024x1024 .bf16) (x1 : Vec F S1x256x1024 .bf16) (x2 : Vec F S1x256x1024 .bf16) (s0 : Vec F S1x1024x1 .f32) (s1 : Vec F S1x1024x1 .f32) (s2 : Vec F S1x1024x1024 .f32) :
    Σ' (LO : List (View.Piece (Elt F) S1x1024x1024 .f32)) (L0 : List (View.Piece (Elt F) S1x1024x1 .f32)) (L1 : List (View.Piece (Elt F) S1x1024x1 .f32)), { L2 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare s0 ∗ owns (c : Thread nD τ) arg8 fullShare s1 ∗ owns (c : Thread nD τ) arg9 fullShare s2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2
    obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [H5]; · iexists _; iexact H5
    iexists _; iexact H6

end Cert.KernelIdeal.Hand

end
-- ==== Proof.AttnRegionIdeal.lean ====
/-
  The second kernel region: sixty-four grid points (batch member, block of 1024 query rows, block of 256 key rows, the
  key blocks innermost). Across the eight key blocks of one query block the body keeps three scratch buffers — the
  running row maximum, the running denominator and the running weighted sum — resetting them at the first key block
  and storing the quotient into the output block at the last. What the scratch buffers and the output buffer hold
  after each point is defined by recursion on the point; the region's invariant carries the scratch buffers at those
  contents. Stated at any float instance and any contents `V` of the core's buffers on entry.
-/
import proofs.«116119_j1176821039548_2_alg».proof.Proof.AttnRunsIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Window `w`'s block at point `t`: the window's array, as found on entry, read through the block's rectangle. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The buffers the body is called with -/

abbrev VO : View sig .tc .vmem S1x1024x1024 .f32 := (Memref.whole cc1_stg3_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
abbrev scM0 : Memref sig .tc .vmem S1x1024x1 .f32 := Memref.whole cc1_scratch0
abbrev scM1 : Memref sig .tc .vmem S1x1024x1 .f32 := Memref.whole cc1_scratch1
abbrev scM2 : Memref sig .tc .vmem S1x1024x1024 .f32 := Memref.whole cc1_scratch2
abbrev VS0 : View sig .tc .vmem S1x1024x1 .f32 := scM0.view
abbrev VS1 : View sig .tc .vmem S1x1024x1 .f32 := scM1.view
abbrev VS2 : View sig .tc .vmem S1x1024x1024 .f32 := scM2.view

/-- A whole scoped buffer of the core at some contents. -/
abbrev anyBuf (c : Dev nD) (b : Ref sig .tc) : sProp 𝕄 :=
  iprop(∃ f : Buf (Elt F) ((c : Thread nD τ).loc b), ((c : Thread nD τ).loc b) ↦{fullShare} f)

/-- The scoped rest of the region with the three scratch buffers as owned memrefs. -/
theorem PhiA1_eq (c : Dev nD) :
    (Pipeline.ΦA spec1 c : sProp 𝕄)
      = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg7_1 ∗ anyBuf (F := F) c cc0_stg8_0 ∗ anyBuf (F := F) c cc0_stg8_1 ∗ anyBuf (F := F) c cc0_stg9_0 ∗ anyBuf (F := F) c cc0_stg9_1 ∗ (∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest1_eq]; simp only [scM0, scM1, scM2, owns_whole]; try rfl

/-! ## The stored pieces cover their buffers -/

theorem coverFirst0 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : condFirst i) (hc1 : ¬condLast i) (x0 : Vec F S1x1024x1024 .bf16) (x1 : Vec F S1x256x1024 .bf16) (x2 : Vec F S1x256x1024 .bf16)  (y : S1x1024x1.Idx) :
    ∃ pc ∈ (runFirst c i arg3 harg3 arg4 harg4 arg5 harg5 arg6 harg6 arg7 harg7 arg8 harg8 arg9 harg9 hc0 hc1 x0 x1 x2 ).1, y ∈ pc.1.set :=
  View.cover_of_tiledL (runFirst c i arg3 harg3 arg4 harg4 arg5 harg5 arg6 harg6 arg7 harg7 arg8 harg8 arg9 harg9 hc0 hc1 x0 x1 x2 ).1 S1x1024x1.size (by sl_kernel_rfl) y
theorem coverFirst1 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : condFirst i) (hc1 : ¬condLast i) (x0 : Vec F S1x1024x1024 .bf16) (x1 : Vec F S1x256x1024 .bf16) (x2 : Vec F S1x256x1024 .bf16)  (y : S1x1024x1.Idx) :
    ∃ pc ∈ (runFirst c i arg3 harg3 arg4 harg4 arg5 harg5 arg6 harg6 arg7 harg7 arg8 harg8 arg9 harg9 hc0 hc1 x0 x1 x2 ).2.1, y ∈ pc.1.set :=
  View.cover_of_tiledL (runFirst c i arg3 harg3 arg4 harg4 arg5 harg5 arg6 harg6 arg7 harg7 arg8 harg8 arg9 harg9 hc0 hc1 x0 x1 x2 ).2.1 S1x1024x1.size (by sl_kernel_rfl) y
theorem coverFirst2 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : condFirst i) (hc1 : ¬condLast i) (x0 : Vec F S1x1024x1024 .bf16) (x1 : Vec F S1x256x1024 .bf16) (x2 : Vec F S1x256x1024 .bf16)  (y : S1x1024x1024.Idx) :
    ∃ pc ∈ (runFirst c i arg3 harg3 arg4 harg4 arg5 harg5 arg6 harg6 arg7 harg7 arg8 harg8 arg9 harg9 hc0 hc1 x0 x1 x2 ).2.2.1, y ∈ pc.1.set :=
  View.cover_of_tiledL (runFirst c i arg3 harg3 arg4 harg4 arg5 harg5 arg6 harg6 arg7 harg7 arg8 harg8 arg9 harg9 hc0 hc1 x0 x1 x2 ).2.2.1 S1x1024x1024.size (by sl_kernel_rfl) y
theorem coverMid0 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : ¬condLast i) (x0 : Vec F S1x1024x1024 .bf16) (x1 : Vec F S1x256x1024 .bf16) (x2 : Vec F S1x256x1024 .bf16) (s0 : Vec F S1x1024x1 .f32) (s1 : Vec F S1x1024x1 .f32) (s2 : Vec F S1x1024x1024 .f32) (y : S1x1024x1.Idx) :
    ∃ pc ∈ (runMid c i arg3 harg3 arg4 harg4 arg5 harg5 arg6 harg6 arg7 harg7 arg8 harg8 arg9 harg9 hc0 hc1 x0 x1 x2 s0 s1 s2).1, y ∈ pc.1.set :=
  View.cover_of_tiledL (runMid c i arg3 harg3 arg4 harg4 arg5 harg5 arg6 harg6 arg7 harg7 arg8 harg8 arg9 harg9 hc0 hc1 x0 x1 x2 s0 s1 s2).1 S1x1024x1.size (by sl_kernel_rfl) y
theorem coverMid1 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : ¬condLast i) (x0 : Vec F S1x1024x1024 .bf16) (x1 : Vec F S1x256x1024 .bf16) (x2 : Vec F S1x256x1024 .bf16) (s0 : Vec F S1x1024x1 .f32) (s1 : Vec F S1x1024x1 .f32) (s2 : Vec F S1x1024x1024 .f32) (y : S1x1024x1.Idx) :
    ∃ pc ∈ (runMid c i arg3 harg3 arg4 harg4 arg5 harg5 arg6 harg6 arg7 harg7 arg8 harg8 arg9 harg9 hc0 hc1 x0 x1 x2 s0 s1 s2).2.1, y ∈ pc.1.set :=
  View.cover_of_tiledL (runMid c i arg3 harg3 arg4 harg4 arg5 harg5 arg6 harg6 arg7 harg7 arg8 harg8 arg9 harg9 hc0 hc1 x0 x1 x2 s0 s1 s2).2.1 S1x1024x1.size (by sl_kernel_rfl) y
theorem coverMid2 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : ¬condLast i) (x0 : Vec F S1x1024x1024 .bf16) (x1 : Vec F S1x256x1024 .bf16) (x2 : Vec F S1x256x1024 .bf16) (s0 : Vec F S1x1024x1 .f32) (s1 : Vec F S1x1024x1 .f32) (s2 : Vec F S1x1024x1024 .f32) (y : S1x1024x1024.Idx) :
    ∃ pc ∈ (runMid c i arg3 harg3 arg4 harg4 arg5 harg5 arg6 harg6 arg7 harg7 arg8 harg8 arg9 harg9 hc0 hc1 x0 x1 x2 s0 s1 s2).2.2.1, y ∈ pc.1.set :=
  View.cover_of_tiledL (runMid c i arg3 harg3 arg4 harg4 arg5 harg5 arg6 harg6 arg7 harg7 arg8 harg8 arg9 harg9 hc0 hc1 x0 x1 x2 s0 s1 s2).2.2.1 S1x1024x1024.size (by sl_kernel_rfl) y
theorem coverLastO (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : condLast i) (x0 : Vec F S1x1024x1024 .bf16) (x1 : Vec F S1x256x1024 .bf16) (x2 : Vec F S1x256x1024 .bf16) (s0 : Vec F S1x1024x1 .f32) (s1 : Vec F S1x1024x1 .f32) (s2 : Vec F S1x1024x1024 .f32) (y : S1x1024x1024.Idx) :
    ∃ pc ∈ (runLast c i arg3 harg3 arg4 harg4 arg5 harg5 arg6 harg6 arg7 harg7 arg8 harg8 arg9 harg9 hc0 hc1 x0 x1 x2 s0 s1 s2).1, y ∈ pc.1.set :=
  View.cover_of_tiledL (runLast c i arg3 harg3 arg4 harg4 arg5 harg5 arg6 harg6 arg7 harg7 arg8 harg8 arg9 harg9 hc0 hc1 x0 x1 x2 s0 s1 s2).1 S1x1024x1024.size (by sl_kernel_rfl) y
theorem coverLast0 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : condLast i) (x0 : Vec F S1x1024x1024 .bf16) (x1 : Vec F S1x256x1024 .bf16) (x2 : Vec F S1x256x1024 .bf16) (s0 : Vec F S1x1024x1 .f32) (s1 : Vec F S1x1024x1 .f32) (s2 : Vec F S1x1024x1024 .f32) (y : S1x1024x1.Idx) :
    ∃ pc ∈ (runLast c i arg3 harg3 arg4 harg4 arg5 harg5 arg6 harg6 arg7 harg7 arg8 harg8 arg9 harg9 hc0 hc1 x0 x1 x2 s0 s1 s2).2.1, y ∈ pc.1.set :=
  View.cover_of_tiledL (runLast c i arg3 harg3 arg4 harg4 arg5 harg5 arg6 harg6 arg7 harg7 arg8 harg8 arg9 harg9 hc0 hc1 x0 x1 x2 s0 s1 s2).2.1 S1x1024x1.size (by sl_kernel_rfl) y
theorem coverLast1 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : condLast i) (x0 : Vec F S1x1024x1024 .bf16) (x1 : Vec F S1x256x1024 .bf16) (x2 : Vec F S1x256x1024 .bf16) (s0 : Vec F S1x1024x1 .f32) (s1 : Vec F S1x1024x1 .f32) (s2 : Vec F S1x1024x1024 .f32) (y : S1x1024x1.Idx) :
    ∃ pc ∈ (runLast c i arg3 harg3 arg4 harg4 arg5 harg5 arg6 harg6 arg7 harg7 arg8 harg8 arg9 harg9 hc0 hc1 x0 x1 x2 s0 s1 s2).2.2.1, y ∈ pc.1.set :=
  View.cover_of_tiledL (runLast c i arg3 harg3 arg4 harg4 arg5 harg5 arg6 harg6 arg7 harg7 arg8 harg8 arg9 harg9 hc0 hc1 x0 x1 x2 s0 s1 s2).2.2.1 S1x1024x1.size (by sl_kernel_rfl) y
theorem coverLast2 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : condLast i) (x0 : Vec F S1x1024x1024 .bf16) (x1 : Vec F S1x256x1024 .bf16) (x2 : Vec F S1x256x1024 .bf16) (s0 : Vec F S1x1024x1 .f32) (s1 : Vec F S1x1024x1 .f32) (s2 : Vec F S1x1024x1024 .f32) (y : S1x1024x1024.Idx) :
    ∃ pc ∈ (runLast c i arg3 harg3 arg4 harg4 arg5 harg5 arg6 harg6 arg7 harg7 arg8 harg8 arg9 harg9 hc0 hc1 x0 x1 x2 s0 s1 s2).2.2.2.1, y ∈ pc.1.set :=
  View.cover_of_tiledL (runLast c i arg3 harg3 arg4 harg4 arg5 harg5 arg6 harg6 arg7 harg7 arg8 harg8 arg9 harg9 hc0 hc1 x0 x1 x2 s0 s1 s2).2.2.2.1 S1x1024x1024.size (by sl_kernel_rfl) y

/-! ## What the buffers hold after each point -/

/-- The output buffer and the three scratch buffers. -/
abbrev St (F : FTy → Type) [FloatOps F] : Type :=
  Vec F S1x1024x1024 .f32 × Vec F S1x1024x1 .f32 × Vec F S1x1024x1 .f32 × Vec F S1x1024x1024 .f32

/-- The four buffers read back after the given pieces were written (over contents that do not matter when the pieces
    cover the buffer). -/
def stOf (LO : List (View.Piece (Elt F) S1x1024x1024 .f32)) (L0 L1 : List (View.Piece (Elt F) S1x1024x1 .f32))
    (L2 : List (View.Piece (Elt F) S1x1024x1024 .f32)) : St F :=
  (VO.read (Elt F) (VO.writes (Elt F) VO.junk LO), VS0.read (Elt F) (VS0.writes (Elt F) VS0.junk L0),
    VS1.read (Elt F) (VS1.writes (Elt F) VS1.junk L1), VS2.read (Elt F) (VS2.writes (Elt F) VS2.junk L2))

/-- The run at a first key block, at the point's buffers and blocks. -/
def rF (c : Dev nD) (t : Fin cfg1.N) (h0 : t.val % 8 = 0) (h1 : ¬t.val % 8 = 7) :=
  runFirst (F := F) c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) ((hcondFirst t).mpr h0) (fun h => h1 ((hcondLast t).mp h)) (blk1 V c 0 t) (blk1 V c 1 t) (blk1 V c 2 t)
/-- The run at a middle key block, over what the point before left in the scratch buffers. -/
def rM (c : Dev nD) (t : Fin cfg1.N) (h0 : ¬t.val % 8 = 0) (h1 : ¬t.val % 8 = 7) (s : St F) :=
  runMid (F := F) c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) (fun h => h0 ((hcondFirst t).mp h)) (fun h => h1 ((hcondLast t).mp h)) (blk1 V c 0 t) (blk1 V c 1 t) (blk1 V c 2 t) s.2.1 s.2.2.1 s.2.2.2
/-- The run at a last key block. -/
def rL (c : Dev nD) (t : Fin cfg1.N) (h0 : ¬t.val % 8 = 0) (h1 : t.val % 8 = 7) (s : St F) :=
  runLast (F := F) c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) (fun h => h0 ((hcondFirst t).mp h)) ((hcondLast t).mpr h1) (blk1 V c 0 t) (blk1 V c 1 t) (blk1 V c 2 t) s.2.1 s.2.2.1 s.2.2.2

/-- What the four buffers hold after the body at position `n`: by the case of `n` modulo eight, over what position
    `n - 1` left. -/
def stAt (c : Dev nD) : (n : ℕ) → n < cfg1.N → St F
  | 0, hn => stOf [] (rF V c ⟨0, hn⟩ (Nat.zero_mod _) (by show ¬ ((0 : ℕ) % 8 = 7); decide)).1 (rF V c ⟨0, hn⟩ (Nat.zero_mod _) (by show ¬ ((0 : ℕ) % 8 = 7); decide)).2.1 (rF V c ⟨0, hn⟩ (Nat.zero_mod _) (by show ¬ ((0 : ℕ) % 8 = 7); decide)).2.2.1
  | n + 1, hn =>
    if h0 : (n + 1) % 8 = 0 then
      if h1 : (n + 1) % 8 = 7 then False.elim (by omega)
      else stOf [] (rF V c ⟨n + 1, hn⟩ h0 h1).1 (rF V c ⟨n + 1, hn⟩ h0 h1).2.1 (rF V c ⟨n + 1, hn⟩ h0 h1).2.2.1
    else
      if h1 : (n + 1) % 8 = 7 then
        stOf (rL V c ⟨n + 1, hn⟩ h0 h1 (stAt c n (Nat.lt_of_succ_lt hn))).1 (rL V c ⟨n + 1, hn⟩ h0 h1 (stAt c n (Nat.lt_of_succ_lt hn))).2.1
          (rL V c ⟨n + 1, hn⟩ h0 h1 (stAt c n (Nat.lt_of_succ_lt hn))).2.2.1 (rL V c ⟨n + 1, hn⟩ h0 h1 (stAt c n (Nat.lt_of_succ_lt hn))).2.2.2.1
      else
        stOf [] (rM V c ⟨n + 1, hn⟩ h0 h1 (stAt c n (Nat.lt_of_succ_lt hn))).1 (rM V c ⟨n + 1, hn⟩ h0 h1 (stAt c n (Nat.lt_of_succ_lt hn))).2.1
          (rM V c ⟨n + 1, hn⟩ h0 h1 (stAt c n (Nat.lt_of_succ_lt hn))).2.2.1

theorem stAt_first (c : Dev nD) (t : Fin cfg1.N) (h0 : t.val % 8 = 0) (h1 : ¬t.val % 8 = 7) :
    stAt V c t.val t.isLt = stOf [] (rF V c t h0 h1).1 (rF V c t h0 h1).2.1 (rF V c t h0 h1).2.2.1 := by
  obtain ⟨n, hn⟩ := t
  cases n with
  | zero => exact rfl
  | succ n => exact (dif_pos h0).trans ((dif_neg h1).trans rfl)

theorem stAt_mid (c : Dev nD) (t : Fin cfg1.N) (h0 : ¬t.val % 8 = 0) (h1 : ¬t.val % 8 = 7) :
    stAt V c t.val t.isLt = stOf [] (rM V c t h0 h1 (stAt V c (t.val - 1) (Nat.lt_of_le_of_lt (Nat.sub_le _ _) t.isLt))).1 (rM V c t h0 h1 (stAt V c (t.val - 1) (Nat.lt_of_le_of_lt (Nat.sub_le _ _) t.isLt))).2.1 (rM V c t h0 h1 (stAt V c (t.val - 1) (Nat.lt_of_le_of_lt (Nat.sub_le _ _) t.isLt))).2.2.1 := by
  obtain ⟨n, hn⟩ := t
  cases n with
  | zero => exact absurd (Nat.zero_mod _) h0
  | succ n => exact (dif_neg h0).trans ((dif_neg h1).trans rfl)

theorem stAt_last (c : Dev nD) (t : Fin cfg1.N) (h0 : ¬t.val % 8 = 0) (h1 : t.val % 8 = 7) :
    stAt V c t.val t.isLt = stOf (rL V c t h0 h1 (stAt V c (t.val - 1) (Nat.lt_of_le_of_lt (Nat.sub_le _ _) t.isLt))).1 (rL V c t h0 h1 (stAt V c (t.val - 1) (Nat.lt_of_le_of_lt (Nat.sub_le _ _) t.isLt))).2.1 (rL V c t h0 h1 (stAt V c (t.val - 1) (Nat.lt_of_le_of_lt (Nat.sub_le _ _) t.isLt))).2.2.1 (rL V c t h0 h1 (stAt V c (t.val - 1) (Nat.lt_of_le_of_lt (Nat.sub_le _ _) t.isLt))).2.2.2.1 := by
  obtain ⟨n, hn⟩ := t
  cases n with
  | zero => exact absurd (Nat.zero_mod _) h0
  | succ n => exact (dif_neg h0).trans ((dif_pos h1).trans rfl)

/-! ## The invariant -/

/-- Before position `n`: before the first point every scoped buffer that is no staging buffer of the region at
    anything; afterwards the three scratch buffers at what the point before left, the others at anything; the
    generator register at some state throughout. -/
def PhiS (c : Dev nD) : (n : ℕ) → n ≤ cfg1.N → sProp 𝕄
  | 0, _ => Pipeline.ΦA spec1 c
  | n + 1, hn => iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg7_1 ∗ anyBuf (F := F) c cc0_stg8_0 ∗ anyBuf (F := F) c cc0_stg8_1 ∗ anyBuf (F := F) c cc0_stg9_0 ∗ anyBuf (F := F) c cc0_stg9_1 ∗ owns (c : Thread nD τ) scM0 fullShare (stAt V c n hn).2.1 ∗ owns (c : Thread nD τ) scM1 fullShare (stAt V c n hn).2.2.1 ∗ owns (c : Thread nD τ) scM2 fullShare (stAt V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg7_1 ∗ anyBuf (F := F) c cc0_stg8_0 ∗ anyBuf (F := F) c cc0_stg8_1 ∗ anyBuf (F := F) c cc0_stg9_0 ∗ anyBuf (F := F) c cc0_stg9_1 ∗ owns (c : Thread nD τ) scM0 fullShare (stAt V c n hn).2.1 ∗ owns (c : Thread nD τ) scM1 fullShare (stAt V c n hn).2.2.1 ∗ owns (c : Thread nD τ) scM2 fullShare (stAt V c n hn).2.2.2) ∗ (∃ r, prngReg c r)) := rfl

theorem PhiS_pos (c : Dev nD) (n : ℕ) (h : n ≤ cfg1.N) (hz : n ≠ 0) :
    PhiS V c n h = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg7_1 ∗ anyBuf (F := F) c cc0_stg8_0 ∗ anyBuf (F := F) c cc0_stg8_1 ∗ anyBuf (F := F) c cc0_stg9_0 ∗ anyBuf (F := F) c cc0_stg9_1 ∗ owns (c : Thread nD τ) scM0 fullShare (stAt V c (n - 1) (by omega)).2.1 ∗ owns (c : Thread nD τ) scM1 fullShare (stAt V c (n - 1) (by omega)).2.2.1 ∗ owns (c : Thread nD τ) scM2 fullShare (stAt V c (n - 1) (by omega)).2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (stAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = (stAt V c t.val t.isLt).1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' buffers hold their blocks; the point's position modulo eight says which run
    applies; the invariant hands over the scratch buffers (at anything before the first point, else at what the point
    before left) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 8 = 0
  · have h1 : ¬t.val % 8 = 7 := by omega
    rw [show (dat1 V c).leavesExact 0 t = owns (c : Thread nD τ) (ms1_0 t) fullShare ((dat1 V c).after 0 t) from by
        unfold Dat.leavesExact; rw [live1_0 t], after1_0]
    rw [show (dat1 V c).leavesExact 1 t = owns (c : Thread nD τ) (ms1_1 t) fullShare ((dat1 V c).after 1 t) from by
        unfold Dat.leavesExact; rw [live1_1 t], after1_1]
    rw [show (dat1 V c).leavesExact 2 t = owns (c : Thread nD τ) (ms1_2 t) fullShare ((dat1 V c).after 2 t) from by
        unfold Dat.leavesExact; rw [live1_2 t], after1_2]
    rw [Dat.leavesExact_idle (dat1 V c) 3 t (idle1_3 t (fun h => h1 ((hcondLast t).mp h))) (noFlush1_3 t (fun h => h1 ((hcondLast t).mp h)))]
    rw [stAt_first V c t h0 h1]
    unfold stOf rF; (try dsimp only)
    by_cases hz : t.val = 0
    · rw [PhiS_castSucc V c t, PhiS_zero V c _ _ hz, PhiA1_eq]
      iintro ⟨⟨⟨E0, E1, E2, E3, E4, E5, E6, E7, E8, E9, E10, E11, E12, E13, HS0, HS1, HS2⟩, Hg⟩, Ho, ⟨%d0, H0⟩, ⟨%d1, H1⟩, ⟨%d2, H2⟩, ⟨%d3, H3⟩⟩
      iapply ((runFirst c (grid1.coords t) _ _ _ _ _ _ _ _ _ _ _ _ _ _ ((hcondFirst t).mpr h0) (fun h => h1 ((hcondLast t).mp h)) (blk1 V c 0 t) (blk1 V c 1 t) (blk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [E0 E1 E2 E3 E4 E5 E6 E7 E8 E9 E10 E11 E12 E13 HS0 HS1 HS2 Hg]
      · isplitl [E0 E1 E2 E3 E4 E5 E6 E7 E8 E9 E10 E11 E12 E13 HS0 HS1 HS2]
        swap; · iexact Hg
        isplitl [E0]; · iexact E0
        isplitl [E1]; · iexact E1
        isplitl [E2]; · iexact E2
        isplitl [E3]; · iexact E3
        isplitl [E4]; · iexact E4
        isplitl [E5]; · iexact E5
        isplitl [E6]; · iexact E6
        isplitl [E7]; · iexact E7
        isplitl [E8]; · iexact E8
        isplitl [E9]; · iexact E9
        isplitl [E10]; · iexact E10
        isplitl [E11]; · iexact E11
        isplitl [E12]; · iexact E12
        isplitl [E13]; · iexact E13
        isplitl [HS0]
        · unfold owns; iexists _; isplitr
          swap; · iexact HS0
          ipureintro; exact View.read_writes_of_cover _ _ _ _ _ (coverFirst0 c _ _ _ _ _ _ _ _ _ _ _ _ _ _ _ _ _ _ _ _)
        isplitl [HS1]
        · unfold owns; iexists _; isplitr
          swap; · iexact HS1
          ipureintro; exact View.read_writes_of_cover _ _ _ _ _ (coverFirst1 c _ _ _ _ _ _ _ _ _ _ _ _ _ _ _ _ _ _ _ _)
        unfold owns; iexists _; isplitr
        swap; · iexact HS2
        ipureintro; exact View.read_writes_of_cover _ _ _ _ _ (coverFirst2 c _ _ _ _ _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨E0, E1, E2, E3, E4, E5, E6, E7, E8, E9, E10, E11, E12, E13, HS0, HS1, HS2⟩, Hg⟩, Ho, ⟨%d0, H0⟩, ⟨%d1, H1⟩, ⟨%d2, H2⟩, ⟨%d3, H3⟩⟩
      iapply ((runFirst c (grid1.coords t) _ _ _ _ _ _ _ _ _ _ _ _ _ _ ((hcondFirst t).mpr h0) (fun h => h1 ((hcondLast t).mp h)) (blk1 V c 0 t) (blk1 V c 1 t) (blk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [E0 E1 E2 E3 E4 E5 E6 E7 E8 E9 E10 E11 E12 E13 HS0 HS1 HS2 Hg]
      · isplitl [E0 E1 E2 E3 E4 E5 E6 E7 E8 E9 E10 E11 E12 E13 HS0 HS1 HS2]
        swap; · iexact Hg
        isplitl [E0]; · iexact E0
        isplitl [E1]; · iexact E1
        isplitl [E2]; · iexact E2
        isplitl [E3]; · iexact E3
        isplitl [E4]; · iexact E4
        isplitl [E5]; · iexact E5
        isplitl [E6]; · iexact E6
        isplitl [E7]; · iexact E7
        isplitl [E8]; · iexact E8
        isplitl [E9]; · iexact E9
        isplitl [E10]; · iexact E10
        isplitl [E11]; · iexact E11
        isplitl [E12]; · iexact E12
        isplitl [E13]; · iexact E13
        isplitl [HS0]
        · unfold owns; iexists _; isplitr
          swap; · iexact HS0
          ipureintro; exact View.read_writes_of_cover _ _ _ _ _ (coverFirst0 c _ _ _ _ _ _ _ _ _ _ _ _ _ _ _ _ _ _ _ _)
        isplitl [HS1]
        · unfold owns; iexists _; isplitr
          swap; · iexact HS1
          ipureintro; exact View.read_writes_of_cover _ _ _ _ _ (coverFirst1 c _ _ _ _ _ _ _ _ _ _ _ _ _ _ _ _ _ _ _ _)
        unfold owns; iexists _; isplitr
        swap; · iexact HS2
        ipureintro; exact View.read_writes_of_cover _ _ _ _ _ (coverFirst2 c _ _ _ _ _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat1 V c).leavesExact 0 t = owns (c : Thread nD τ) (ms1_0 t) fullShare ((dat1 V c).after 0 t) from by
          unfold Dat.leavesExact; rw [live1_0 t], after1_0]
      rw [show (dat1 V c).leavesExact 1 t = owns (c : Thread nD τ) (ms1_1 t) fullShare ((dat1 V c).after 1 t) from by
          unfold Dat.leavesExact; rw [live1_1 t], after1_1]
      rw [show (dat1 V c).leavesExact 2 t = owns (c : Thread nD τ) (ms1_2 t) fullShare ((dat1 V c).after 2 t) from by
          unfold Dat.leavesExact; rw [live1_2 t], after1_2]
      rw [show (dat1 V c).leavesExact 3 t = owns (c : Thread nD τ) (ms1_3 t) fullShare ((dat1 V c).after 3 t) from by
          unfold Dat.leavesExact; rw [live1_3 t ((hcondLast t).mpr h1)], after1_3]
      rw [stAt_last V c t h0 h1]
      unfold stOf rL; (try dsimp only)
      rw [PhiS_castSucc V c t, PhiS_pos V c _ _ hz]
      iintro ⟨⟨⟨E0, E1, E2, E3, E4, E5, E6, E7, E8, E9, E10, E11, E12, E13, HS0, HS1, HS2⟩, Hg⟩, Ho, ⟨%d0, H0⟩, ⟨%d1, H1⟩, ⟨%d2, H2⟩, ⟨%d3, H3⟩⟩
      iapply ((runLast c (grid1.coords t) _ _ _ _ _ _ _ _ _ _ _ _ _ _ (fun h => h0 ((hcondFirst t).mp h)) ((hcondLast t).mpr h1) (blk1 V c 0 t) (blk1 V c 1 t) (blk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [E0 E1 E2 E3 E4 E5 E6 E7 E8 E9 E10 E11 E12 E13 HS0 HS1 HS2 Hg]
      · isplitl [E0 E1 E2 E3 E4 E5 E6 E7 E8 E9 E10 E11 E12 E13 HS0 HS1 HS2]
        swap; · iexact Hg
        isplitl [E0]; · iexact E0
        isplitl [E1]; · iexact E1
        isplitl [E2]; · iexact E2
        isplitl [E3]; · iexact E3
        isplitl [E4]; · iexact E4
        isplitl [E5]; · iexact E5
        isplitl [E6]; · iexact E6
        isplitl [E7]; · iexact E7
        isplitl [E8]; · iexact E8
        isplitl [E9]; · iexact E9
        isplitl [E10]; · iexact E10
        isplitl [E11]; · iexact E11
        isplitl [E12]; · iexact E12
        isplitl [E13]; · iexact E13
        isplitl [HS0]
        · unfold owns; iexists _; isplitr
          swap; · iexact HS0
          ipureintro; exact View.read_writes_of_cover _ _ _ _ _ (coverLast0 c _ _ _ _ _ _ _ _ _ _ _ _ _ _ _ _ _ _ _ _ _ _ _)
        isplitl [HS1]
        · unfold owns; iexists _; isplitr
          swap; · iexact HS1
          ipureintro; exact View.read_writes_of_cover _ _ _ _ _ (coverLast1 c _ _ _ _ _ _ _ _ _ _ _ _ _ _ _ _ _ _ _ _ _ _ _)
        unfold owns; iexists _; isplitr
        swap; · iexact HS2
        ipureintro; exact View.read_writes_of_cover _ _ _ _ _ (coverLast2 c _ _ _ _ _ _ _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastO c _ _ _ _ _ _ _ _ _ _ _ _ _ _ _ _ _ _ _ _ _ _ _)
    · rw [show (dat1 V c).leavesExact 0 t = owns (c : Thread nD τ) (ms1_0 t) fullShare ((dat1 V c).after 0 t) from by
          unfold Dat.leavesExact; rw [live1_0 t], after1_0]
      rw [show (dat1 V c).leavesExact 1 t = owns (c : Thread nD τ) (ms1_1 t) fullShare ((dat1 V c).after 1 t) from by
          unfold Dat.leavesExact; rw [live1_1 t], after1_1]
      rw [show (dat1 V c).leavesExact 2 t = owns (c : Thread nD τ) (ms1_2 t) fullShare ((dat1 V c).after 2 t) from by
          unfold Dat.leavesExact; rw [live1_2 t], after1_2]
      rw [Dat.leavesExact_idle (dat1 V c) 3 t (idle1_3 t (fun h => h1 ((hcondLast t).mp h))) (noFlush1_3 t (fun h => h1 ((hcondLast t).mp h)))]
      rw [stAt_mid V c t h0 h1]
      unfold stOf rM; (try dsimp only)
      rw [PhiS_castSucc V c t, PhiS_pos V c _ _ hz]
      iintro ⟨⟨⟨E0, E1, E2, E3, E4, E5, E6, E7, E8, E9, E10, E11, E12, E13, HS0, HS1, HS2⟩, Hg⟩, Ho, ⟨%d0, H0⟩, ⟨%d1, H1⟩, ⟨%d2, H2⟩, ⟨%d3, H3⟩⟩
      iapply ((runMid c (grid1.coords t) _ _ _ _ _ _ _ _ _ _ _ _ _ _ (fun h => h0 ((hcondFirst t).mp h)) (fun h => h1 ((hcondLast t).mp h)) (blk1 V c 0 t) (blk1 V c 1 t) (blk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [E0 E1 E2 E3 E4 E5 E6 E7 E8 E9 E10 E11 E12 E13 HS0 HS1 HS2 Hg]
      · isplitl [E0 E1 E2 E3 E4 E5 E6 E7 E8 E9 E10 E11 E12 E13 HS0 HS1 HS2]
        swap; · iexact Hg
        isplitl [E0]; · iexact E0
        isplitl [E1]; · iexact E1
        isplitl [E2]; · iexact E2
        isplitl [E3]; · iexact E3
        isplitl [E4]; · iexact E4
        isplitl [E5]; · iexact E5
        isplitl [E6]; · iexact E6
        isplitl [E7]; · iexact E7
        isplitl [E8]; · iexact E8
        isplitl [E9]; · iexact E9
        isplitl [E10]; · iexact E10
        isplitl [E11]; · iexact E11
        isplitl [E12]; · iexact E12
        isplitl [E13]; · iexact E13
        isplitl [HS0]
        · unfold owns; iexists _; isplitr
          swap; · iexact HS0
          ipureintro; exact View.read_writes_of_cover _ _ _ _ _ (coverMid0 c _ _ _ _ _ _ _ _ _ _ _ _ _ _ _ _ _ _ _ _ _ _ _)
        isplitl [HS1]
        · unfold owns; iexists _; isplitr
          swap; · iexact HS1
          ipureintro; exact View.read_writes_of_cover _ _ _ _ _ (coverMid1 c _ _ _ _ _ _ _ _ _ _ _ _ _ _ _ _ _ _ _ _ _ _ _)
        unfold owns; iexists _; isplitr
        swap; · iexact HS2
        ipureintro; exact View.read_writes_of_cover _ _ _ _ _ (coverMid2 c _ _ _ _ _ _ _ _ _ _ _ _ _ _ _ _ _ _ _ _ _ _ _)
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back, the scratch buffers' contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨E0, E1, E2, E3, E4, E5, E6, E7, E8, E9, E10, E11, E12, E13, HS0, HS1, HS2⟩, Hg⟩
  isplitl [E0 E1 E2 E3 E4 E5 E6 E7 E8 E9 E10 E11 E12 E13 HS0 HS1 HS2]
  swap; · iexact Hg
  isplitl [E0]; · iexact E0
  isplitl [E1]; · iexact E1
  isplitl [E2]; · iexact E2
  isplitl [E3]; · iexact E3
  isplitl [E4]; · iexact E4
  isplitl [E5]; · iexact E5
  isplitl [E6]; · iexact E6
  isplitl [E7]; · iexact E7
  isplitl [E8]; · iexact E8
  isplitl [E9]; · iexact E9
  isplitl [E10]; · iexact E10
  isplitl [E11]; · iexact E11
  isplitl [E12]; · iexact E12
  isplitl [E13]; · iexact E13
  isplitl [HS0]; · iexists _; iexact HS0
  isplitl [HS1]; · iexists _; iexact HS1
  iexists _; iexact HS2

end Cert.KernelIdeal.Hand

end
-- ==== Proof.MainRunIdeal.lean ====
/-
  The whole program as four segments — the reshapes of the activations and the bias vectors, the projection region,
  the reshapes of the three projections back to batches, the attention region — and the buffer contents at each
  boundary as a fold from the launch memory. Every weakly fair execution terminates and every unscoped buffer ends
  at the last boundary's contents; the argument arrays' contents there are the launch contents, no segment writing one.
-/
import proofs.«116119_j1176821039548_2_alg».proof.Proof.ProjRegionIdeal
import proofs.«116119_j1176821039548_2_alg».proof.Proof.AttnRegionIdeal
import proofs.«116119_j1176821039548_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention region. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched; the result is the attention region's output array -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide : main_arg1 ∉ hostOps1_W)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_writes_sub hostOps0 _ hostOps0_writes (by decide : main_arg1 ∉ hostOps0_W)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide : main_arg2 ∉ hostOps1_W)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide : main_arg3 ∉ hostOps1_W)
    _ = W1 m c (Proc.devRef .tc main_arg3) := (W2_arr m c 3).trans (((dat0 (V1 m) c).arrAt_in 3 rfl _).trans (A_eq0 (V1 m) c 3))
    _ = W0 m c (Proc.devRef .tc main_arg3) := StableHlo.after_of_writes_sub hostOps0 _ hostOps0_writes (by decide : main_arg3 ∉ hostOps0_W)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide : main_arg4 ∉ hostOps1_W)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide : main_arg5 ∉ hostOps1_W)
    _ = W1 m c (Proc.devRef .tc main_arg5) := (W2_arr m c 5).trans (((dat0 (V1 m) c).arrAt_in 5 rfl _).trans (A_eq0 (V1 m) c 5))
    _ = W0 m c (Proc.devRef .tc main_arg5) := StableHlo.after_of_writes_sub hostOps0 _ hostOps0_writes (by decide : main_arg5 ∉ hostOps0_W)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide : main_arg6 ∉ hostOps1_W)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl

theorem W4_main_v8 (c : Dev nD) : W4 m c (Proc.devRef .tc main_v8) = (dat1 (V3 m) c).arrAt 3 cfg1.N := W4_arr m c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-- The scoped rest and the generator register, taken apart. -/
theorem PhiA1_elim (c : Dev nD) : (Pipeline.ΦA spec1 c : sProp 𝕄)
    ⊢ iprop(Pipeline.scopedRest (Ix := Unit) (Name := ℕ) (U := UR sig nD τ) (Lvl := ℕ) (Val := Elt F) spec1 c ∗ ∃ r, prngReg c r) := by
  unfold Pipeline.ΦA; exact BI.Entails.refl _

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = (dat1 (V3 m) c).Φ (Fin.last cfg1.N) from rfl]
    iintro Hphi
    ihave H := ((hout1 (V3 m) c).trans (PhiA1_elim c)) $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution of the program from memory `m` terminates, and every unscoped buffer of every core
    ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.Hand

end
-- ==== Proof.FrameClaims.lean ====
/-
  The three frame claims and the idealization's ledger. Each kernel program runs to the end with every unscoped
  buffer at the last boundary's contents, and those contents at an argument array are the launch contents, no host
  operation and no region writing one. The reference has no kernel region: its run, with the result dropped, is its
  frame. The ideal pass rewrote nothing, so there is nothing to preserve.
-/
import proofs.«116119_j1176821039548_2_alg».proof.Defs
import proofs.«116119_j1176821039548_2_alg».proof.Proof.Gen.Kernel
import proofs.«116119_j1176821039548_2_alg».proof.Proof.Gen.KernelIdeal
import proofs.«116119_j1176821039548_2_alg».proof.Proof.Gen.ReferenceIdeal
import proofs.«116119_j1176821039548_2_alg».proof.Proof.Gen.Pre_finite_inputs
import proofs.«116119_j1176821039548_2_alg».proof.Proof.MainRunBits
import proofs.«116119_j1176821039548_2_alg».proof.Proof.MainRunIdeal
import proofs.«116119_j1176821039548_2_alg».proof.Proof.Gen.ReferenceIdeal.Run

noncomputable section

namespace Cert.Proof.Claims

open Idealize.ShloMosaic Idealize.ShloMosaic.TcCoe Idealize.SL.Sem

theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W4_main_arg0 m c),
      (h c _ (Cert.Kernel.Hand.mem_uc Cert.Kernel.main_arg1 (by decide))).trans (Cert.Kernel.Hand.W4_main_arg1 m c),
      (h c _ (Cert.Kernel.Hand.mem_uc Cert.Kernel.main_arg2 (by decide))).trans (Cert.Kernel.Hand.W4_main_arg2 m c),
      (h c _ (Cert.Kernel.Hand.mem_uc Cert.Kernel.main_arg3 (by decide))).trans (Cert.Kernel.Hand.W4_main_arg3 m c),
      (h c _ (Cert.Kernel.Hand.mem_uc Cert.Kernel.main_arg4 (by decide))).trans (Cert.Kernel.Hand.W4_main_arg4 m c),
      (h c _ (Cert.Kernel.Hand.mem_uc Cert.Kernel.main_arg5 (by decide))).trans (Cert.Kernel.Hand.W4_main_arg5 m c),
      (h c _ (Cert.Kernel.Hand.mem_uc Cert.Kernel.main_arg6 (by decide))).trans (Cert.Kernel.Hand.W4_main_arg6 m c)⟩)
    (Cert.Kernel.Hand.run_all (F := Bits) m ρ)

theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W4_main_arg0 m c),
      (h c _ (Cert.KernelIdeal.Hand.mem_uc Cert.KernelIdeal.main_arg1 (by decide))).trans (Cert.KernelIdeal.Hand.W4_main_arg1 m c),
      (h c _ (Cert.KernelIdeal.Hand.mem_uc Cert.KernelIdeal.main_arg2 (by decide))).trans (Cert.KernelIdeal.Hand.W4_main_arg2 m c),
      (h c _ (Cert.KernelIdeal.Hand.mem_uc Cert.KernelIdeal.main_arg3 (by decide))).trans (Cert.KernelIdeal.Hand.W4_main_arg3 m c),
      (h c _ (Cert.KernelIdeal.Hand.mem_uc Cert.KernelIdeal.main_arg4 (by decide))).trans (Cert.KernelIdeal.Hand.W4_main_arg4 m c),
      (h c _ (Cert.KernelIdeal.Hand.mem_uc Cert.KernelIdeal.main_arg5 (by decide))).trans (Cert.KernelIdeal.Hand.W4_main_arg5 m c),
      (h c _ (Cert.KernelIdeal.Hand.mem_uc Cert.KernelIdeal.main_arg6 (by decide))).trans (Cert.KernelIdeal.Hand.W4_main_arg6 m c)⟩)
    (Cert.KernelIdeal.Hand.run_all (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

end Cert.Proof.Claims

end
-- ==== Proof.ProjValueIdeal.lean ====
/-
  The first region's value. Each of the three stores is, index by index, a row of the activations' block contracted
  with a row of the weight matrix, plus the bias row's entry: at the ideal values the two narrowing conversions are the
  identity and the matrix product with a zero accumulator is the plain sum over the contracted axis. Every grid point
  takes 512 consecutive rows, the sixteen points cover the 8192 rows, and so each output array ends as that same
  function of the whole input arrays.
-/
import proofs.«116119_j1176821039548_2_alg».proof.Proof.ProjRegionIdeal
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.ProjValue

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## The payload at an index -/

theorem hz : (![0, 0] : Fin 2 → Nat) = fun _ => 0 := funext fun a => by fin_cases a <;> rfl

/-- The left operand's row coordinate is the result's row. -/
theorem lhs_row (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- The left operand's column coordinate is the contracted one. -/
theorem lhs_col (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- The right operand's row coordinate is the result's column. -/
theorem rhs_row (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- The right operand's column coordinate is the contracted one. -/
theorem rhs_col (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The matrix product with a zero accumulator at `(p, e)`: row `p` of the left operand against row `e` of the right. -/
theorem matmul_at (A : FVec Ideal S512x1024 .bf16) (B : FVec Ideal S1024x1024 .bf16) (p : Fin 512) (e : Fin 1024) :
    matmul dot_S512x1024_S1024x1024_S512x1024_1_1_0_0_n_n none A B (constant (F := Ideal) S512x1024 .f32 0x00000000#32) (ix2 p e)
      = ∑ d : Fin 1024, A (ix2 p d) * B (ix2 e d) := by
  refine (Ideal.matmul_constant_zero_apply dot_S512x1024_S1024x1024_S512x1024_1_1_0_0_n_n none A B (ix2 p e)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p e) ((contrEquiv1 dot_S512x1024_S1024x1024_S512x1024_1_1_0_0_n_n 1024 rfl rfl).symm k) = ix2 p k := funext fun a => Fin.ext (by
    match a with
    | ⟨0, _⟩ => exact lhs_row _ _
    | ⟨1, _⟩ => exact (lhs_col _ _).trans hk)
  have er : dot_S512x1024_S1024x1024_S512x1024_1_1_0_0_n_n.rhsIdx (ix2 p e) ((contrEquiv1 dot_S512x1024_S1024x1024_S512x1024_1_1_0_0_n_n 1024 rfl rfl).symm k) = ix2 e k := funext fun a => Fin.ext (by
    match a with
    | ⟨0, _⟩ => exact rhs_row _ _
    | ⟨1, _⟩ => exact (rhs_col _ _).trans hk)
  rw [el, er]

/-- The bias row broadcast over the rows reads the row's entry in the same column. -/
theorem bias_at (b : FVec Ideal S1x1024 .f32) (p : Fin 512) (e : Fin 1024) :
    broadcastTo S512x1024 b broadcasts_S1x1024_S512x1024 (ix2 p e) = b (ix2 0 e) := by
  refine broadcastTo_apply b broadcasts_S1x1024_S512x1024 (ix2 p e) (ix2 0 e) fun a => ?_
  match a with
  | ⟨0, _⟩ => rfl
  | ⟨1, _⟩ => rfl

/-- The query projection's store at `(p, e)`. -/
theorem outQ_apply (x0 : Vec Ideal S512x1024 .f32) (x1 : Vec Ideal S1024x1024 .f32) (x2 : Vec Ideal S1x1024 .f32)
    (p : Fin 512) (e : Fin 1024) :
    outQ x0 x1 x2 (ix2 p e) = (∑ d : Fin 1024, x0 (ix2 p d) * x1 (ix2 e d)) + x2 (ix2 0 e) := by
  unfold outQ
  rw [View.canon_unit_zero hz]
  simp only [View.ld_unit_zero (S := S512x1024) hz, View.ld_unit_zero (S := S1024x1024) hz, View.ld_unit_zero (S := S1x1024) hz]
  unfold k0_pay2 k0_pay1
  simp only [shapeCast_self]
  rw [truncf_apply, addf_apply, matmul_at, bias_at]
  rfl

/-- The key projection's store at `(p, e)`. -/
theorem outK_apply (x0 : Vec Ideal S512x1024 .f32) (x1 : Vec Ideal S1024x1024 .f32) (x2 : Vec Ideal S1x1024 .f32)
    (p : Fin 512) (e : Fin 1024) :
    outK x0 x1 x2 (ix2 p e) = (∑ d : Fin 1024, x0 (ix2 p d) * x1 (ix2 e d)) + x2 (ix2 0 e) := by
  unfold outK
  rw [View.canon_unit_zero hz]
  simp only [View.ld_unit_zero (S := S512x1024) hz, View.ld_unit_zero (S := S1024x1024) hz, View.ld_unit_zero (S := S1x1024) hz]
  unfold k0_pay3 k0_pay1
  simp only [shapeCast_self]
  rw [truncf_apply, addf_apply, matmul_at, bias_at]
  rfl

/-- The value projection's store at `(p, e)`. -/
theorem outV_apply (x0 : Vec Ideal S512x1024 .f32) (x1 : Vec Ideal S1024x1024 .f32) (x2 : Vec Ideal S1x1024 .f32)
    (p : Fin 512) (e : Fin 1024) :
    outV x0 x1 x2 (ix2 p e) = (∑ d : Fin 1024, x0 (ix2 p d) * x1 (ix2 e d)) + x2 (ix2 0 e) := by
  unfold outV
  rw [View.canon_unit_zero hz]
  simp only [View.ld_unit_zero (S := S512x1024) hz, View.ld_unit_zero (S := S1024x1024) hz, View.ld_unit_zero (S := S1x1024) hz]
  unfold k0_pay4 k0_pay1
  simp only [shapeCast_self]
  rw [truncf_apply, addf_apply, matmul_at, bias_at]
  rfl

/-! ## From blocks to the arrays -/

variable (V : (c : Dev nD) → (b : Ref sig .tc) → Buf (Elt Ideal) ((c : Thread nD τ).loc b))

/-- One entry of a projection: row `r` of the activations against row `e` of the weights, plus the bias entry `e`. -/
def projAt (X : S8192x1024.Idx → EReal) (W : S1024x1024.Idx → EReal) (b : S1x1024.Idx → EReal)
    (r : Fin 8192) (e : Fin 1024) : EReal :=
  (∑ d : Fin 1024, X (ix2 r d) * W (ix2 e d)) + b (ix2 0 e)

/-- `projAt` written out. -/
theorem projAt_def (X : S8192x1024.Idx → EReal) (W : S1024x1024.Idx → EReal) (b : S1x1024.Idx → EReal)
    (r : Fin 8192) (e : Fin 1024) :
    projAt X W b r e = (∑ d : Fin 1024, X (ix2 r d) * W (ix2 e d)) + b (ix2 0 e) := rfl

/-- The whole projection as one function of the index. -/
def projArr (X : S8192x1024.Idx → EReal) (W : S1024x1024.Idx → EReal) (b : S1x1024.Idx → EReal) :
    S8192x1024.Idx → EReal :=
  fun j => projAt X W b (j 0) (j 1)

theorem projArr_ix2 (X : S8192x1024.Idx → EReal) (W : S1024x1024.Idx → EReal) (b : S1x1024.Idx → EReal)
    (r : Fin 8192) (e : Fin 1024) : projArr X W b (ix2 r e) = projAt X W b r e := rfl

/-- An index with known coordinates. -/
theorem projArr_of_coords (X : S8192x1024.Idx → EReal) (W : S1024x1024.Idx → EReal) (b : S1x1024.Idx → EReal)
    (k : S8192x1024.Idx) (r : Fin 8192) (e : Fin 1024) (h0 : (k 0).val = r.val) (h1 : (k 1).val = e.val) :
    projArr X W b k = projAt X W b r e := by
  have hk : k = ix2 r e := funext fun a => Fin.ext (by
    match a with
    | ⟨0, _⟩ => exact h0
    | ⟨1, _⟩ => exact h1)
  rw [hk, projArr_ix2]

/-- The printed index maps, decided over the grid: the activations' and the three outputs' blocks are the point's own
    512 rows, every weight matrix and bias row is its one whole block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 16 := by
  have h : t.val < cfg0.N := t.isLt
  have hN : cfg0.N = 16 := N_0
  omega

/-- The activations' block at point `t` is rows `512 t … 512 t + 511` of the array. -/
theorem blkX_apply (c : Dev nD) (t : Fin cfg0.N) (x : S512x1024.Idx) (k : S8192x1024.Idx)
    (hk0 : (k 0).val = t.val * 512 + (x 0).val) (hk1 : (k 1).val = (x 1).val) :
    (blk0 V c 0 t : Vec Ideal S512x1024 .f32) x = (V c main_v0 : S8192x1024.Idx → EReal) k := by
  obtain ⟨e0, e1, -⟩ := idx_facts t
  unfold blk0
  rw [View.read_apply]
  show V c main_v0 _ = V c main_v0 _
  congr 1
  funext a
  apply Fin.ext
  match a with
  | ⟨0, _⟩ => show win0_0.index t (0 : Fin 2) * 512 + 1 * (x 0).val = (k 0).val; rw [e0, hk0]; omega
  | ⟨1, _⟩ => show win0_0.index t (1 : Fin 2) * 1024 + 1 * (x 1).val = (k 1).val; rw [e1, hk1]; omega

/-- The query weight matrix's one block is the matrix. -/
theorem blkW1_apply (c : Dev nD) (t : Fin cfg0.N) (x : S1024x1024.Idx) :
    (blk0 V c 1 t : Vec Ideal S1024x1024 .f32) x = (V c main_arg1 : S1024x1024.Idx → EReal) x := by
  obtain ⟨_, _, _, _, _, _, _, _, _, _, _, _, _, _, _⟩ := idx_facts t
  unfold blk0
  rw [View.read_apply]
  show V c main_arg1 _ = V c main_arg1 _
  congr 1
  funext a
  apply Fin.ext
  match a with
  | ⟨0, _⟩ => show win0_1.index t (0 : Fin 2) * 1024 + 1 * (x 0).val = (x 0).val; omega
  | ⟨1, _⟩ => show win0_1.index t (1 : Fin 2) * 1024 + 1 * (x 1).val = (x 1).val; omega

/-- The key weight matrix's one block is the matrix. -/
theorem blkW3_apply (c : Dev nD) (t : Fin cfg0.N) (x : S1024x1024.Idx) :
    (blk0 V c 3 t : Vec Ideal S1024x1024 .f32) x = (V c main_arg3 : S1024x1024.Idx → EReal) x := by
  obtain ⟨_, _, _, _, _, _, _, _, _, _, _, _, _, _, _⟩ := idx_facts t
  unfold blk0
  rw [View.read_apply]
  show V c main_arg3 _ = V c main_arg3 _
  congr 1
  funext a
  apply Fin.ext
  match a with
  | ⟨0, _⟩ => show win0_3.index t (0 : Fin 2) * 1024 + 1 * (x 0).val = (x 0).val; omega
  | ⟨1, _⟩ => show win0_3.index t (1 : Fin 2) * 1024 + 1 * (x 1).val = (x 1).val; omega

/-- The value weight matrix's one block is the matrix. -/
theorem blkW5_apply (c : Dev nD) (t : Fin cfg0.N) (x : S1024x1024.Idx) :
    (blk0 V c 5 t : Vec Ideal S1024x1024 .f32) x = (V c main_arg5 : S1024x1024.Idx → EReal) x := by
  obtain ⟨_, _, _, _, _, _, _, _, _, _, _, _, _, _, _⟩ := idx_facts t
  unfold blk0
  rw [View.read_apply]
  show V c main_arg5 _ = V c main_arg5 _
  congr 1
  funext a
  apply Fin.ext
  match a with
  | ⟨0, _⟩ => show win0_5.index t (0 : Fin 2) * 1024 + 1 * (x 0).val = (x 0).val; omega
  | ⟨1, _⟩ => show win0_5.index t (1 : Fin 2) * 1024 + 1 * (x 1).val = (x 1).val; omega

/-- The query bias row's one block is the row. -/
theorem blkB2_apply (c : Dev nD) (t : Fin cfg0.N) (x : S1x1024.Idx) :
    (blk0 V c 2 t : Vec Ideal S1x1024 .f32) x = (V c main_v1 : S1x1024.Idx → EReal) x := by
  obtain ⟨_, _, _, _, _, _, _, _, _, _, _, _, _, _, _⟩ := idx_facts t
  unfold blk0
  rw [View.read_apply]
  show V c main_v1 _ = V c main_v1 _
  congr 1
  funext a
  apply Fin.ext
  match a with
  | ⟨0, _⟩ => show win0_2.index t (0 : Fin 2) * 1 + 1 * (x 0).val = (x 0).val; omega
  | ⟨1, _⟩ => show win0_2.index t (1 : Fin 2) * 1024 + 1 * (x 1).val = (x 1).val; omega

/-- The key bias row's one block is the row. -/
theorem blkB4_apply (c : Dev nD) (t : Fin cfg0.N) (x : S1x1024.Idx) :
    (blk0 V c 4 t : Vec Ideal S1x1024 .f32) x = (V c main_v2 : S1x1024.Idx → EReal) x := by
  obtain ⟨_, _, _, _, _, _, _, _, _, _, _, _, _, _, _⟩ := idx_facts t
  unfold blk0
  rw [View.read_apply]
  show V c main_v2 _ = V c main_v2 _
  congr 1
  funext a
  apply Fin.ext
  match a with
  | ⟨0, _⟩ => show win0_4.index t (0 : Fin 2) * 1 + 1 * (x 0).val = (x 0).val; omega
  | ⟨1, _⟩ => show win0_4.index t (1 : Fin 2) * 1024 + 1 * (x 1).val = (x 1).val; omega

/-- The value bias row's one block is the row. -/
theorem blkB6_apply (c : Dev nD) (t : Fin cfg0.N) (x : S1x1024.Idx) :
    (blk0 V c 6 t : Vec Ideal S1x1024 .f32) x = (V c main_v3 : S1x1024.Idx → EReal) x := by
  obtain ⟨_, _, _, _, _, _, _, _, _, _, _, _, _, _, _⟩ := idx_facts t
  unfold blk0
  rw [View.read_apply]
  show V c main_v3 _ = V c main_v3 _
  congr 1
  funext a
  apply Fin.ext
  match a with
  | ⟨0, _⟩ => show win0_6.index t (0 : Fin 2) * 1 + 1 * (x 0).val = (x 0).val; omega
  | ⟨1, _⟩ => show win0_6.index t (1 : Fin 2) * 1024 + 1 * (x 1).val = (x 1).val; omega

/-! ### Output window 7: the query projection -/

/-- What point `t` writes back is block `t` of the query projection of the whole arrays. -/
theorem flushed7_eq (c : Dev nD) (t : Fin cfg0.N) :
    (dat0 V c).flushed 7 t
      = ((cfg0.win 7).blk t).view.read (Elt Ideal) (projArr (V c main_v0) (V c main_arg1) (V c main_v1)) := by
  show (cfg0.win 7).cut (grid0.coords t) ((dat0 V c).after 7 t) = _
  rw [after0_7]
  obtain ⟨_, _, _, _, _, _, _, _, _, _, _, _, _, _, _⟩ := idx_facts t
  have ht := t_lt t
  funext j
  obtain ⟨p, e, rfl⟩ : ∃ (p : Fin 512) (e : Fin 1024), j = ix2 p e := ⟨j 0, j 1, eq_ix2 j⟩
  show outQ (blk0 V c 0 t) (blk0 V c 1 t) (blk0 V c 2 t) (ix2 p e)
    = projArr (V c main_v0) (V c main_arg1) (V c main_v1) (((cfg0.win 7).blk t).view.emb (ix2 p e))
  refine (outQ_apply _ _ _ p e).trans ?_
  have hp : p.val < 512 := p.isLt
  refine (projArr_of_coords _ _ _ _ ⟨t.val * 512 + p.val, by omega⟩ e ?_ ?_).symm ▸ ?_
  · show win0_7.index t (0 : Fin 2) * 512 + 1 * p.val = t.val * 512 + p.val; omega
  · show win0_7.index t (1 : Fin 2) * 1024 + 1 * e.val = e.val; omega
  unfold projAt
  congr 1
  · refine Finset.sum_congr rfl fun d _ => ?_
    congr 1
    · exact blkX_apply V c t (ix2 p d) (ix2 ⟨t.val * 512 + p.val, by omega⟩ d) rfl rfl
    · exact blkW1_apply V c t (ix2 e d)
  · exact blkB2_apply V c t (ix2 0 e)

/-- An index of the array is in point `t`'s block iff each coordinate is in the block's range on its axis. -/
theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v4_0).slice (win0_7.rect t)).set ↔ _
  rw [View.set_slice_whole, Rect.mem_set_unit]
  exact Iff.rfl

/-- Row `r` is in the block of the point `r / 512`. -/
theorem cover7 (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 16 := N_0
  obtain ⟨t, htv⟩ : ∃ t : Fin cfg0.N, t.val = (i 0).val / 512 := ⟨⟨(i 0).val / 512, by omega⟩, rfl⟩
  obtain ⟨_, _, _, _, _, _, _, _, _, _, _, _, _, _, _⟩ := idx_facts t
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- The query projection's array after the region, entry by entry. -/
theorem arr7_apply (c : Dev nD) (r : Fin 8192) (e : Fin 1024) :
    (dat0 V c).arrAt 7 cfg0.N (ix2 r e) = projAt (V c main_v0) (V c main_arg1) (V c main_v1) r e := by
  rw [(dat0 V c).arrAt_eq_of_cover 7 (projArr (V c main_v0) (V c main_arg1) (V c main_v1)) (fun t _ => flushed7_eq V c t) cover7]
  rfl

/-- The same with the sum written out, the three arrays named as functions into the extended reals. -/
theorem arr7_sum (c : Dev nD) (r : Fin 8192) (e : Fin 1024)
    (X : S8192x1024.Idx → EReal) (W : S1024x1024.Idx → EReal) (b : S1x1024.Idx → EReal)
    (hX : X = V c main_v0) (hW : W = V c main_arg1) (hb : b = V c main_v1) :
    (dat0 V c).arrAt 7 cfg0.N (ix2 r e) = (∑ d : Fin 1024, X (ix2 r d) * W (ix2 e d)) + b (ix2 0 e) := by
  subst hX hW hb
  exact arr7_apply V c r e

/-! ### Output window 8: the key projection -/

/-- What point `t` writes back is block `t` of the key projection of the whole arrays. -/
theorem flushed8_eq (c : Dev nD) (t : Fin cfg0.N) :
    (dat0 V c).flushed 8 t
      = ((cfg0.win 8).blk t).view.read (Elt Ideal) (projArr (V c main_v0) (V c main_arg3) (V c main_v2)) := by
  show (cfg0.win 8).cut (grid0.coords t) ((dat0 V c).after 8 t) = _
  rw [after0_8]
  obtain ⟨_, _, _, _, _, _, _, _, _, _, _, _, _, _, _⟩ := idx_facts t
  have ht := t_lt t
  funext j
  obtain ⟨p, e, rfl⟩ : ∃ (p : Fin 512) (e : Fin 1024), j = ix2 p e := ⟨j 0, j 1, eq_ix2 j⟩
  show outK (blk0 V c 0 t) (blk0 V c 3 t) (blk0 V c 4 t) (ix2 p e)
    = projArr (V c main_v0) (V c main_arg3) (V c main_v2) (((cfg0.win 8).blk t).view.emb (ix2 p e))
  refine (outK_apply _ _ _ p e).trans ?_
  have hp : p.val < 512 := p.isLt
  refine (projArr_of_coords _ _ _ _ ⟨t.val * 512 + p.val, by omega⟩ e ?_ ?_).symm ▸ ?_
  · show win0_8.index t (0 : Fin 2) * 512 + 1 * p.val = t.val * 512 + p.val; omega
  · show win0_8.index t (1 : Fin 2) * 1024 + 1 * e.val = e.val; omega
  unfold projAt
  congr 1
  · refine Finset.sum_congr rfl fun d _ => ?_
    congr 1
    · exact blkX_apply V c t (ix2 p d) (ix2 ⟨t.val * 512 + p.val, by omega⟩ d) rfl rfl
    · exact blkW3_apply V c t (ix2 e d)
  · exact blkB4_apply V c t (ix2 0 e)

/-- An index of the array is in point `t`'s block iff each coordinate is in the block's range on its axis. -/
theorem mem_blk8 (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v4_1).slice (win0_8.rect t)).set ↔ _
  rw [View.set_slice_whole, Rect.mem_set_unit]
  exact Iff.rfl

/-- Row `r` is in the block of the point `r / 512`. -/
theorem cover8 (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 16 := N_0
  obtain ⟨t, htv⟩ : ∃ t : Fin cfg0.N, t.val = (i 0).val / 512 := ⟨⟨(i 0).val / 512, by omega⟩, rfl⟩
  obtain ⟨_, _, _, _, _, _, _, _, _, _, _, _, _, _, _⟩ := idx_facts t
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 1024 ≤ (i 1).val ∧ (i 1).val < win0_8.index t (1 : Fin 2) * 1024 + 1024; omega

/-- The key projection's array after the region, entry by entry. -/
theorem arr8_apply (c : Dev nD) (r : Fin 8192) (e : Fin 1024) :
    (dat0 V c).arrAt 8 cfg0.N (ix2 r e) = projAt (V c main_v0) (V c main_arg3) (V c main_v2) r e := by
  rw [(dat0 V c).arrAt_eq_of_cover 8 (projArr (V c main_v0) (V c main_arg3) (V c main_v2)) (fun t _ => flushed8_eq V c t) cover8]
  rfl

/-- The same with the sum written out, the three arrays named as functions into the extended reals. -/
theorem arr8_sum (c : Dev nD) (r : Fin 8192) (e : Fin 1024)
    (X : S8192x1024.Idx → EReal) (W : S1024x1024.Idx → EReal) (b : S1x1024.Idx → EReal)
    (hX : X = V c main_v0) (hW : W = V c main_arg3) (hb : b = V c main_v2) :
    (dat0 V c).arrAt 8 cfg0.N (ix2 r e) = (∑ d : Fin 1024, X (ix2 r d) * W (ix2 e d)) + b (ix2 0 e) := by
  subst hX hW hb
  exact arr8_apply V c r e

/-! ### Output window 9: the value projection -/

/-- What point `t` writes back is block `t` of the value projection of the whole arrays. -/
theorem flushed9_eq (c : Dev nD) (t : Fin cfg0.N) :
    (dat0 V c).flushed 9 t
      = ((cfg0.win 9).blk t).view.read (Elt Ideal) (projArr (V c main_v0) (V c main_arg5) (V c main_v3)) := by
  show (cfg0.win 9).cut (grid0.coords t) ((dat0 V c).after 9 t) = _
  rw [after0_9]
  obtain ⟨_, _, _, _, _, _, _, _, _, _, _, _, _, _, _⟩ := idx_facts t
  have ht := t_lt t
  funext j
  obtain ⟨p, e, rfl⟩ : ∃ (p : Fin 512) (e : Fin 1024), j = ix2 p e := ⟨j 0, j 1, eq_ix2 j⟩
  show outV (blk0 V c 0 t) (blk0 V c 5 t) (blk0 V c 6 t) (ix2 p e)
    = projArr (V c main_v0) (V c main_arg5) (V c main_v3) (((cfg0.win 9).blk t).view.emb (ix2 p e))
  refine (outV_apply _ _ _ p e).trans ?_
  have hp : p.val < 512 := p.isLt
  refine (projArr_of_coords _ _ _ _ ⟨t.val * 512 + p.val, by omega⟩ e ?_ ?_).symm ▸ ?_
  · show win0_9.index t (0 : Fin 2) * 512 + 1 * p.val = t.val * 512 + p.val; omega
  · show win0_9.index t (1 : Fin 2) * 1024 + 1 * e.val = e.val; omega
  unfold projAt
  congr 1
  · refine Finset.sum_congr rfl fun d _ => ?_
    congr 1
    · exact blkX_apply V c t (ix2 p d) (ix2 ⟨t.val * 512 + p.val, by omega⟩ d) rfl rfl
    · exact blkW5_apply V c t (ix2 e d)
  · exact blkB6_apply V c t (ix2 0 e)

/-- An index of the array is in point `t`'s block iff each coordinate is in the block's range on its axis. -/
theorem mem_blk9 (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v4_2).slice (win0_9.rect t)).set ↔ _
  rw [View.set_slice_whole, Rect.mem_set_unit]
  exact Iff.rfl

/-- Row `r` is in the block of the point `r / 512`. -/
theorem cover9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  have hN : cfg0.N = 16 := N_0
  obtain ⟨t, htv⟩ : ∃ t : Fin cfg0.N, t.val = (i 0).val / 512 := ⟨⟨(i 0).val / 512, by omega⟩, rfl⟩
  obtain ⟨_, _, _, _, _, _, _, _, _, _, _, _, _, _, _⟩ := idx_facts t
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1024 ≤ (i 1).val ∧ (i 1).val < win0_9.index t (1 : Fin 2) * 1024 + 1024; omega

/-- The value projection's array after the region, entry by entry. -/
theorem arr9_apply (c : Dev nD) (r : Fin 8192) (e : Fin 1024) :
    (dat0 V c).arrAt 9 cfg0.N (ix2 r e) = projAt (V c main_v0) (V c main_arg5) (V c main_v3) r e := by
  rw [(dat0 V c).arrAt_eq_of_cover 9 (projArr (V c main_v0) (V c main_arg5) (V c main_v3)) (fun t _ => flushed9_eq V c t) cover9]
  rfl

/-- The same with the sum written out, the three arrays named as functions into the extended reals. -/
theorem arr9_sum (c : Dev nD) (r : Fin 8192) (e : Fin 1024)
    (X : S8192x1024.Idx → EReal) (W : S1024x1024.Idx → EReal) (b : S1x1024.Idx → EReal)
    (hX : X = V c main_v0) (hW : W = V c main_arg5) (hb : b = V c main_v3) :
    (dat0 V c).arrAt 9 cfg0.N (ix2 r e) = (∑ d : Fin 1024, X (ix2 r d) * W (ix2 e d)) + b (ix2 0 e) := by
  subst hX hW hb
  exact arr9_apply V c r e

end Cert.KernelIdeal.ProjValue

end
-- ==== Proof.Spec.lean ====
/-
  What both programs compute, as functions of the argument arrays, index by index, on the extended reals:
  three linear layers (each input row against each weight row, plus the bias entry), the scaled scores of every
  query row against every key row of the same batch member, and the softmax-weighted sum of the value rows.
  The softmax is written after a shift `M` of the scores (a row's weights do not depend on a finite shift).
-/
import Idealize.ShloMosaic.PureOps.Ideal
import Idealize.ShloMosaic.Lib.ValueIdx

noncomputable section

namespace Cert.Spec

open Idealize.ShloMosaic Idealize.ShloMosaic.ValueIdx

/-- The activations' shape, a weight matrix's and a bias vector's. -/
abbrev SX : Shape := ⟨3, ![4, 2048, 1024]⟩
abbrev SW : Shape := ⟨2, ![1024, 1024]⟩
abbrev SB : Shape := ⟨1, ![1024]⟩

/-- One entry of a linear layer: row `s` of batch member `b` against row `e` of the weight matrix, plus entry `e`
    of the bias. -/
def proj (x : SX.Idx → EReal) (W : SW.Idx → EReal) (bias : SB.Idx → EReal) (b : Fin 4) (s : Fin 2048) (e : Fin 1024) : EReal :=
  (∑ d : Fin 1024, x (ix3 b s d) * W (ix2 e d)) + bias (ix1 e)

/-- The score of query row `q` against key row `k` of batch member `b`, scaled by `c`. -/
def score (c : EReal) (Q K : Fin 4 → Fin 2048 → Fin 1024 → EReal) (b : Fin 4) (q k : Fin 2048) : EReal :=
  (∑ d : Fin 1024, Q b q d * K b k d) * c

/-- Entry `d` of the attention output at query row `q`: the value rows weighted by the softmax of the row's
    scores, the exponentials taken after the shift `M b q`. -/
def attend (S : Fin 4 → Fin 2048 → Fin 2048 → EReal) (M : Fin 4 → Fin 2048 → EReal)
    (V : Fin 4 → Fin 2048 → Fin 1024 → EReal) (b : Fin 4) (q : Fin 2048) (d : Fin 1024) : EReal :=
  ∑ k : Fin 2048, Ideal.div (Ideal.exp (S b q k - M b q)) (∑ k' : Fin 2048, Ideal.exp (S b q k' - M b q)) * V b k d

/-- The whole computation at one index, the scale being 1/32 (the reciprocal of the square root of the width 1024). -/
def out (x : SX.Idx → EReal) (Wq : SW.Idx → EReal) (bq : SB.Idx → EReal) (Wk : SW.Idx → EReal) (bk : SB.Idx → EReal)
    (Wv : SW.Idx → EReal) (bv : SB.Idx → EReal) (M : Fin 4 → Fin 2048 → EReal) (b : Fin 4) (q : Fin 2048) (d : Fin 1024) : EReal :=
  attend (score (((1 / 32 : ℝ)) : EReal) (proj x Wq bq) (proj x Wk bk)) M (proj x Wv bv) b q d

end Cert.Spec

end
-- ==== Proof.QkvValueIdeal.lean ====
/-
  The three projections as the second region finds them. Each is the first region's output array with its 8192 rows
  split back into four batch members of 2048 rows; the first region read the activations with the rows merged and each
  bias vector as a one-row matrix. Undoing the four reshapes index by index, entry `(b, s, e)` of each projection is
  row `s` of batch member `b` of the launch activations against row `e` of the launch weights, plus entry `e` of the
  launch bias.
-/
import proofs.«116119_j1176821039548_2_alg».proof.Proof.MainRunIdeal
import proofs.«116119_j1176821039548_2_alg».proof.Proof.ProjValueIdeal
import proofs.«116119_j1176821039548_2_alg».proof.Proof.Spec
import Idealize.ShloMosaic.Lib.StableHlo.Run

set_option maxRecDepth 16384

noncomputable section

namespace Cert.KernelIdeal.QkvValue

open Cert.KernelIdeal Cert.KernelIdeal.Gen Cert.KernelIdeal.ProjValue
open Idealize.ShloMosaic Idealize.ShloMosaic.TcCoe Idealize.ShloMosaic.ValueIdx Idealize.SL.Sem

/-! ## The reshapes read at an index -/

/-- A `[8192, 1024]` array cast to `[4, 2048, 1024]` reads, at `(b, s, e)`, the operand at `(2048 b + s, e)`. -/
theorem splitRows_apply {α : Type} (x : (⟨2, ![8192, 1024]⟩ : Shape).Idx → α)
    (h : (⟨2, ![8192, 1024]⟩ : Shape).ShapeCasts ⟨3, ![4, 2048, 1024]⟩) (b : Fin 4) (s : Fin 2048) (e : Fin 1024)
    (r : Fin 8192) (hr : r.val = 2048 * b.val + s.val) :
    shapeCast ⟨3, ![4, 2048, 1024]⟩ x h (ix3 b s e) = x (ix2 r e) :=
  shapeCast_apply x h _ _ (by
    rw [Shape.rowMajor_val_three, Shape.rowMajor_val_two]
    show r.val * 1024 + e.val = (b.val * 2048 + s.val) * 1024 + e.val
    rw [hr]; omega)

/-- A `[4, 2048, 1024]` array cast to `[8192, 1024]` reads, at `(2048 b + s, e)`, the operand at `(b, s, e)`. -/
theorem mergeRows_apply {α : Type} (x : (⟨3, ![4, 2048, 1024]⟩ : Shape).Idx → α)
    (h : (⟨3, ![4, 2048, 1024]⟩ : Shape).ShapeCasts ⟨2, ![8192, 1024]⟩) (b : Fin 4) (s : Fin 2048) (e : Fin 1024)
    (r : Fin 8192) (hr : r.val = 2048 * b.val + s.val) :
    shapeCast ⟨2, ![8192, 1024]⟩ x h (ix2 r e) = x (ix3 b s e) :=
  shapeCast_apply x h _ _ (by
    rw [Shape.rowMajor_val_three, Shape.rowMajor_val_two]
    show (b.val * 2048 + s.val) * 1024 + e.val = r.val * 1024 + e.val
    rw [hr]; omega)

/-! ## What the reshapes leave, over any contents before them -/

section Host
variable (W : Valuation τ sig (Elt Ideal))

theorem after0_v0 : StableHlo.after hostOps0 W (Proc.devRef .tc main_v0)
    = shapeCast S8192x1024 (W (Proc.devRef .tc main_arg0)) shapeCasts_S4x2048x1024_S8192x1024 := by
  after_results; rfl
theorem after0_v1 : StableHlo.after hostOps0 W (Proc.devRef .tc main_v1)
    = shapeCast S1x1024 (W (Proc.devRef .tc main_arg2)) shapeCasts_S1024_S1x1024 := by
  after_results; rfl
theorem after0_v2 : StableHlo.after hostOps0 W (Proc.devRef .tc main_v2)
    = shapeCast S1x1024 (W (Proc.devRef .tc main_arg4)) shapeCasts_S1024_S1x1024 := by
  after_results; rfl
theorem after0_v3 : StableHlo.after hostOps0 W (Proc.devRef .tc main_v3)
    = shapeCast S1x1024 (W (Proc.devRef .tc main_arg6)) shapeCasts_S1024_S1x1024 := by
  after_results; rfl
theorem after1_v5 : StableHlo.after hostOps1 W (Proc.devRef .tc main_v5)
    = shapeCast S4x2048x1024 (W (Proc.devRef .tc main_v4_0)) shapeCasts_S8192x1024_S4x2048x1024 := by
  after_results; rfl
theorem after1_v6 : StableHlo.after hostOps1 W (Proc.devRef .tc main_v6)
    = shapeCast S4x2048x1024 (W (Proc.devRef .tc main_v4_1)) shapeCasts_S8192x1024_S4x2048x1024 := by
  after_results; rfl
theorem after1_v7 : StableHlo.after hostOps1 W (Proc.devRef .tc main_v7)
    = shapeCast S4x2048x1024 (W (Proc.devRef .tc main_v4_2)) shapeCasts_S8192x1024_S4x2048x1024 := by
  after_results; rfl

end Host

/-! ## One projection of the merged rows is the linear layer of the batches -/

/-- With the activations' rows merged and the bias a one-row matrix, entry `(2048 b + s, e)` of the projection is
    entry `(b, s, e)` of the linear layer. -/
theorem projAt_merged (x : Cert.Spec.SX.Idx → EReal) (Wm : Cert.Spec.SW.Idx → EReal) (bias : Cert.Spec.SB.Idx → EReal)
    (X : S8192x1024.Idx → EReal) (B : S1x1024.Idx → EReal)
    (hX : X = shapeCast S8192x1024 x shapeCasts_S4x2048x1024_S8192x1024)
    (hB : B = shapeCast S1x1024 bias shapeCasts_S1024_S1x1024)
    (b : Fin 4) (s : Fin 2048) (e : Fin 1024) (r : Fin 8192) (hr : r.val = 2048 * b.val + s.val) :
    projAt X Wm B r e = Cert.Spec.proj x Wm bias b s e := by
  subst hX hB
  unfold projAt Cert.Spec.proj
  congr 1
  · refine Finset.sum_congr rfl fun d _ => ?_
    rw [mergeRows_apply x shapeCasts_S4x2048x1024_S8192x1024 b s d r hr]
  · exact shapeCast_a_1a_apply bias shapeCasts_S1024_S1x1024 0 e

/-! ## The projections as the second region finds them -/

variable (m : (ℓ : Loc nD τ sig) → Buf (Elt Ideal) ℓ)

/-- The query projection: entry `(b, s, e)` of what the second region finds is the linear layer of the launch arrays. -/
theorem q_apply (c : Dev nD) (b : Fin 4) (s : Fin 2048) (e : Fin 1024) :
    Hand.V3 m c main_v5 (ix3 b s e)
      = Cert.Spec.proj (m ((c : Thread nD τ).loc main_arg0)) (m ((c : Thread nD τ).loc main_arg1)) (m ((c : Thread nD τ).loc main_arg2)) b s e := by
  have hb : b.val < 4 := b.isLt
  have hs : s.val < 2048 := s.isLt
  obtain ⟨r, hr⟩ : ∃ r : Fin 8192, r.val = 2048 * b.val + s.val := ⟨⟨2048 * b.val + s.val, by omega⟩, rfl⟩
  show StableHlo.after hostOps1 (Hand.W2 m c) (Proc.devRef .tc main_v5) (ix3 b s e) = _
  refine (congrFun (after1_v5 (Hand.W2 m c)) (ix3 b s e)).trans ?_
  refine (splitRows_apply _ shapeCasts_S8192x1024_S4x2048x1024 b s e r hr).trans ?_
  refine (congrFun (Hand.W2_arr m c 7) (ix2 r e)).trans ?_
  refine (arr7_apply (Hand.V1 m) c r e).trans ?_
  refine projAt_merged _ _ _ _ _ ?_ ?_ b s e r hr
  · exact after0_v0 (Hand.W0 m c)
  · exact after0_v1 (Hand.W0 m c)

/-- The key projection. -/
theorem k_apply (c : Dev nD) (b : Fin 4) (s : Fin 2048) (e : Fin 1024) :
    Hand.V3 m c main_v6 (ix3 b s e)
      = Cert.Spec.proj (m ((c : Thread nD τ).loc main_arg0)) (m ((c : Thread nD τ).loc main_arg3)) (m ((c : Thread nD τ).loc main_arg4)) b s e := by
  have hb : b.val < 4 := b.isLt
  have hs : s.val < 2048 := s.isLt
  obtain ⟨r, hr⟩ : ∃ r : Fin 8192, r.val = 2048 * b.val + s.val := ⟨⟨2048 * b.val + s.val, by omega⟩, rfl⟩
  show StableHlo.after hostOps1 (Hand.W2 m c) (Proc.devRef .tc main_v6) (ix3 b s e) = _
  refine (congrFun (after1_v6 (Hand.W2 m c)) (ix3 b s e)).trans ?_
  refine (splitRows_apply _ shapeCasts_S8192x1024_S4x2048x1024 b s e r hr).trans ?_
  refine (congrFun (Hand.W2_arr m c 8) (ix2 r e)).trans ?_
  refine (arr8_apply (Hand.V1 m) c r e).trans ?_
  refine projAt_merged _ _ _ _ _ ?_ ?_ b s e r hr
  · exact after0_v0 (Hand.W0 m c)
  · exact after0_v2 (Hand.W0 m c)

/-- The value projection. -/
theorem v_apply (c : Dev nD) (b : Fin 4) (s : Fin 2048) (e : Fin 1024) :
    Hand.V3 m c main_v7 (ix3 b s e)
      = Cert.Spec.proj (m ((c : Thread nD τ).loc main_arg0)) (m ((c : Thread nD τ).loc main_arg5)) (m ((c : Thread nD τ).loc main_arg6)) b s e := by
  have hb : b.val < 4 := b.isLt
  have hs : s.val < 2048 := s.isLt
  obtain ⟨r, hr⟩ : ∃ r : Fin 8192, r.val = 2048 * b.val + s.val := ⟨⟨2048 * b.val + s.val, by omega⟩, rfl⟩
  show StableHlo.after hostOps1 (Hand.W2 m c) (Proc.devRef .tc main_v7) (ix3 b s e) = _
  refine (congrFun (after1_v7 (Hand.W2 m c)) (ix3 b s e)).trans ?_
  refine (splitRows_apply _ shapeCasts_S8192x1024_S4x2048x1024 b s e r hr).trans ?_
  refine (congrFun (Hand.W2_arr m c 9) (ix2 r e)).trans ?_
  refine (arr9_apply (Hand.V1 m) c r e).trans ?_
  refine projAt_merged _ _ _ _ _ ?_ ?_ b s e r hr
  · exact after0_v0 (Hand.W0 m c)
  · exact after0_v3 (Hand.W0 m c)

end Cert.KernelIdeal.QkvValue

end
-- ==== Proof.AttnBlocksIdeal.lean ====
/-
  The second region's value. Its grid has sixty-four points: batch member `bb`, block `qi` of 1024 query rows and
  block `j` of 256 key rows, the key blocks innermost, so point 16 bb + 8 qi + j. The query window's block at that
  point is rows 1024 qi … 1024 qi + 1023 of batch member bb, the key and value windows' blocks are rows
  256 j … 256 j + 255 of the same batch member, and the output window's block (rows 1024 qi …, written back at
  j = 7 only) ends in the output array as the output buffer stood after that last point.
-/
import proofs.«116119_j1176821039548_2_alg».proof.Proof.AttnRegionIdeal
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.AttnValue

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The grid -/

theorem N64 : cfg1.N = 64 := N_1

/-- The point of batch member `bb`, query block `qi`, key block `j`. -/
def pt (bb : Fin 4) (qi : Fin 2) (j : Fin 8) : Fin cfg1.N :=
  ⟨16 * bb.val + 8 * qi.val + j.val, by
    have h0 := bb.isLt; have h1 := qi.isLt; have h2 := j.isLt; have hN : cfg1.N = 64 := N_1; omega⟩

theorem pt_val (bb : Fin 4) (qi : Fin 2) (j : Fin 8) : (pt bb qi j).val = 16 * bb.val + 8 * qi.val + j.val := rfl

/-- The printed index maps, decided over the grid: the query and output windows' blocks are indexed by the batch
    member and the query block, the key and value windows' by the batch member and the key block. -/
theorem idx_facts : ∀ t : Fin cfg1.N,
    win1_0.index t (0 : Fin 3) = t.val / 16 ∧ win1_0.index t (1 : Fin 3) = t.val / 8 % 2 ∧ win1_0.index t (2 : Fin 3) = 0
    ∧ win1_1.index t (0 : Fin 3) = t.val / 16 ∧ win1_1.index t (1 : Fin 3) = t.val % 8 ∧ win1_1.index t (2 : Fin 3) = 0
    ∧ win1_2.index t (0 : Fin 3) = t.val / 16 ∧ win1_2.index t (1 : Fin 3) = t.val % 8 ∧ win1_2.index t (2 : Fin 3) = 0
    ∧ win1_3.index t (0 : Fin 3) = t.val / 16 ∧ win1_3.index t (1 : Fin 3) = t.val / 8 % 2 ∧ win1_3.index t (2 : Fin 3) = 0 :=
  (by decide +kernel : ∀ t : Fin grid1.N, _)

theorem t_lt (t : Fin cfg1.N) : t.val < 64 := by
  have h : t.val < cfg1.N := t.isLt
  have hN : cfg1.N = 64 := N_1
  omega

/-! ## The input blocks at an index -/

/-- The query window's block at point `t`, entry `x`, is the array's entry `k` when `k` is `x` moved to the block's place. -/
theorem blk0_apply (c : Dev nD) (t : Fin cfg1.N) (x : S1x1024x1024.Idx) (k : S4x2048x1024.Idx)
    (hk0 : (k 0).val = t.val / 16 + (x 0).val) (hk1 : (k 1).val = t.val / 8 % 2 * 1024 + (x 1).val)
    (hk2 : (k 2).val = (x 2).val) :
    (blk1 V c 0 t : Vec Ideal S1x1024x1024 .bf16) x = (V c main_v5 : S4x2048x1024.Idx → EReal) k := by
  obtain ⟨e0, e1, e2, -⟩ := idx_facts t
  unfold blk1
  rw [View.read_apply]
  show V c main_v5 _ = V c main_v5 _
  congr 1
  funext a
  apply Fin.ext
  match a with
  | ⟨0, _⟩ => show win1_0.index t (0 : Fin 3) * 1 + 1 * (x 0).val = (k 0).val; rw [e0, hk0]; omega
  | ⟨1, _⟩ => show win1_0.index t (1 : Fin 3) * 1024 + 1 * (x 1).val = (k 1).val; rw [e1, hk1]; omega
  | ⟨2, _⟩ => show win1_0.index t (2 : Fin 3) * 1024 + 1 * (x 2).val = (k 2).val; rw [e2, hk2]; omega

/-- The key window's block at point `t`. -/
theorem blk1_apply (c : Dev nD) (t : Fin cfg1.N) (x : S1x256x1024.Idx) (k : S4x2048x1024.Idx)
    (hk0 : (k 0).val = t.val / 16 + (x 0).val) (hk1 : (k 1).val = t.val % 8 * 256 + (x 1).val)
    (hk2 : (k 2).val = (x 2).val) :
    (blk1 V c 1 t : Vec Ideal S1x256x1024 .bf16) x = (V c main_v6 : S4x2048x1024.Idx → EReal) k := by
  obtain ⟨-, -, -, e0, e1, e2, -⟩ := idx_facts t
  unfold blk1
  rw [View.read_apply]
  show V c main_v6 _ = V c main_v6 _
  congr 1
  funext a
  apply Fin.ext
  match a with
  | ⟨0, _⟩ => show win1_1.index t (0 : Fin 3) * 1 + 1 * (x 0).val = (k 0).val; rw [e0, hk0]; omega
  | ⟨1, _⟩ => show win1_1.index t (1 : Fin 3) * 256 + 1 * (x 1).val = (k 1).val; rw [e1, hk1]; omega
  | ⟨2, _⟩ => show win1_1.index t (2 : Fin 3) * 1024 + 1 * (x 2).val = (k 2).val; rw [e2, hk2]; omega

/-- The value window's block at point `t`. -/
theorem blk2_apply (c : Dev nD) (t : Fin cfg1.N) (x : S1x256x1024.Idx) (k : S4x2048x1024.Idx)
    (hk0 : (k 0).val = t.val / 16 + (x 0).val) (hk1 : (k 1).val = t.val % 8 * 256 + (x 1).val)
    (hk2 : (k 2).val = (x 2).val) :
    (blk1 V c 2 t : Vec Ideal S1x256x1024 .bf16) x = (V c main_v7 : S4x2048x1024.Idx → EReal) k := by
  obtain ⟨-, -, -, -, -, -, e0, e1, e2, -⟩ := idx_facts t
  unfold blk1
  rw [View.read_apply]
  show V c main_v7 _ = V c main_v7 _
  congr 1
  funext a
  apply Fin.ext
  match a with
  | ⟨0, _⟩ => show win1_2.index t (0 : Fin 3) * 1 + 1 * (x 0).val = (k 0).val; rw [e0, hk0]; omega
  | ⟨1, _⟩ => show win1_2.index t (1 : Fin 3) * 256 + 1 * (x 1).val = (k 1).val; rw [e1, hk1]; omega
  | ⟨2, _⟩ => show win1_2.index t (2 : Fin 3) * 1024 + 1 * (x 2).val = (k 2).val; rw [e2, hk2]; omega

/-- Row `r` of query block `qi` as a row of the array. -/
def qrow (qi : Fin 2) (r : Fin 1024) : Fin 2048 := ⟨1024 * qi.val + r.val, by have := qi.isLt; have := r.isLt; omega⟩
/-- Row `k` of key block `j` as a row of the array. -/
def krow (j : Fin 8) (k : Fin 256) : Fin 2048 := ⟨256 * j.val + k.val, by have := j.isLt; have := k.isLt; omega⟩

theorem qrow_val (qi : Fin 2) (r : Fin 1024) : (qrow qi r).val = 1024 * qi.val + r.val := rfl
theorem krow_val (j : Fin 8) (k : Fin 256) : (krow j k).val = 256 * j.val + k.val := rfl

/-- The query block at point (bb, qi, j): row `r`, column `e` is the query array at batch member bb, row 1024 qi + r. -/
theorem blkQ_at (c : Dev nD) (bb : Fin 4) (qi : Fin 2) (j : Fin 8) (r : Fin 1024) (e : Fin 1024) :
    (blk1 V c 0 (pt bb qi j) : Vec Ideal S1x1024x1024 .bf16) (ix3 0 r e)
      = (V c main_v5 : S4x2048x1024.Idx → EReal) (ix3 bb (qrow qi r) e) := by
  have h0 := bb.isLt; have h1 := qi.isLt; have h2 := j.isLt
  refine blk0_apply V c (pt bb qi j) (ix3 0 r e) (ix3 bb (qrow qi r) e) ?_ ?_ rfl
  · show bb.val = (16 * bb.val + 8 * qi.val + j.val) / 16 + 0; omega
  · show 1024 * qi.val + r.val = (16 * bb.val + 8 * qi.val + j.val) / 8 % 2 * 1024 + r.val; omega

/-- The key block at point (bb, qi, j): row `k`, column `e` is the key array at batch member bb, row 256 j + k. -/
theorem blkK_at (c : Dev nD) (bb : Fin 4) (qi : Fin 2) (j : Fin 8) (k : Fin 256) (e : Fin 1024) :
    (blk1 V c 1 (pt bb qi j) : Vec Ideal S1x256x1024 .bf16) (ix3 0 k e)
      = (V c main_v6 : S4x2048x1024.Idx → EReal) (ix3 bb (krow j k) e) := by
  have h0 := bb.isLt; have h1 := qi.isLt; have h2 := j.isLt
  refine blk1_apply V c (pt bb qi j) (ix3 0 k e) (ix3 bb (krow j k) e) ?_ ?_ rfl
  · show bb.val = (16 * bb.val + 8 * qi.val + j.val) / 16 + 0; omega
  · show 256 * j.val + k.val = (16 * bb.val + 8 * qi.val + j.val) % 8 * 256 + k.val; omega

/-- The value block at point (bb, qi, j): row `k`, column `e` is the value array at batch member bb, row 256 j + k. -/
theorem blkV_at (c : Dev nD) (bb : Fin 4) (qi : Fin 2) (j : Fin 8) (k : Fin 256) (e : Fin 1024) :
    (blk1 V c 2 (pt bb qi j) : Vec Ideal S1x256x1024 .bf16) (ix3 0 k e)
      = (V c main_v7 : S4x2048x1024.Idx → EReal) (ix3 bb (krow j k) e) := by
  have h0 := bb.isLt; have h1 := qi.isLt; have h2 := j.isLt
  refine blk2_apply V c (pt bb qi j) (ix3 0 k e) (ix3 bb (krow j k) e) ?_ ?_ rfl
  · show bb.val = (16 * bb.val + 8 * qi.val + j.val) / 16 + 0; omega
  · show 256 * j.val + k.val = (16 * bb.val + 8 * qi.val + j.val) % 8 * 256 + k.val; omega

/-! ## The output array from the output buffer after the last key block -/

/-- The output buffer after point `n` does not depend on how `n` and the index are written. -/
theorem stAt_out_congr (c : Dev nD) {n n' : ℕ} (hn : n < cfg1.N) (hn' : n' < cfg1.N) (e : n = n')
    {y y' : S1x1024x1024.Idx} (ey : y = y') :
    (stAt (F := Ideal) V c n hn).1 y = (stAt (F := Ideal) V c n' hn').1 y' := by
  subst e; subst ey; rfl

/-- The output array assembled from the output buffers after the last key block of each (batch member, query block):
    entry (bb, 1024 qi + r, d) is the buffer's entry (r, d) after point 16 bb + 8 qi + 7. -/
def outArr (c : Dev nD) : S4x2048x1024.Idx → EReal := fun i =>
  (stAt (F := Ideal) V c (16 * (i 0).val + 8 * ((i 1).val / 1024) + 7) (by
      have h0 : (i 0).val < 4 := (i 0).isLt
      have h1 : (i 1).val < 2048 := (i 1).isLt
      have hN : cfg1.N = 64 := N_1
      omega)).1
    (ix3 (0 : Fin 1) (⟨(i 1).val % 1024, Nat.mod_lt _ (by norm_num)⟩ : Fin 1024) (⟨(i 2).val, (i 2).isLt⟩ : Fin 1024))

/-- The assembled array at an index with known coordinates. -/
theorem outArr_of_coords (c : Dev nD) (k : S4x2048x1024.Idx) (n : ℕ) (hn : n < cfg1.N) (r d : Fin 1024)
    (hn' : 16 * (k 0).val + 8 * ((k 1).val / 1024) + 7 = n) (h1 : (k 1).val % 1024 = r.val) (h2 : (k 2).val = d.val) :
    outArr V c k = (stAt (F := Ideal) V c n hn).1 (ix3 0 r d) := by
  unfold outArr
  refine stAt_out_congr V c _ hn hn' (funext fun a => Fin.ext ?_)
  match a with
  | ⟨0, _⟩ => rfl
  | ⟨1, _⟩ => exact h1
  | ⟨2, _⟩ => exact h2

/-- What a last-key-block point writes back is its block of the assembled array. -/
theorem flushed3_eq (c : Dev nD) (t : Fin cfg1.N) (hf : (cfg1.win 3).flush t = true) :
    (dat1 V c).flushed 3 t = ((cfg1.win 3).blk t).view.read (Elt Ideal) (outArr V c) := by
  have h7 : t.val % 8 = 7 := (flush1_3 t).mp hf
  show (cfg1.win 3).cut (grid1.coords t) ((dat1 V c).after 3 t) = _
  rw [after1_3]
  obtain ⟨-, -, -, -, -, -, -, -, -, e0, e1, e2⟩ := idx_facts t
  have ht := t_lt t
  funext y
  obtain ⟨z, r, d, rfl⟩ : ∃ (z : Fin 1) (r : Fin 1024) (d : Fin 1024), y = ix3 z r d := ⟨y 0, y 1, y 2, eq_ix3 y⟩
  show (stAt (F := Ideal) V c t.val t.isLt).1 (ix3 z r d) = outArr V c (((cfg1.win 3).blk t).view.emb (ix3 z r d))
  have hz : z.val = 0 := by have := z.isLt; omega
  have hr := r.isLt
  have k0 : ((((cfg1.win 3).blk t).view.emb (ix3 z r d)) 0).val = t.val / 16 := by
    show win1_3.index t (0 : Fin 3) * 1 + 1 * z.val = t.val / 16; rw [e0, hz]; omega
  have k1 : ((((cfg1.win 3).blk t).view.emb (ix3 z r d)) 1).val = t.val / 8 % 2 * 1024 + r.val := by
    show win1_3.index t (1 : Fin 3) * 1024 + 1 * r.val = t.val / 8 % 2 * 1024 + r.val; rw [e1]; omega
  have k2 : ((((cfg1.win 3).blk t).view.emb (ix3 z r d)) 2).val = d.val := by
    show win1_3.index t (2 : Fin 3) * 1024 + 1 * d.val = d.val; rw [e2]; omega
  have hzz : z = 0 := Fin.ext hz
  subst hzz
  refine (outArr_of_coords V c _ t.val t.isLt r d ?_ ?_ k2).symm
  · rw [k0, k1]; omega
  · rw [k1]; omega

/-- An index of the array is in point `t`'s output block iff each coordinate is in the block's range on its axis. -/
theorem mem_blk3 (t : Fin cfg1.N) (i : S4x2048x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v8).slice (win1_3.rect t)).set ↔ _
  rw [View.set_slice_whole, Rect.mem_set_unit]
  exact Iff.rfl

/-- Entry (bb, row, d) is in the output block of the last key block's point of (bb, row / 1024). -/
theorem cover3 (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hN : cfg1.N = 64 := N_1
  obtain ⟨t, htv⟩ : ∃ t : Fin cfg1.N, t.val = 16 * (i 0).val + 8 * ((i 1).val / 1024) + 7 :=
    ⟨⟨16 * (i 0).val + 8 * ((i 1).val / 1024) + 7, by omega⟩, rfl⟩
  obtain ⟨-, -, -, -, -, -, -, -, -, e0, e1, e2⟩ := idx_facts t
  refine ⟨t, (flush1_3 t).mpr (by omega), ?_⟩
  rw [mem_blk3]
  intro a
  match a with
  | ⟨0, _⟩ => show win1_3.index t (0 : Fin 3) * 1 ≤ (i 0).val ∧ (i 0).val < win1_3.index t (0 : Fin 3) * 1 + 1; rw [e0]; omega
  | ⟨1, _⟩ => show win1_3.index t (1 : Fin 3) * 1024 ≤ (i 1).val ∧ (i 1).val < win1_3.index t (1 : Fin 3) * 1024 + 1024; rw [e1]; omega
  | ⟨2, _⟩ => show win1_3.index t (2 : Fin 3) * 1024 ≤ (i 2).val ∧ (i 2).val < win1_3.index t (2 : Fin 3) * 1024 + 1024; rw [e2]; omega

/-- The output array after the region: entry (bb, 1024 qi + r, d) is entry (r, d) of the output buffer after the last
    key block of (bb, qi). -/
theorem arr3_apply (c : Dev nD) (bb : Fin 4) (qi : Fin 2) (r d : Fin 1024) :
    (dat1 V c).arrAt 3 cfg1.N (ix3 bb (qrow qi r) d)
      = (stAt (F := Ideal) V c (pt bb qi 7).val (pt bb qi 7).isLt).1 (ix3 0 r d) := by
  rw [(dat1 V c).arrAt_eq_of_cover 3 (outArr V c) (fun t hf => flushed3_eq V c t hf) cover3]
  have h0 := bb.isLt; have h1 := qi.isLt; have h2 := r.isLt
  refine outArr_of_coords V c _ _ _ r d ?_ ?_ rfl
  · show 16 * bb.val + 8 * ((1024 * qi.val + r.val) / 1024) + 7 = 16 * bb.val + 8 * qi.val + 7; omega
  · show (1024 * qi.val + r.val) % 1024 = r.val; omega

end Cert.KernelIdeal.AttnValue

end
-- ==== Proof.AttnPiecesIdeal.lean ====
/-
  What one key block does to the three running quantities of the attention recurrence, as pure functions of the
  blocks it reads, and the fact that each buffer the body stores into holds exactly that function's value afterwards.

  For a query block q, a key block k and a value block w, with running row maximum m, running denominator l and
  running weighted sum a:
    stepM q k m     = max m (rowmax (q kᵀ / 32))                         the new row maximum m',
    stepL q k m l   = exp (m - m') * l + rowsum (exp (q kᵀ / 32 - m'))    the new denominator,
    stepA q k w m a = exp (m - m') * a + exp (q kᵀ / 32 - m') w           the new weighted sum,
    quotOut a l     = a / l                                              the block written out at the last key block.
  At the first key block the recurrence starts from m0 = -∞, l0 = 0, a0 = 0.

  Every store of the body writes a whole buffer (the unit rectangle at zero offsets), so the contents a list of
  stores leaves are the payload of its last store, and a load that follows a store reads that store's payload.
-/
import proofs.«116119_j1176821039548_2_alg».proof.Proof.AttnRunsIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of every rectangle the body loads or stores through are zero. -/
theorem hz3 : (![0, 0, 0] : Fin 3 → Nat) = fun _ => 0 := funext fun a => by fin_cases a <;> rfl

/-! ## The update, as functions of the blocks read -/

/-- The new running row maximum: the old one against the row maxima of the scaled scores of this key block. -/
def stepM (x0 : Vec F S1x1024x1024 .bf16) (x1 : Vec F S1x256x1024 .bf16) (s0 : Vec F S1x1024x1 .f32) : FVec F S1x1024x1 .f32 :=
  k1_pay2 (k1_pay8 x0 x1 s0)

/-- The new running denominator: the old one rescaled by `exp (m - m')`, plus the row sums of `exp (scores - m')`. -/
def stepL (x0 : Vec F S1x1024x1024 .bf16) (x1 : Vec F S1x256x1024 .bf16) (s0 : Vec F S1x1024x1 .f32) (s1 : Vec F S1x1024x1 .f32) : FVec F S1x1024x1 .f32 :=
  k1_pay11 x0 x1 s0 s0 s1

/-- The new running weighted sum: the old one rescaled by `exp (m - m')`, plus `exp (scores - m')` times the value block. -/
def stepA (x0 : Vec F S1x1024x1024 .bf16) (x1 : Vec F S1x256x1024 .bf16) (x2 : Vec F S1x256x1024 .bf16) (s0 : Vec F S1x1024x1 .f32) (s2 : Vec F S1x1024x1024 .f32) : FVec F S1x1024x1024 .f32 :=
  k1_pay1 (k1_pay9 x0 x1 s0 s0) (k1_pay10 x0 x1 s0) s2 x2

/-- The output block: the weighted sum divided, row by row, by the denominator. -/
def quotOut (a : Vec F S1x1024x1024 .f32) (l : Vec F S1x1024x1 .f32) : FVec F S1x1024x1024 .f32 :=
  k1_pay3 a l

/-- The row maximum the recurrence starts from: `-∞` in every row. -/
def m0 : FVec F S1x1024x1 .f32 := k1_pay4 (F := F)
/-- The denominator the recurrence starts from: zero in every row. -/
def l0 : FVec F S1x1024x1 .f32 := k1_pay5 (F := F)
/-- The weighted sum the recurrence starts from: zero everywhere. -/
def a0 : FVec F S1x1024x1024 .f32 := k1_pay6 (F := F)

/-! ## A middle key block: each buffer's one whole store, over loads of the contents before -/

/-- The row-maximum buffer ends at `stepM` of the blocks read and the maximum before. -/
theorem runMid_readM (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : ¬condLast i)
    (x0 : Vec F S1x1024x1024 .bf16) (x1 : Vec F S1x256x1024 .bf16) (x2 : Vec F S1x256x1024 .bf16)
    (s0 : Vec F S1x1024x1 .f32) (s1 : Vec F S1x1024x1 .f32) (s2 : Vec F S1x1024x1024 .f32)
    {sig' : RefSig} {κ : Kind} {sp : Space} (v : View sig' κ sp S1x1024x1 .f32) (f : v.ty.Contents (Elt F)) :
    v.read (Elt F) (v.writes (Elt F) f (runMid (F := F) c i arg3 harg3 arg4 harg4 arg5 harg5 arg6 harg6 arg7 harg7 arg8 harg8 arg9 harg9 hc0 hc1 x0 x1 x2 s0 s1 s2).1) = stepM x0 x1 s0 := by
  rw [View.read_writes_eq_canon _ _ _ (fun y => View.cover_of_tiledL _ S1x1024x1.size (by sl_kernel_rfl) y)]
  unfold runMid
  dsimp only
  sl_unfold_words
  rw [View.canon_unit_zero (S := S1x1024x1) hz3]
  simp only [View.readAt_eq_ld, harg3.read_unread, harg4.read_unread, harg5.read_unread, harg7.read_unread, harg8.read_unread, harg9.read_unread, View.ld_unit_zero (S := S1x1024x1024) hz3, View.ld_unit_zero (S := S1x256x1024) hz3, View.ld_unit_zero (S := S1x1024x1) hz3]
  rfl

/-- The denominator buffer ends at `stepL` of the blocks read, the maximum before and the denominator before. -/
theorem runMid_readL (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : ¬condLast i)
    (x0 : Vec F S1x1024x1024 .bf16) (x1 : Vec F S1x256x1024 .bf16) (x2 : Vec F S1x256x1024 .bf16)
    (s0 : Vec F S1x1024x1 .f32) (s1 : Vec F S1x1024x1 .f32) (s2 : Vec F S1x1024x1024 .f32)
    {sig' : RefSig} {κ : Kind} {sp : Space} (v : View sig' κ sp S1x1024x1 .f32) (f : v.ty.Contents (Elt F)) :
    v.read (Elt F) (v.writes (Elt F) f (runMid (F := F) c i arg3 harg3 arg4 harg4 arg5 harg5 arg6 harg6 arg7 harg7 arg8 harg8 arg9 harg9 hc0 hc1 x0 x1 x2 s0 s1 s2).2.1) = stepL x0 x1 s0 s1 := by
  rw [View.read_writes_eq_canon _ _ _ (fun y => View.cover_of_tiledL _ S1x1024x1.size (by sl_kernel_rfl) y)]
  unfold runMid
  dsimp only
  sl_unfold_words
  rw [View.canon_unit_zero (S := S1x1024x1) hz3]
  simp only [View.readAt_eq_ld, harg3.read_unread, harg4.read_unread, harg5.read_unread, harg7.read_unread, harg8.read_unread, harg9.read_unread, View.ld_unit_zero (S := S1x1024x1024) hz3, View.ld_unit_zero (S := S1x256x1024) hz3, View.ld_unit_zero (S := S1x1024x1) hz3]
  rfl

/-- The weighted-sum buffer ends at `stepA` of the blocks read, the maximum before and the weighted sum before. -/
theorem runMid_readA (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : ¬condLast i)
    (x0 : Vec F S1x1024x1024 .bf16) (x1 : Vec F S1x256x1024 .bf16) (x2 : Vec F S1x256x1024 .bf16)
    (s0 : Vec F S1x1024x1 .f32) (s1 : Vec F S1x1024x1 .f32) (s2 : Vec F S1x1024x1024 .f32)
    {sig' : RefSig} {κ : Kind} {sp : Space} (v : View sig' κ sp S1x1024x1024 .f32) (f : v.ty.Contents (Elt F)) :
    v.read (Elt F) (v.writes (Elt F) f (runMid (F := F) c i arg3 harg3 arg4 harg4 arg5 harg5 arg6 harg6 arg7 harg7 arg8 harg8 arg9 harg9 hc0 hc1 x0 x1 x2 s0 s1 s2).2.2.1) = stepA x0 x1 x2 s0 s2 := by
  rw [View.read_writes_eq_canon _ _ _ (fun y => View.cover_of_tiledL _ S1x1024x1024.size (by sl_kernel_rfl) y)]
  unfold runMid
  dsimp only
  sl_unfold_words
  rw [View.canon_unit_zero (S := S1x1024x1024) hz3]
  simp only [View.readAt_eq_ld, harg3.read_unread, harg4.read_unread, harg5.read_unread, harg7.read_unread, harg8.read_unread, harg9.read_unread, View.ld_unit_zero (S := S1x1024x1024) hz3, View.ld_unit_zero (S := S1x256x1024) hz3, View.ld_unit_zero (S := S1x1024x1) hz3]
  rfl

/-! ## The last key block: the same three updates, then the quotient of the two just stored -/

/-- The output buffer ends at the new weighted sum divided by the new denominator: its payload loads the two
    buffers after their stores, so it reads the payloads stored. -/
theorem runLast_readO (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : condLast i)
    (x0 : Vec F S1x1024x1024 .bf16) (x1 : Vec F S1x256x1024 .bf16) (x2 : Vec F S1x256x1024 .bf16)
    (s0 : Vec F S1x1024x1 .f32) (s1 : Vec F S1x1024x1 .f32) (s2 : Vec F S1x1024x1024 .f32)
    {sig' : RefSig} {κ : Kind} {sp : Space} (v : View sig' κ sp S1x1024x1024 .f32) (f : v.ty.Contents (Elt F)) :
    v.read (Elt F) (v.writes (Elt F) f (runLast (F := F) c i arg3 harg3 arg4 harg4 arg5 harg5 arg6 harg6 arg7 harg7 arg8 harg8 arg9 harg9 hc0 hc1 x0 x1 x2 s0 s1 s2).1) = quotOut (stepA x0 x1 x2 s0 s2) (stepL x0 x1 s0 s1) := by
  rw [View.read_writes_eq_canon _ _ _ (fun y => View.cover_of_tiledL _ S1x1024x1024.size (by sl_kernel_rfl) y)]
  unfold runLast
  dsimp only
  sl_unfold_words
  rw [View.canon_unit_zero (S := S1x1024x1024) hz3, View.readCov_unit_zero (S := S1x1024x1024) _ hz3, View.readCov_unit_zero (S := S1x1024x1) _ hz3]
  simp only [View.readAt_eq_ld, harg3.read_unread, harg4.read_unread, harg5.read_unread, harg7.read_unread, harg8.read_unread, harg9.read_unread, View.ld_unit_zero (S := S1x1024x1024) hz3, View.ld_unit_zero (S := S1x256x1024) hz3, View.ld_unit_zero (S := S1x1024x1) hz3]
  rfl

/-- The row-maximum buffer ends at `stepM`. -/
theorem runLast_readM (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : condLast i)
    (x0 : Vec F S1x1024x1024 .bf16) (x1 : Vec F S1x256x1024 .bf16) (x2 : Vec F S1x256x1024 .bf16)
    (s0 : Vec F S1x1024x1 .f32) (s1 : Vec F S1x1024x1 .f32) (s2 : Vec F S1x1024x1024 .f32)
    {sig' : RefSig} {κ : Kind} {sp : Space} (v : View sig' κ sp S1x1024x1 .f32) (f : v.ty.Contents (Elt F)) :
    v.read (Elt F) (v.writes (Elt F) f (runLast (F := F) c i arg3 harg3 arg4 harg4 arg5 harg5 arg6 harg6 arg7 harg7 arg8 harg8 arg9 harg9 hc0 hc1 x0 x1 x2 s0 s1 s2).2.1) = stepM x0 x1 s0 := by
  rw [View.read_writes_eq_canon _ _ _ (fun y => View.cover_of_tiledL _ S1x1024x1.size (by sl_kernel_rfl) y)]
  unfold runLast
  dsimp only
  sl_unfold_words
  rw [View.canon_unit_zero (S := S1x1024x1) hz3]
  simp only [View.readAt_eq_ld, harg3.read_unread, harg4.read_unread, harg5.read_unread, harg7.read_unread, harg8.read_unread, harg9.read_unread, View.ld_unit_zero (S := S1x1024x1024) hz3, View.ld_unit_zero (S := S1x256x1024) hz3, View.ld_unit_zero (S := S1x1024x1) hz3]
  rfl

/-- The denominator buffer ends at `stepL`. -/
theorem runLast_readL (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : condLast i)
    (x0 : Vec F S1x1024x1024 .bf16) (x1 : Vec F S1x256x1024 .bf16) (x2 : Vec F S1x256x1024 .bf16)
    (s0 : Vec F S1x1024x1 .f32) (s1 : Vec F S1x1024x1 .f32) (s2 : Vec F S1x1024x1024 .f32)
    {sig' : RefSig} {κ : Kind} {sp : Space} (v : View sig' κ sp S1x1024x1 .f32) (f : v.ty.Contents (Elt F)) :
    v.read (Elt F) (v.writes (Elt F) f (runLast (F := F) c i arg3 harg3 arg4 harg4 arg5 harg5 arg6 harg6 arg7 harg7 arg8 harg8 arg9 harg9 hc0 hc1 x0 x1 x2 s0 s1 s2).2.2.1) = stepL x0 x1 s0 s1 := by
  rw [View.read_writes_eq_canon _ _ _ (fun y => View.cover_of_tiledL _ S1x1024x1.size (by sl_kernel_rfl) y)]
  unfold runLast
  dsimp only
  sl_unfold_words
  rw [View.canon_unit_zero (S := S1x1024x1) hz3]
  simp only [View.readAt_eq_ld, harg3.read_unread, harg4.read_unread, harg5.read_unread, harg7.read_unread, harg8.read_unread, harg9.read_unread, View.ld_unit_zero (S := S1x1024x1024) hz3, View.ld_unit_zero (S := S1x256x1024) hz3, View.ld_unit_zero (S := S1x1024x1) hz3]
  rfl

/-- The weighted-sum buffer ends at `stepA`. -/
theorem runLast_readA (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬condFirst i) (hc1 : condLast i)
    (x0 : Vec F S1x1024x1024 .bf16) (x1 : Vec F S1x256x1024 .bf16) (x2 : Vec F S1x256x1024 .bf16)
    (s0 : Vec F S1x1024x1 .f32) (s1 : Vec F S1x1024x1 .f32) (s2 : Vec F S1x1024x1024 .f32)
    {sig' : RefSig} {κ : Kind} {sp : Space} (v : View sig' κ sp S1x1024x1024 .f32) (f : v.ty.Contents (Elt F)) :
    v.read (Elt F) (v.writes (Elt F) f (runLast (F := F) c i arg3 harg3 arg4 harg4 arg5 harg5 arg6 harg6 arg7 harg7 arg8 harg8 arg9 harg9 hc0 hc1 x0 x1 x2 s0 s1 s2).2.2.2.1) = stepA x0 x1 x2 s0 s2 := by
  rw [View.read_writes_eq_canon _ _ _ (fun y => View.cover_of_tiledL _ S1x1024x1024.size (by sl_kernel_rfl) y)]
  unfold runLast
  dsimp only
  sl_unfold_words
  rw [View.canon_unit_zero (S := S1x1024x1024) hz3]
  simp only [View.readAt_eq_ld, harg3.read_unread, harg4.read_unread, harg5.read_unread, harg7.read_unread, harg8.read_unread, harg9.read_unread, View.ld_unit_zero (S := S1x1024x1024) hz3, View.ld_unit_zero (S := S1x256x1024) hz3, View.ld_unit_zero (S := S1x1024x1) hz3]
  rfl

/-! ## The first key block: the start values stored, read back, and updated

Each buffer is stored twice, the start value first; the later store covers the whole buffer, so it alone is what the
buffer holds, and its payload loads the start values back. -/

/-- The row-maximum buffer ends at `stepM` from `m0`. -/
theorem runFirst_readM (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : condFirst i) (hc1 : ¬condLast i)
    (x0 : Vec F S1x1024x1024 .bf16) (x1 : Vec F S1x256x1024 .bf16) (x2 : Vec F S1x256x1024 .bf16)
    {sig' : RefSig} {κ : Kind} {sp : Space} (v : View sig' κ sp S1x1024x1 .f32) (f : v.ty.Contents (Elt F)) :
    v.read (Elt F) (v.writes (Elt F) f (runFirst (F := F) c i arg3 harg3 arg4 harg4 arg5 harg5 arg6 harg6 arg7 harg7 arg8 harg8 arg9 harg9 hc0 hc1 x0 x1 x2).1) = stepM x0 x1 m0 := by
  rw [View.read_writes_eq_canon _ _ _ (fun y => View.cover_of_tiledL _ S1x1024x1.size (by sl_kernel_rfl) y)]
  unfold runFirst
  dsimp only
  sl_unfold_words
  rw [View.canon_cons_unit_zero (S := S1x1024x1) hz3, View.readCov_unit_zero (S := S1x1024x1) _ hz3]
  simp only [View.readAt_eq_ld, harg3.read_unread, harg4.read_unread, harg5.read_unread, harg7.read_unread, harg8.read_unread, harg9.read_unread, View.ld_unit_zero (S := S1x1024x1024) hz3, View.ld_unit_zero (S := S1x256x1024) hz3, View.ld_unit_zero (S := S1x1024x1) hz3]
  rfl

/-- The denominator buffer ends at `stepL` from `m0` and `l0`. -/
theorem runFirst_readL (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : condFirst i) (hc1 : ¬condLast i)
    (x0 : Vec F S1x1024x1024 .bf16) (x1 : Vec F S1x256x1024 .bf16) (x2 : Vec F S1x256x1024 .bf16)
    {sig' : RefSig} {κ : Kind} {sp : Space} (v : View sig' κ sp S1x1024x1 .f32) (f : v.ty.Contents (Elt F)) :
    v.read (Elt F) (v.writes (Elt F) f (runFirst (F := F) c i arg3 harg3 arg4 harg4 arg5 harg5 arg6 harg6 arg7 harg7 arg8 harg8 arg9 harg9 hc0 hc1 x0 x1 x2).2.1) = stepL x0 x1 m0 l0 := by
  rw [View.read_writes_eq_canon _ _ _ (fun y => View.cover_of_tiledL _ S1x1024x1.size (by sl_kernel_rfl) y)]
  unfold runFirst
  dsimp only
  sl_unfold_words
  rw [View.canon_cons_unit_zero (S := S1x1024x1) hz3, View.readCov_unit_zero (S := S1x1024x1) _ hz3, View.readCov_unit_zero (S := S1x1024x1) _ hz3]
  simp only [View.readAt_eq_ld, harg3.read_unread, harg4.read_unread, harg5.read_unread, harg7.read_unread, harg8.read_unread, harg9.read_unread, View.ld_unit_zero (S := S1x1024x1024) hz3, View.ld_unit_zero (S := S1x256x1024) hz3, View.ld_unit_zero (S := S1x1024x1) hz3]
  rfl

/-- The weighted-sum buffer ends at `stepA` from `m0` and `a0`. -/
theorem runFirst_readA (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : condFirst i) (hc1 : ¬condLast i)
    (x0 : Vec F S1x1024x1024 .bf16) (x1 : Vec F S1x256x1024 .bf16) (x2 : Vec F S1x256x1024 .bf16)
    {sig' : RefSig} {κ : Kind} {sp : Space} (v : View sig' κ sp S1x1024x1024 .f32) (f : v.ty.Contents (Elt F)) :
    v.read (Elt F) (v.writes (Elt F) f (runFirst (F := F) c i arg3 harg3 arg4 harg4 arg5 harg5 arg6 harg6 arg7 harg7 arg8 harg8 arg9 harg9 hc0 hc1 x0 x1 x2).2.2.1) = stepA x0 x1 x2 m0 a0 := by
  rw [View.read_writes_eq_canon _ _ _ (fun y => View.cover_of_tiledL _ S1x1024x1024.size (by sl_kernel_rfl) y)]
  unfold runFirst
  dsimp only
  sl_unfold_words
  rw [View.canon_cons_unit_zero (S := S1x1024x1024) hz3, View.readCov_unit_zero (S := S1x1024x1) _ hz3, View.readCov_unit_zero (S := S1x1024x1024) _ hz3]
  simp only [View.readAt_eq_ld, harg3.read_unread, harg4.read_unread, harg5.read_unread, harg7.read_unread, harg8.read_unread, harg9.read_unread, View.ld_unit_zero (S := S1x1024x1024) hz3, View.ld_unit_zero (S := S1x256x1024) hz3, View.ld_unit_zero (S := S1x1024x1) hz3]
  rfl

end Cert.KernelIdeal.Hand

end
-- ==== Proof.AttnArithIdeal.lean ====
/-
  The attention body's arithmetic read at one index, at the ideal values, over arbitrary loaded blocks.

  One step of the body takes a block of 1024 queries, a block of 256 keys and of 256 values, and the running maximum,
  denominator and weighted sum of each query row. Its scores are the rows' inner products over the 1024 features, scaled
  by 1/32; the new maximum is the old one against the largest score of the block; the old denominator and weighted sum
  are rescaled by the exponential of (old maximum − new maximum), and the block adds the exponentials of
  (score − new maximum), summed over the block's keys, respectively weighted by the values' entries. At the ideal values
  the narrowing conversions are the identity, a matrix product into a zero accumulator is the plain sum over the
  contracted axis, a lane reduction is the sum (or the fold of max) over the reduced axis, and a reshape or a broadcast
  reads one entry of its operand.
-/
import proofs.«116119_j1176821039548_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.AttnArith

open Cert.KernelIdeal Cert.KernelIdeal.Gen
open Idealize.ShloMosaic Idealize.ShloMosaic.ValueIdx

/-! ## Columns: a [1,1024,1] vector broadcast along its last axis, and a [1,1024] vector reshaped to a column -/

/-- A column broadcast over 1024 lanes reads, at row `r` and any lane, the column's entry of row `r`. -/
theorem col_bcast_1024 {α : Type} (l : S1x1024x1.Idx → α) (r : Fin 1024) (d : Fin 1024) :
    broadcastTo S1x1024x1024 l broadcasts_S1x1024x1_S1x1024x1024 (ix3 0 r d) = l (ix3 0 r 0) := by
  refine broadcastTo_apply l broadcasts_S1x1024x1_S1x1024x1024 (ix3 0 r d) (ix3 0 r 0) fun a => ?_
  match a with
  | ⟨0, _⟩ => rfl
  | ⟨1, _⟩ => rfl
  | ⟨2, _⟩ => rfl

/-- A column broadcast over 256 lanes likewise. -/
theorem col_bcast_256 {α : Type} (l : S1x1024x1.Idx → α) (r : Fin 1024) (k : Fin 256) :
    broadcastTo S1x1024x256 l broadcasts_S1x1024x1_S1x1024x256 (ix3 0 r k) = l (ix3 0 r 0) := by
  refine broadcastTo_apply l broadcasts_S1x1024x1_S1x1024x256 (ix3 0 r k) (ix3 0 r 0) fun a => ?_
  match a with
  | ⟨0, _⟩ => rfl
  | ⟨1, _⟩ => rfl
  | ⟨2, _⟩ => rfl

/-- A [1,1024] vector reshaped to the column [1,1024,1] reads, at row `r`, its entry `r`: the two indices have the
    same row-major position. -/
theorem col_of_row {α : Type} (v : S1x1024.Idx → α) (r : Fin 1024) :
    shapeCast S1x1024x1 v shapeCasts_S1x1024_S1x1024x1 (ix3 0 r 0) = v (ix2 0 r) := by
  refine shapeCast_apply v shapeCasts_S1x1024_S1x1024x1 (ix3 0 r 0) (ix2 0 r) ?_
  rw [Shape.rowMajor_val_two, Shape.rowMajor_val_three]
  show 0 * 1024 + r.val = (0 * 1024 + r.val) * 1 + 0
  omega

/-! ## The final quotient -/

/-- The last step divides the weighted sum's entry by the row's denominator. -/
theorem quot (a : Vec Ideal S1x1024x1024 .f32) (l : Vec Ideal S1x1024x1 .f32) (r : Fin 1024) (d : Fin 1024) :
    k1_pay3 a l (ix3 0 r d) = Ideal.div (a (ix3 0 r d)) (l (ix3 0 r 0)) := by
  unfold k1_pay3
  refine (divf_apply _ _ _).trans ?_
  rw [col_bcast_1024]

/-! ## The values a row starts from -/

/-- The word `0xFF800000` is minus infinity, the least extended real. -/
theorem negInf_word : Ideal.ofBits .f32 0xFF800000#32 = (⊥ : EReal) := by simp [Ideal.ofBits, Ideal.ieee]

/-- The running maximum starts at minus infinity. -/
theorem resetMax (r : Fin 1024) : k1_pay4 (F := Ideal) (ix3 0 r 0) = (⊥ : EReal) := by
  unfold k1_pay4
  simp only [shapeCast_self]
  exact negInf_word

/-- The running denominator starts at zero. -/
theorem resetDen (r : Fin 1024) : k1_pay5 (F := Ideal) (ix3 0 r 0) = (0 : EReal) := by
  unfold k1_pay5
  simp only [shapeCast_self]
  exact Ideal.ofBits_zero_f32

/-- The running weighted sum starts at zero. -/
theorem resetSum (r : Fin 1024) (d : Fin 1024) : k1_pay6 (F := Ideal) (ix3 0 r d) = (0 : EReal) := by
  unfold k1_pay6
  simp only [shapeCast_self]
  exact Ideal.ofBits_zero_f32

/-! ## The scale -/

/-- The word `0x3D000000` is 2⁻⁵ = 1/32: sign 0, exponent field 122, fraction 0. -/
theorem scale_word : Ideal.ofBits .f32 0x3D000000#32 = (((1 / 32 : ℝ)) : EReal) := by
  simp [Ideal.ofBits, Ideal.ieee, -EReal.coe_mul]
  norm_num

/-! ## The two matrix products -/

/-- Scores: the left operand's batch coordinate is the result's. -/
theorem qk_lhs_0 (i : S1x1024x256.Idx) (q : dot_S1x1024x1024_S1x256x1024_S1x1024x256_2_2_1_1_0_0.contr.Idx) :
    (dot_S1x1024x1024_S1x256x1024_S1x1024x256_2_2_1_1_0_0.lhsIdx i q 0).val = (i 0).val := by
  unfold DotDims.lhsIdx
  rw [dif_pos (show (0 : Fin S1x1024x1024.rank) ∈ dot_S1x1024x1024_S1x256x1024_S1x1024x256_2_2_1_1_0_0.lhsBatch by decide)]
  rfl
/-- Scores: the left operand's row is the result's row (the query). -/
theorem qk_lhs_1 (i : S1x1024x256.Idx) (q : dot_S1x1024x1024_S1x256x1024_S1x1024x256_2_2_1_1_0_0.contr.Idx) :
    (dot_S1x1024x1024_S1x256x1024_S1x1024x256_2_2_1_1_0_0.lhsIdx i q 1).val = (i 1).val := by
  unfold DotDims.lhsIdx
  rw [dif_neg (show ¬(1 : Fin S1x1024x1024.rank) ∈ dot_S1x1024x1024_S1x256x1024_S1x1024x256_2_2_1_1_0_0.lhsBatch by decide), dif_pos (show (1 : Fin S1x1024x1024.rank) ∈ dot_S1x1024x1024_S1x256x1024_S1x1024x256_2_2_1_1_0_0.lhsNonContracting by decide)]
  rfl
/-- Scores: the left operand's last coordinate is the contracted one (the feature). -/
theorem qk_lhs_2 (i : S1x1024x256.Idx) (q : dot_S1x1024x1024_S1x256x1024_S1x1024x256_2_2_1_1_0_0.contr.Idx) :
    (dot_S1x1024x1024_S1x256x1024_S1x1024x256_2_2_1_1_0_0.lhsIdx i q 2).val = (q ⟨0, by decide⟩).val :=
  dot_S1x1024x1024_S1x256x1024_S1x1024x256_2_2_1_1_0_0.lhsIdx_val_of_single rfl i q
/-- Scores: the right operand's batch coordinate is the result's. -/
theorem qk_rhs_0 (i : S1x1024x256.Idx) (q : dot_S1x1024x1024_S1x256x1024_S1x1024x256_2_2_1_1_0_0.contr.Idx) :
    (dot_S1x1024x1024_S1x256x1024_S1x1024x256_2_2_1_1_0_0.rhsIdx i q 0).val = (i 0).val := by
  unfold DotDims.rhsIdx
  rw [dif_pos (show (0 : Fin S1x256x1024.rank) ∈ dot_S1x1024x1024_S1x256x1024_S1x1024x256_2_2_1_1_0_0.rhsBatch by decide)]
  rfl
/-- Scores: the right operand's row is the result's column (the key). -/
theorem qk_rhs_1 (i : S1x1024x256.Idx) (q : dot_S1x1024x1024_S1x256x1024_S1x1024x256_2_2_1_1_0_0.contr.Idx) :
    (dot_S1x1024x1024_S1x256x1024_S1x1024x256_2_2_1_1_0_0.rhsIdx i q 1).val = (i 2).val := by
  unfold DotDims.rhsIdx
  rw [dif_neg (show ¬(1 : Fin S1x256x1024.rank) ∈ dot_S1x1024x1024_S1x256x1024_S1x1024x256_2_2_1_1_0_0.rhsBatch by decide), dif_pos (show (1 : Fin S1x256x1024.rank) ∈ dot_S1x1024x1024_S1x256x1024_S1x1024x256_2_2_1_1_0_0.rhsNonContracting by decide)]
  rfl
/-- Scores: the right operand's last coordinate is the contracted one (the feature). -/
theorem qk_rhs_2 (i : S1x1024x256.Idx) (q : dot_S1x1024x1024_S1x256x1024_S1x1024x256_2_2_1_1_0_0.contr.Idx) :
    (dot_S1x1024x1024_S1x256x1024_S1x1024x256_2_2_1_1_0_0.rhsIdx i q 2).val = (q ⟨0, by decide⟩).val :=
  dot_S1x1024x1024_S1x256x1024_S1x1024x256_2_2_1_1_0_0.rhsIdx_val_of_single rfl i q

/-- The product of queries and keys into a zero accumulator, at query `r` and key `k`: the inner product of the two
    rows over the 1024 features. -/
theorem qk_at (A : FVec Ideal S1x1024x1024 .bf16) (B : FVec Ideal S1x256x1024 .bf16) (r : Fin 1024) (k : Fin 256) :
    matmul dot_S1x1024x1024_S1x256x1024_S1x1024x256_2_2_1_1_0_0 none A B (constant (F := Ideal) S1x1024x256 .f32 0x00000000#32) (ix3 0 r k)
      = ∑ e : Fin 1024, A (ix3 0 r e) * B (ix3 0 k e) := by
  refine (Ideal.matmul_constant_zero_apply dot_S1x1024x1024_S1x256x1024_S1x1024x256_2_2_1_1_0_0 none A B (ix3 0 r k)).trans ?_
  rw [← Equiv.sum_comp (contrEquiv1 dot_S1x1024x1024_S1x256x1024_S1x1024x256_2_2_1_1_0_0 1024 rfl rfl).symm]
  refine Finset.sum_congr rfl fun e _ => ?_
  have he := contrEquiv1_symm_val dot_S1x1024x1024_S1x256x1024_S1x1024x256_2_2_1_1_0_0 1024 rfl rfl e
  have el : dot_S1x1024x1024_S1x256x1024_S1x1024x256_2_2_1_1_0_0.lhsIdx (ix3 0 r k) ((contrEquiv1 dot_S1x1024x1024_S1x256x1024_S1x1024x256_2_2_1_1_0_0 1024 rfl rfl).symm e) = ix3 0 r e := funext fun a => Fin.ext (by
    match a with
    | ⟨0, _⟩ => exact qk_lhs_0 _ _
    | ⟨1, _⟩ => exact qk_lhs_1 _ _
    | ⟨2, _⟩ => exact (qk_lhs_2 _ _).trans he)
  have er : dot_S1x1024x1024_S1x256x1024_S1x1024x256_2_2_1_1_0_0.rhsIdx (ix3 0 r k) ((contrEquiv1 dot_S1x1024x1024_S1x256x1024_S1x1024x256_2_2_1_1_0_0 1024 rfl rfl).symm e) = ix3 0 k e := funext fun a => Fin.ext (by
    match a with
    | ⟨0, _⟩ => exact qk_rhs_0 _ _
    | ⟨1, _⟩ => exact qk_rhs_1 _ _
    | ⟨2, _⟩ => exact (qk_rhs_2 _ _).trans he)
  rw [el, er]

/-! ## The scores and the new maximum -/

/-- The score of query `r` against key `k`: the rows' inner product over the features, times the scale word. -/
def scoreAt (x0 : Vec Ideal S1x1024x1024 .bf16) (x1 : Vec Ideal S1x256x1024 .bf16) (r : Fin 1024) (k : Fin 256) : EReal :=
  (∑ e : Fin 1024, x0 (ix3 0 r e) * x1 (ix3 0 k e)) * Ideal.ofBits .f32 0x3D000000#32

/-- The block's scores at `(r, k)`. -/
theorem scores_at (x0 : Vec Ideal S1x1024x1024 .bf16) (x1 : Vec Ideal S1x256x1024 .bf16) (r : Fin 1024) (k : Fin 256) :
    k1_pay7 x0 x1 (ix3 0 r k) = scoreAt x0 x1 r k := by
  unfold k1_pay7 scoreAt
  simp only [shapeCast_self]
  refine (mulf_apply _ _ _).trans ?_
  rw [qk_at]
  rfl

/-- Row `r` of the reduced shape with lane `k` put back on the reduced axis is the index `(0, r, k)`. -/
theorem lift_row (r : Fin 1024) (k : Fin 256) :
    reduces_S1x1024x256_S1x1024.lift (ix2 0 r) k = ix3 0 r k := by
  funext c
  refine Fin.ext ?_
  match c with
  | ⟨0, _⟩ => rfl
  | ⟨1, _⟩ => rfl
  | ⟨2, _⟩ => rfl

/-- The largest score of query `r` in the block: the fold of `max` from minus infinity over the block's 256 keys. -/
def blockMax (x0 : Vec Ideal S1x1024x1024 .bf16) (x1 : Vec Ideal S1x256x1024 .bf16) (r : Fin 1024) : EReal :=
  (Finset.univ : Finset (Fin 256)).fold max (Ideal.ofBits .f32 0xFF800000#32) (fun k => scoreAt x0 x1 r k)

/-- The lane maximum of the scores at row `r`. -/
theorem rowMax_at (x0 : Vec Ideal S1x1024x1024 .bf16) (x1 : Vec Ideal S1x256x1024 .bf16) (r : Fin 1024) :
    multiReduction (F := Ideal) .maximumf [2] S1x1024 (k1_pay7 x0 x1) 0xFF800000#32 reduces_S1x1024x256_S1x1024 (.inl rfl) rfl (ix2 0 r)
      = blockMax x0 x1 r := by
  refine (Ideal.multiReduction_maximumf_single (k1_pay7 x0 x1) 0xFF800000#32 reduces_S1x1024x256_S1x1024 (.inl rfl) rfl (ix2 0 r)).trans ?_
  have hf : (fun k : Fin 256 => k1_pay7 x0 x1 (reduces_S1x1024x256_S1x1024.lift (ix2 0 r) k)) = fun k => scoreAt x0 x1 r k :=
    funext fun k => by rw [lift_row, scores_at]
  exact congrArg (fun f : Fin 256 → EReal => (Finset.univ : Finset (Fin 256)).fold max (Ideal.ofBits .f32 0xFF800000#32) f) hf

/-- The running maximum after the block, at row `r`. -/
theorem runMax_at (x0 : Vec Ideal S1x1024x1024 .bf16) (x1 : Vec Ideal S1x256x1024 .bf16) (s0 : Vec Ideal S1x1024x1 .f32) (r : Fin 1024) :
    k1_pay8 x0 x1 s0 (ix3 0 r 0) = max (s0 (ix3 0 r 0)) (blockMax x0 x1 r) := by
  unfold k1_pay8
  refine (maximumf_apply _ _ _).trans (congrArg _ ?_)
  refine (col_of_row _ r).trans ?_
  exact rowMax_at x0 x1 r

/-- (1) The stored maximum: the old maximum against the block's largest score. -/
theorem newMax (x0 : Vec Ideal S1x1024x1024 .bf16) (x1 : Vec Ideal S1x256x1024 .bf16) (s0 : Vec Ideal S1x1024x1 .f32) (r : Fin 1024) :
    k1_pay2 (k1_pay8 x0 x1 s0) (ix3 0 r 0) = max (s0 (ix3 0 r 0)) (blockMax x0 x1 r) := by
  unfold k1_pay2
  simp only [shapeCast_self]
  exact runMax_at x0 x1 s0 r

/-! ## The new denominator -/

/-- The stored maximum is the running maximum after the block. -/
theorem storedMax_eq (x0 : Vec Ideal S1x1024x1024 .bf16) (x1 : Vec Ideal S1x256x1024 .bf16) (s0 : Vec Ideal S1x1024x1 .f32) (r : Fin 1024) :
    k1_pay2 (k1_pay8 x0 x1 s0) (ix3 0 r 0) = k1_pay8 x0 x1 s0 (ix3 0 r 0) := by
  unfold k1_pay2
  simp only [shapeCast_self]

/-- The factor the old denominator and weighted sum are rescaled by at row `r`: the exponential of the old maximum
    minus the new one. -/
theorem rescale_at (x0 : Vec Ideal S1x1024x1024 .bf16) (x1 : Vec Ideal S1x256x1024 .bf16) (s0 m : Vec Ideal S1x1024x1 .f32) (r : Fin 1024) :
    k1_pay9 x0 x1 s0 m (ix3 0 r 0) = Ideal.exp (m (ix3 0 r 0) - k1_pay8 x0 x1 s0 (ix3 0 r 0)) := by
  unfold k1_pay9
  rfl

/-- The block's weights at `(r, k)`: the exponential of the score minus the row's new maximum. -/
theorem weights_at (x0 : Vec Ideal S1x1024x1024 .bf16) (x1 : Vec Ideal S1x256x1024 .bf16) (s0 : Vec Ideal S1x1024x1 .f32) (r : Fin 1024) (k : Fin 256) :
    k1_pay10 x0 x1 s0 (ix3 0 r k) = Ideal.exp (scoreAt x0 x1 r k - k1_pay8 x0 x1 s0 (ix3 0 r 0)) := by
  unfold k1_pay10
  show Ideal.exp (k1_pay7 x0 x1 (ix3 0 r k) - broadcastTo S1x1024x256 (k1_pay8 x0 x1 s0) broadcasts_S1x1024x1_S1x1024x256 (ix3 0 r k)) = _
  rw [scores_at, col_bcast_256]

/-- The lane sum of the weights at row `r`: the sum over the block's 256 keys. -/
theorem rowSum_at (x0 : Vec Ideal S1x1024x1024 .bf16) (x1 : Vec Ideal S1x256x1024 .bf16) (s0 : Vec Ideal S1x1024x1 .f32) (r : Fin 1024) :
    multiReduction (F := Ideal) .add [2] S1x1024 (k1_pay10 x0 x1 s0) 0x00000000#32 reduces_S1x1024x256_S1x1024 (.inl rfl) rfl (ix2 0 r)
      = ∑ k : Fin 256, Ideal.exp (scoreAt x0 x1 r k - k1_pay8 x0 x1 s0 (ix3 0 r 0)) := by
  refine (Ideal.multiReduction_add_single (k1_pay10 x0 x1 s0) 0x00000000#32 reduces_S1x1024x256_S1x1024 (.inl rfl) rfl (ix2 0 r)).trans ?_
  have hf : (fun k : Fin 256 => k1_pay10 x0 x1 s0 (reduces_S1x1024x256_S1x1024.lift (ix2 0 r) k))
      = fun k => Ideal.exp (scoreAt x0 x1 r k - k1_pay8 x0 x1 s0 (ix3 0 r 0)) :=
    funext fun k => by rw [lift_row, weights_at]
  exact congrArg (fun f : Fin 256 → EReal => ∑ k : Fin 256, f k) hf

/-- (2) The stored denominator: the old one rescaled, plus the block's weights summed over its keys. -/
theorem newDen (x0 : Vec Ideal S1x1024x1024 .bf16) (x1 : Vec Ideal S1x256x1024 .bf16) (s0 s1 : Vec Ideal S1x1024x1 .f32) (r : Fin 1024) :
    k1_pay11 x0 x1 s0 s0 s1 (ix3 0 r 0)
      = Ideal.exp (s0 (ix3 0 r 0) - k1_pay2 (k1_pay8 x0 x1 s0) (ix3 0 r 0)) * s1 (ix3 0 r 0)
        + ∑ k : Fin 256, Ideal.exp (scoreAt x0 x1 r k - k1_pay2 (k1_pay8 x0 x1 s0) (ix3 0 r 0)) := by
  rw [storedMax_eq]
  unfold k1_pay11
  simp only [shapeCast_self]
  refine (addf_apply _ _ _).trans ?_
  refine congrArg₂ (· + ·) ?_ ?_
  · refine (mulf_apply _ _ _).trans ?_
    rw [rescale_at]
  · refine (col_of_row _ r).trans ?_
    exact rowSum_at x0 x1 s0 r

/-! ## The new weighted sum -/

/-- Weights times values: the left operand's batch coordinate is the result's. -/
theorem pv_lhs_0 (i : S1x1024x1024.Idx) (q : dot_S1x1024x256_S1x256x1024_S1x1024x1024_2_1_1_2_0_0.contr.Idx) :
    (dot_S1x1024x256_S1x256x1024_S1x1024x1024_2_1_1_2_0_0.lhsIdx i q 0).val = (i 0).val := by
  unfold DotDims.lhsIdx
  rw [dif_pos (show (0 : Fin S1x1024x256.rank) ∈ dot_S1x1024x256_S1x256x1024_S1x1024x1024_2_1_1_2_0_0.lhsBatch by decide)]
  rfl
/-- Weights times values: the left operand's row is the result's row (the query). -/
theorem pv_lhs_1 (i : S1x1024x1024.Idx) (q : dot_S1x1024x256_S1x256x1024_S1x1024x1024_2_1_1_2_0_0.contr.Idx) :
    (dot_S1x1024x256_S1x256x1024_S1x1024x1024_2_1_1_2_0_0.lhsIdx i q 1).val = (i 1).val := by
  unfold DotDims.lhsIdx
  rw [dif_neg (show ¬(1 : Fin S1x1024x256.rank) ∈ dot_S1x1024x256_S1x256x1024_S1x1024x1024_2_1_1_2_0_0.lhsBatch by decide), dif_pos (show (1 : Fin S1x1024x256.rank) ∈ dot_S1x1024x256_S1x256x1024_S1x1024x1024_2_1_1_2_0_0.lhsNonContracting by decide)]
  rfl
/-- Weights times values: the left operand's last coordinate is the contracted one (the key). -/
theorem pv_lhs_2 (i : S1x1024x1024.Idx) (q : dot_S1x1024x256_S1x256x1024_S1x1024x1024_2_1_1_2_0_0.contr.Idx) :
    (dot_S1x1024x256_S1x256x1024_S1x1024x1024_2_1_1_2_0_0.lhsIdx i q 2).val = (q ⟨0, by decide⟩).val :=
  dot_S1x1024x256_S1x256x1024_S1x1024x1024_2_1_1_2_0_0.lhsIdx_val_of_single rfl i q
/-- Weights times values: the right operand's batch coordinate is the result's. -/
theorem pv_rhs_0 (i : S1x1024x1024.Idx) (q : dot_S1x1024x256_S1x256x1024_S1x1024x1024_2_1_1_2_0_0.contr.Idx) :
    (dot_S1x1024x256_S1x256x1024_S1x1024x1024_2_1_1_2_0_0.rhsIdx i q 0).val = (i 0).val := by
  unfold DotDims.rhsIdx
  rw [dif_pos (show (0 : Fin S1x256x1024.rank) ∈ dot_S1x1024x256_S1x256x1024_S1x1024x1024_2_1_1_2_0_0.rhsBatch by decide)]
  rfl
/-- Weights times values: the right operand's row is the contracted coordinate (the key). -/
theorem pv_rhs_1 (i : S1x1024x1024.Idx) (q : dot_S1x1024x256_S1x256x1024_S1x1024x1024_2_1_1_2_0_0.contr.Idx) :
    (dot_S1x1024x256_S1x256x1024_S1x1024x1024_2_1_1_2_0_0.rhsIdx i q 1).val = (q ⟨0, by decide⟩).val :=
  dot_S1x1024x256_S1x256x1024_S1x1024x1024_2_1_1_2_0_0.rhsIdx_val_of_single rfl i q
/-- Weights times values: the right operand's last coordinate is the result's column (the feature). -/
theorem pv_rhs_2 (i : S1x1024x1024.Idx) (q : dot_S1x1024x256_S1x256x1024_S1x1024x1024_2_1_1_2_0_0.contr.Idx) :
    (dot_S1x1024x256_S1x256x1024_S1x1024x1024_2_1_1_2_0_0.rhsIdx i q 2).val = (i 2).val := by
  unfold DotDims.rhsIdx
  rw [dif_neg (show ¬(2 : Fin S1x256x1024.rank) ∈ dot_S1x1024x256_S1x256x1024_S1x1024x1024_2_1_1_2_0_0.rhsBatch by decide), dif_pos (show (2 : Fin S1x256x1024.rank) ∈ dot_S1x1024x256_S1x256x1024_S1x1024x1024_2_1_1_2_0_0.rhsNonContracting by decide)]
  rfl

/-- The product of weights and values into a zero accumulator, at query `r` and feature `d`: the sum over the
    block's 256 keys of the weight times the value's entry. -/
theorem pv_at (P : FVec Ideal S1x1024x256 .bf16) (V : FVec Ideal S1x256x1024 .bf16) (r : Fin 1024) (d : Fin 1024) :
    matmul dot_S1x1024x256_S1x256x1024_S1x1024x1024_2_1_1_2_0_0 none P V (constant (F := Ideal) S1x1024x1024 .f32 0x00000000#32) (ix3 0 r d)
      = ∑ k : Fin 256, P (ix3 0 r k) * V (ix3 0 k d) := by
  refine (Ideal.matmul_constant_zero_apply dot_S1x1024x256_S1x256x1024_S1x1024x1024_2_1_1_2_0_0 none P V (ix3 0 r d)).trans ?_
  rw [← Equiv.sum_comp (contrEquiv1 dot_S1x1024x256_S1x256x1024_S1x1024x1024_2_1_1_2_0_0 256 rfl rfl).symm]
  refine Finset.sum_congr rfl fun k _ => ?_
  have hk := contrEquiv1_symm_val dot_S1x1024x256_S1x256x1024_S1x1024x1024_2_1_1_2_0_0 256 rfl rfl k
  have el : dot_S1x1024x256_S1x256x1024_S1x1024x1024_2_1_1_2_0_0.lhsIdx (ix3 0 r d) ((contrEquiv1 dot_S1x1024x256_S1x256x1024_S1x1024x1024_2_1_1_2_0_0 256 rfl rfl).symm k) = ix3 0 r k := funext fun a => Fin.ext (by
    match a with
    | ⟨0, _⟩ => exact pv_lhs_0 _ _
    | ⟨1, _⟩ => exact pv_lhs_1 _ _
    | ⟨2, _⟩ => exact (pv_lhs_2 _ _).trans hk)
  have er : dot_S1x1024x256_S1x256x1024_S1x1024x1024_2_1_1_2_0_0.rhsIdx (ix3 0 r d) ((contrEquiv1 dot_S1x1024x256_S1x256x1024_S1x1024x1024_2_1_1_2_0_0 256 rfl rfl).symm k) = ix3 0 k d := funext fun a => Fin.ext (by
    match a with
    | ⟨0, _⟩ => exact pv_rhs_0 _ _
    | ⟨1, _⟩ => exact (pv_rhs_1 _ _).trans hk
    | ⟨2, _⟩ => exact pv_rhs_2 _ _)
  rw [el, er]

/-- (3) The stored weighted sum: the old one rescaled, plus the block's weights against the values' entries, summed
    over its keys. -/
theorem newSum (x0 : Vec Ideal S1x1024x1024 .bf16) (x1 x2 : Vec Ideal S1x256x1024 .bf16) (s0 : Vec Ideal S1x1024x1 .f32)
    (s2 : Vec Ideal S1x1024x1024 .f32) (r : Fin 1024) (d : Fin 1024) :
    k1_pay1 (k1_pay9 x0 x1 s0 s0) (k1_pay10 x0 x1 s0) s2 x2 (ix3 0 r d)
      = Ideal.exp (s0 (ix3 0 r 0) - k1_pay2 (k1_pay8 x0 x1 s0) (ix3 0 r 0)) * s2 (ix3 0 r d)
        + ∑ k : Fin 256, Ideal.exp (scoreAt x0 x1 r k - k1_pay2 (k1_pay8 x0 x1 s0) (ix3 0 r 0)) * x2 (ix3 0 k d) := by
  rw [storedMax_eq]
  unfold k1_pay1
  simp only [shapeCast_self]
  refine (addf_apply _ _ _).trans ?_
  refine congrArg₂ (· + ·) ?_ ?_
  · refine (mulf_apply _ _ _).trans ?_
    rw [col_bcast_1024, rescale_at]
  · refine (pv_at _ _ r d).trans ?_
    refine Finset.sum_congr rfl fun k _ => ?_
    rw [truncf_apply, weights_at]

end Cert.KernelIdeal.AttnArith

end
-- ==== Proof.LibOnlineSoftmax.lean ====
/-
  The online softmax. A row of scores is met block by block; a running shift `m`, a running denominator `l` and a
  running weighted sum `a` are kept, each rescaled by `exp (m_old - m_new)` when the shift moves. After the last
  block `a / l` is the softmax-weighted sum of the whole row, whatever finite shifts were used on the way and
  whatever finite shift the one-pass softmax uses. Stated on the extended reals with the ideal `exp` and `div`,
  the start being shift `⊥`, denominator `0`, sum `0` (so the first rescaling factor is `exp ⊥ = 0`).
-/
import Idealize.ShloMosaic.PureOps.Ideal

noncomputable section

namespace OnlineSoftmax

open Idealize.ShloMosaic

variable {w : ℕ}

/-- The running shift after `j` blocks: `⊥`, then the maximum with each block's own shift `bm j`. -/
def m (bm : ℕ → ℝ) : ℕ → EReal
  | 0 => ⊥
  | j + 1 => max (m bm j) ((bm j : ℝ) : EReal)

/-- The running denominator after `j` blocks. -/
def l (s : ℕ → Fin w → ℝ) (bm : ℕ → ℝ) : ℕ → EReal
  | 0 => 0
  | j + 1 => Ideal.exp (m bm j - m bm (j + 1)) * l s bm j + ∑ k : Fin w, Ideal.exp (((s j k : ℝ) : EReal) - m bm (j + 1))

/-- The running weighted sum after `j` blocks. -/
def a (s v : ℕ → Fin w → ℝ) (bm : ℕ → ℝ) : ℕ → EReal
  | 0 => 0
  | j + 1 => Ideal.exp (m bm j - m bm (j + 1)) * a s v bm j
      + ∑ k : Fin w, Ideal.exp (((s j k : ℝ) : EReal) - m bm (j + 1)) * ((v j k : ℝ) : EReal)

/-! ### Coercions of finite real sums -/

/-- The coercion of a finite real sum is the sum of the coercions. -/
theorem coe_sum {ι : Type*} (t : Finset ι) (f : ι → ℝ) :
    ((∑ i ∈ t, f i : ℝ) : EReal) = ∑ i ∈ t, ((f i : ℝ) : EReal) := by
  classical
  induction t using Finset.induction_on with
  | empty => simp
  | insert i t hi ih => rw [Finset.sum_insert hi, Finset.sum_insert hi, EReal.coe_add, ih]

/-- One block's sum of ideal exponentials at a real shift, weighted by reals, is the coercion of the real sum. -/
theorem block_coe (x c : Fin w → ℝ) (μ : ℝ) :
    ∑ k : Fin w, Ideal.exp (((x k : ℝ) : EReal) - (μ : EReal)) * ((c k : ℝ) : EReal)
      = ((∑ k : Fin w, Real.exp (x k - μ) * c k : ℝ) : EReal) := by
  rw [coe_sum]
  refine Finset.sum_congr rfl fun k _ => ?_
  rw [← EReal.coe_sub, Ideal.exp_coe, EReal.coe_mul]

/-! ### The running shift is real after the first block -/

theorem m_real (bm : ℕ → ℝ) (j : ℕ) : ∃ μ : ℝ, m bm (j + 1) = (μ : EReal) := by
  induction j with
  | zero => exact ⟨bm 0, by simp [m]⟩
  | succ j ih =>
    obtain ⟨μ, hμ⟩ := ih
    refine ⟨max μ (bm (j + 1)), ?_⟩
    show max (m bm (j + 1)) ((bm (j + 1) : ℝ) : EReal) = _
    rw [hμ]
    exact (EReal.coe_strictMono.monotone.map_max).symm

/-! ### Moving the shift of a real exponential sum: `e^(μ-μ') · Σ e^(s-μ) c = Σ e^(s-μ') c` -/

theorem rescale (s c : ℕ → Fin w → ℝ) (t : Finset ℕ) (μ μ' : ℝ) :
    Real.exp (μ - μ') * ∑ i ∈ t, ∑ k : Fin w, Real.exp (s i k - μ) * c i k
      = ∑ i ∈ t, ∑ k : Fin w, Real.exp (s i k - μ') * c i k := by
  rw [Finset.mul_sum]
  refine Finset.sum_congr rfl fun i _ => ?_
  rw [Finset.mul_sum]
  refine Finset.sum_congr rfl fun k _ => ?_
  rw [← mul_assoc, ← Real.exp_add]
  have h : μ - μ' + (s i k - μ) = s i k - μ' := by ring
  rw [h]

/-! ### Closed forms -/

/-- The denominator is the weighted sum with every weight one. -/
theorem l_eq_a (s : ℕ → Fin w → ℝ) (bm : ℕ → ℝ) (j : ℕ) :
    l s bm j = a s (fun _ _ => 1) bm j := by
  induction j with
  | zero => rfl
  | succ j ih => simp only [l, a, ih, EReal.coe_one, mul_one]

/-- After `j + 1` blocks, the running shift being the real `μ`, the weighted sum is the real
    `Σ e^(s-μ) v` over the blocks met. -/
theorem a_closed (s v : ℕ → Fin w → ℝ) (bm : ℕ → ℝ) (j : ℕ) :
    ∀ μ : ℝ, m bm (j + 1) = (μ : EReal) →
      a s v bm (j + 1)
        = ((∑ i ∈ Finset.range (j + 1), ∑ k : Fin w, Real.exp (s i k - μ) * v i k : ℝ) : EReal) := by
  induction j with
  | zero =>
    intro μ hμ
    show Ideal.exp (m bm 0 - m bm 1) * (0 : EReal)
        + ∑ k : Fin w, Ideal.exp (((s 0 k : ℝ) : EReal) - m bm 1) * ((v 0 k : ℝ) : EReal) = _
    rw [hμ, mul_zero, zero_add, Finset.sum_range_one, block_coe]
  | succ j ih =>
    intro μ' hμ'
    obtain ⟨μ, hμ⟩ := m_real bm j
    show Ideal.exp (m bm (j + 1) - m bm (j + 1 + 1)) * a s v bm (j + 1)
        + ∑ k : Fin w, Ideal.exp (((s (j + 1) k : ℝ) : EReal) - m bm (j + 1 + 1)) * ((v (j + 1) k : ℝ) : EReal) = _
    rw [ih μ hμ, hμ, hμ', ← EReal.coe_sub, Ideal.exp_coe, ← EReal.coe_mul, block_coe, ← EReal.coe_add,
      rescale, Finset.sum_range_succ _ (j + 1)]

/-! ### Positivity of the denominators -/

theorem sum_exp_pos [NeZero w] (s : ℕ → Fin w → ℝ) (j : ℕ) (μ : ℝ) :
    0 < ∑ i ∈ Finset.range (j + 1), ∑ k : Fin w, Real.exp (s i k - μ) := by
  apply Finset.sum_pos
  · intro i _
    apply Finset.sum_pos
    · intro k _
      exact Real.exp_pos _
    · exact Finset.univ_nonempty
  · exact ⟨0, Finset.mem_range.mpr (Nat.succ_pos j)⟩

/-! ### The quotient over the reals does not depend on the shift -/

theorem real_quot [NeZero w] (s v : ℕ → Fin w → ℝ) (j : ℕ) (μ M : ℝ) :
    (∑ i ∈ Finset.range (j + 1), ∑ k : Fin w, Real.exp (s i k - μ) * v i k)
        * (1 / ∑ i ∈ Finset.range (j + 1), ∑ k : Fin w, Real.exp (s i k - μ))
      = ∑ i ∈ Finset.range (j + 1), ∑ k : Fin w,
          Real.exp (s i k - M) * (1 / ∑ i' ∈ Finset.range (j + 1), ∑ k' : Fin w, Real.exp (s i' k' - M)) * v i k := by
  have hZ : 0 < ∑ i' ∈ Finset.range (j + 1), ∑ k' : Fin w, Real.exp (s i' k' - M) := sum_exp_pos s j M
  have hE : 0 < Real.exp (M - μ) := Real.exp_pos _
  have hA := rescale s v (Finset.range (j + 1)) M μ
  have hL := rescale s (fun _ _ => 1) (Finset.range (j + 1)) M μ
  simp only [mul_one] at hL
  rw [← hA, ← hL]
  generalize (∑ i' ∈ Finset.range (j + 1), ∑ k' : Fin w, Real.exp (s i' k' - M)) = Z at hZ ⊢
  have hR : ∑ i ∈ Finset.range (j + 1), ∑ k : Fin w, Real.exp (s i k - M) * (1 / Z) * v i k
      = (∑ i ∈ Finset.range (j + 1), ∑ k : Fin w, Real.exp (s i k - M) * v i k) * (1 / Z) := by
    rw [Finset.sum_mul]
    refine Finset.sum_congr rfl fun i _ => ?_
    rw [Finset.sum_mul]
    refine Finset.sum_congr rfl fun k _ => ?_
    ring
  rw [hR]
  field_simp

/-- After `n ≥ 1` blocks of positive width the quotient is the one-pass softmax-weighted sum at any finite shift `M`. -/
theorem final [NeZero w] (n : ℕ) (hn : 0 < n) (s v : ℕ → Fin w → ℝ) (bm : ℕ → ℝ) (M : ℝ) :
    Ideal.div (a s v bm n) (l s bm n)
      = ∑ j ∈ Finset.range n, ∑ k : Fin w,
          Ideal.div (Ideal.exp (((s j k : ℝ) : EReal) - (M : EReal)))
              (∑ j' ∈ Finset.range n, ∑ k' : Fin w, Ideal.exp (((s j' k' : ℝ) : EReal) - (M : EReal)))
            * ((v j k : ℝ) : EReal) := by
  obtain ⟨j, rfl⟩ : ∃ j, n = j + 1 := ⟨n - 1, by omega⟩
  obtain ⟨μ, hμ⟩ := m_real bm j
  have hL : 0 < ∑ i ∈ Finset.range (j + 1), ∑ k : Fin w, Real.exp (s i k - μ) := sum_exp_pos s j μ
  have hZ : 0 < ∑ i ∈ Finset.range (j + 1), ∑ k : Fin w, Real.exp (s i k - M) := sum_exp_pos s j M
  have hden : (∑ j' ∈ Finset.range (j + 1), ∑ k' : Fin w, Ideal.exp (((s j' k' : ℝ) : EReal) - (M : EReal)))
      = ((∑ i ∈ Finset.range (j + 1), ∑ k : Fin w, Real.exp (s i k - M) : ℝ) : EReal) := by
    rw [coe_sum]
    refine Finset.sum_congr rfl fun i _ => ?_
    rw [coe_sum]
    refine Finset.sum_congr rfl fun k _ => ?_
    rw [← EReal.coe_sub, Ideal.exp_coe]
  have hl := a_closed s (fun _ _ => 1) bm j μ hμ
  simp only [mul_one] at hl
  rw [l_eq_a, hl, a_closed s v bm j μ hμ, hden, Ideal.div_coe hL.ne', ← EReal.coe_mul, real_quot s v j μ M, coe_sum]
  refine Finset.sum_congr rfl fun i _ => ?_
  rw [coe_sum]
  refine Finset.sum_congr rfl fun k _ => ?_
  rw [Ideal.div_coe hZ.ne', ← EReal.coe_sub, Ideal.exp_coe, EReal.coe_mul, EReal.coe_mul]

end OnlineSoftmax

end
-- ==== Proof.LibOnlineE.lean ====
/-
  The online softmax recurrence with extended-real data: the running shift, denominator and weighted sum of
  LibOnlineSoftmax, the blocks' scores, values and shifts being extended reals. Where the data are coercions of real
  data, the three running quantities are those of the real recurrence.
-/
import proofs.«116119_j1176821039548_2_alg».proof.Proof.LibOnlineSoftmax

noncomputable section

namespace OnlineE

open Idealize.ShloMosaic

variable {w : ℕ}

/-- The running shift after `j` blocks: minus infinity, then the maximum with each block's own shift. -/
def mE (bmE : ℕ → EReal) : ℕ → EReal
  | 0 => ⊥
  | j + 1 => max (mE bmE j) (bmE j)

/-- The running denominator after `j` blocks. -/
def lE (sE : ℕ → Fin w → EReal) (bmE : ℕ → EReal) : ℕ → EReal
  | 0 => 0
  | j + 1 => Ideal.exp (mE bmE j - mE bmE (j + 1)) * lE sE bmE j + ∑ k : Fin w, Ideal.exp (sE j k - mE bmE (j + 1))

/-- The running weighted sum after `j` blocks. -/
def aE (sE vE : ℕ → Fin w → EReal) (bmE : ℕ → EReal) : ℕ → EReal
  | 0 => 0
  | j + 1 => Ideal.exp (mE bmE j - mE bmE (j + 1)) * aE sE vE bmE j
      + ∑ k : Fin w, Ideal.exp (sE j k - mE bmE (j + 1)) * vE j k

theorem mE_zero (bmE : ℕ → EReal) : mE bmE 0 = ⊥ := rfl
theorem mE_succ (bmE : ℕ → EReal) (j : ℕ) : mE bmE (j + 1) = max (mE bmE j) (bmE j) := rfl
theorem lE_zero (sE : ℕ → Fin w → EReal) (bmE : ℕ → EReal) : lE sE bmE 0 = 0 := rfl
theorem lE_succ (sE : ℕ → Fin w → EReal) (bmE : ℕ → EReal) (j : ℕ) :
    lE sE bmE (j + 1)
      = Ideal.exp (mE bmE j - mE bmE (j + 1)) * lE sE bmE j + ∑ k : Fin w, Ideal.exp (sE j k - mE bmE (j + 1)) := rfl
theorem aE_zero (sE vE : ℕ → Fin w → EReal) (bmE : ℕ → EReal) : aE sE vE bmE 0 = 0 := rfl
theorem aE_succ (sE vE : ℕ → Fin w → EReal) (bmE : ℕ → EReal) (j : ℕ) :
    aE sE vE bmE (j + 1)
      = Ideal.exp (mE bmE j - mE bmE (j + 1)) * aE sE vE bmE j
        + ∑ k : Fin w, Ideal.exp (sE j k - mE bmE (j + 1)) * vE j k := rfl

/-- With real block shifts the running shift is the real recurrence's. -/
theorem mE_eq (bm : ℕ → ℝ) (bmE : ℕ → EReal) (n : ℕ) (hb : ∀ j, j < n → bmE j = ((bm j : ℝ) : EReal)) :
    mE bmE n = OnlineSoftmax.m bm n := by
  induction n with
  | zero => rfl
  | succ n ih =>
    show max (mE bmE n) (bmE n) = max (OnlineSoftmax.m bm n) ((bm n : ℝ) : EReal)
    rw [ih fun j hj => hb j (Nat.lt_succ_of_lt hj), hb n (Nat.lt_succ_self n)]

/-- With real scores and block shifts the running denominator is the real recurrence's. -/
theorem lE_eq (s : ℕ → Fin w → ℝ) (bm : ℕ → ℝ) (sE : ℕ → Fin w → EReal) (bmE : ℕ → EReal) (n : ℕ)
    (hs : ∀ j, j < n → ∀ k, sE j k = ((s j k : ℝ) : EReal)) (hb : ∀ j, j < n → bmE j = ((bm j : ℝ) : EReal)) :
    lE sE bmE n = OnlineSoftmax.l s bm n := by
  induction n with
  | zero => rfl
  | succ n ih =>
    show Ideal.exp (mE bmE n - mE bmE (n + 1)) * lE sE bmE n + ∑ k : Fin w, Ideal.exp (sE n k - mE bmE (n + 1))
      = Ideal.exp (OnlineSoftmax.m bm n - OnlineSoftmax.m bm (n + 1)) * OnlineSoftmax.l s bm n
        + ∑ k : Fin w, Ideal.exp (((s n k : ℝ) : EReal) - OnlineSoftmax.m bm (n + 1))
    rw [ih (fun j hj => hs j (Nat.lt_succ_of_lt hj)) (fun j hj => hb j (Nat.lt_succ_of_lt hj)),
      mE_eq bm bmE n (fun j hj => hb j (Nat.lt_succ_of_lt hj)), mE_eq bm bmE (n + 1) hb]
    refine congrArg (_ + ·) (Finset.sum_congr rfl fun k _ => ?_)
    rw [hs n (Nat.lt_succ_self n) k]

/-- With real scores, values and block shifts the running weighted sum is the real recurrence's. -/
theorem aE_eq (s v : ℕ → Fin w → ℝ) (bm : ℕ → ℝ) (sE vE : ℕ → Fin w → EReal) (bmE : ℕ → EReal) (n : ℕ)
    (hs : ∀ j, j < n → ∀ k, sE j k = ((s j k : ℝ) : EReal)) (hv : ∀ j, j < n → ∀ k, vE j k = ((v j k : ℝ) : EReal))
    (hb : ∀ j, j < n → bmE j = ((bm j : ℝ) : EReal)) :
    aE sE vE bmE n = OnlineSoftmax.a s v bm n := by
  induction n with
  | zero => rfl
  | succ n ih =>
    show Ideal.exp (mE bmE n - mE bmE (n + 1)) * aE sE vE bmE n
        + ∑ k : Fin w, Ideal.exp (sE n k - mE bmE (n + 1)) * vE n k
      = Ideal.exp (OnlineSoftmax.m bm n - OnlineSoftmax.m bm (n + 1)) * OnlineSoftmax.a s v bm n
        + ∑ k : Fin w, Ideal.exp (((s n k : ℝ) : EReal) - OnlineSoftmax.m bm (n + 1)) * ((v n k : ℝ) : EReal)
    rw [ih (fun j hj => hs j (Nat.lt_succ_of_lt hj)) (fun j hj => hv j (Nat.lt_succ_of_lt hj))
        (fun j hj => hb j (Nat.lt_succ_of_lt hj)),
      mE_eq bm bmE n (fun j hj => hb j (Nat.lt_succ_of_lt hj)), mE_eq bm bmE (n + 1) hb]
    refine congrArg (_ + ·) (Finset.sum_congr rfl fun k _ => ?_)
    rw [hs n (Nat.lt_succ_self n) k, hv n (Nat.lt_succ_self n) k]

end OnlineE

end
-- ==== Proof.AttnValueIdeal.lean ====
/-
  The second region's value, row by row. Fix a batch member, a block of 1024 query rows and a row `r` of it. Across
  the eight key blocks the body keeps, for that row, a running maximum, a running denominator and a running weighted
  sum; at each key block they are updated from the block's scores of the row (the row's inner products with the
  block's 256 key rows, scaled), the largest of them, and the value block's entries. That is the online softmax
  recurrence on the extended reals, started from minus infinity, zero and zero, with the key blocks' scores, largest
  scores and value entries as its data. After the eighth block the output buffer holds the weighted sum divided by the
  denominator, and that is what the output array holds at the row.
-/
import proofs.«116119_j1176821039548_2_alg».proof.Proof.AttnBlocksIdeal
import proofs.«116119_j1176821039548_2_alg».proof.Proof.AttnPiecesIdeal
import proofs.«116119_j1176821039548_2_alg».proof.Proof.AttnArithIdeal
import proofs.«116119_j1176821039548_2_alg».proof.Proof.LibOnlineE

set_option maxRecDepth 16384

noncomputable section

namespace Cert.KernelIdeal.AttnValue

open Cert.KernelIdeal Cert.KernelIdeal.Gen Cert.KernelIdeal.Hand Cert.KernelIdeal.AttnArith
open Idealize.ShloMosaic Idealize.ShloMosaic.TcCoe Idealize.ShloMosaic.ValueIdx
open Idealize.ShloMosaic.Pipeline (Dat)

/-! ## One key block at one row: the recurrence's step -/

section Step

variable (sE : ℕ → Fin 256 → EReal) (bmE : ℕ → EReal) (vE : Fin 1024 → ℕ → Fin 256 → EReal)

/-- Row `r` of the three scratch buffers holds the recurrence's running maximum, denominator and weighted sums
    after `j` key blocks. -/
def RowInv (r : Fin 1024) (j : ℕ) (s0 s1 : Vec Ideal S1x1024x1 .f32) (s2 : Vec Ideal S1x1024x1024 .f32) : Prop :=
  s0 (ix3 0 r 0) = OnlineE.mE bmE j ∧ s1 (ix3 0 r 0) = OnlineE.lE sE bmE j
    ∧ ∀ d : Fin 1024, s2 (ix3 0 r d) = OnlineE.aE sE (vE d) bmE j

/-- The values a row of blocks starts from are the recurrence's start. -/
theorem rowInv_start (r : Fin 1024) : RowInv sE bmE vE r 0 (m0 (F := Ideal)) (l0 (F := Ideal)) (a0 (F := Ideal)) :=
  ⟨resetMax r, resetDen r, fun d => resetSum r d⟩

/-- One key block: if the block's largest score, scores and value entries at the row are the recurrence's data of
    block `j`, the updated buffers hold the recurrence after `j + 1` blocks. -/
theorem rowInv_step (r : Fin 1024) (j : ℕ) (x0 : Vec Ideal S1x1024x1024 .bf16) (x1 x2 : Vec Ideal S1x256x1024 .bf16)
    (s0 s1 : Vec Ideal S1x1024x1 .f32) (s2 : Vec Ideal S1x1024x1024 .f32)
    (hb : bmE j = blockMax x0 x1 r) (hs : ∀ k, sE j k = scoreAt x0 x1 r k) (hv : ∀ d k, vE d j k = x2 (ix3 0 k d))
    (h : RowInv sE bmE vE r j s0 s1 s2) :
    RowInv sE bmE vE r (j + 1) (stepM x0 x1 s0) (stepL x0 x1 s0 s1) (stepA x0 x1 x2 s0 s2) := by
  obtain ⟨h0, h1, h2⟩ := h
  have hM : k1_pay2 (k1_pay8 x0 x1 s0) (ix3 0 r 0) = OnlineE.mE bmE (j + 1) := by
    rw [newMax, h0, ← hb]; rfl
  refine ⟨hM, ?_, fun d => ?_⟩
  · show k1_pay11 x0 x1 s0 s0 s1 (ix3 0 r 0) = _
    rw [newDen, hM, h0, h1, OnlineE.lE_succ]
    refine congrArg (_ + ·) (Finset.sum_congr rfl fun k _ => ?_)
    rw [hs]
  · show k1_pay1 (k1_pay9 x0 x1 s0 s0) (k1_pay10 x0 x1 s0) s2 x2 (ix3 0 r d) = _
    rw [newSum, hM, h0, h2, OnlineE.aE_succ]
    refine congrArg (_ + ·) (Finset.sum_congr rfl fun k _ => ?_)
    rw [hs, hv]

end Step

variable (V : (c : Dev nD) → (b : Ref sig .tc) → Buf (Elt Ideal) ((c : Thread nD τ).loc b))

/-! ## The scratch buffers after a point, from the buffers before it -/

/-- The buffers after point `n` do not depend on how `n` is written. -/
theorem stAt_congr (c : Dev nD) {n n' : ℕ} (hn : n < cfg1.N) (hn' : n' < cfg1.N) (e : n = n') :
    stAt (F := Ideal) V c n hn = stAt (F := Ideal) V c n' hn' := by
  subst e; rfl

/-- The four buffers read back, one at a time. -/
theorem stOf_o (LO : List (View.Piece (Elt Ideal) S1x1024x1024 .f32)) (L0 L1 : List (View.Piece (Elt Ideal) S1x1024x1 .f32))
    (L2 : List (View.Piece (Elt Ideal) S1x1024x1024 .f32)) :
    (stOf (F := Ideal) LO L0 L1 L2).1 = VO.read (Elt Ideal) (VO.writes (Elt Ideal) VO.junk LO) := rfl
theorem stOf_m (LO : List (View.Piece (Elt Ideal) S1x1024x1024 .f32)) (L0 L1 : List (View.Piece (Elt Ideal) S1x1024x1 .f32))
    (L2 : List (View.Piece (Elt Ideal) S1x1024x1024 .f32)) :
    (stOf (F := Ideal) LO L0 L1 L2).2.1 = VS0.read (Elt Ideal) (VS0.writes (Elt Ideal) VS0.junk L0) := rfl
theorem stOf_l (LO : List (View.Piece (Elt Ideal) S1x1024x1024 .f32)) (L0 L1 : List (View.Piece (Elt Ideal) S1x1024x1 .f32))
    (L2 : List (View.Piece (Elt Ideal) S1x1024x1024 .f32)) :
    (stOf (F := Ideal) LO L0 L1 L2).2.2.1 = VS1.read (Elt Ideal) (VS1.writes (Elt Ideal) VS1.junk L1) := rfl
theorem stOf_a (LO : List (View.Piece (Elt Ideal) S1x1024x1024 .f32)) (L0 L1 : List (View.Piece (Elt Ideal) S1x1024x1 .f32))
    (L2 : List (View.Piece (Elt Ideal) S1x1024x1024 .f32)) :
    (stOf (F := Ideal) LO L0 L1 L2).2.2.2 = VS2.read (Elt Ideal) (VS2.writes (Elt Ideal) VS2.junk L2) := rfl

/-! The three runs' stored pieces, read back, at a point's buffers and blocks. -/

theorem rF_readM (c : Dev nD) (t : Fin cfg1.N) (h0 : t.val % 8 = 0) (h1 : ¬t.val % 8 = 7) :
    VS0.read (Elt Ideal) (VS0.writes (Elt Ideal) VS0.junk (rF (F := Ideal) V c t h0 h1).1)
      = stepM (blk1 V c 0 t) (blk1 V c 1 t) (m0 (F := Ideal)) :=
  runFirst_readM (F := Ideal) c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) ((hcondFirst t).mpr h0) (fun h => h1 ((hcondLast t).mp h)) (blk1 V c 0 t) (blk1 V c 1 t) (blk1 V c 2 t) VS0 VS0.junk
theorem rF_readL (c : Dev nD) (t : Fin cfg1.N) (h0 : t.val % 8 = 0) (h1 : ¬t.val % 8 = 7) :
    VS1.read (Elt Ideal) (VS1.writes (Elt Ideal) VS1.junk (rF (F := Ideal) V c t h0 h1).2.1)
      = stepL (blk1 V c 0 t) (blk1 V c 1 t) (m0 (F := Ideal)) (l0 (F := Ideal)) :=
  runFirst_readL (F := Ideal) c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) ((hcondFirst t).mpr h0) (fun h => h1 ((hcondLast t).mp h)) (blk1 V c 0 t) (blk1 V c 1 t) (blk1 V c 2 t) VS1 VS1.junk
theorem rF_readA (c : Dev nD) (t : Fin cfg1.N) (h0 : t.val % 8 = 0) (h1 : ¬t.val % 8 = 7) :
    VS2.read (Elt Ideal) (VS2.writes (Elt Ideal) VS2.junk (rF (F := Ideal) V c t h0 h1).2.2.1)
      = stepA (blk1 V c 0 t) (blk1 V c 1 t) (blk1 V c 2 t) (m0 (F := Ideal)) (a0 (F := Ideal)) :=
  runFirst_readA (F := Ideal) c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) ((hcondFirst t).mpr h0) (fun h => h1 ((hcondLast t).mp h)) (blk1 V c 0 t) (blk1 V c 1 t) (blk1 V c 2 t) VS2 VS2.junk

theorem rM_readM (c : Dev nD) (t : Fin cfg1.N) (h0 : ¬t.val % 8 = 0) (h1 : ¬t.val % 8 = 7) (s : St Ideal) :
    VS0.read (Elt Ideal) (VS0.writes (Elt Ideal) VS0.junk (rM (F := Ideal) V c t h0 h1 s).1)
      = stepM (blk1 V c 0 t) (blk1 V c 1 t) s.2.1 :=
  runMid_readM (F := Ideal) c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) (fun h => h0 ((hcondFirst t).mp h)) (fun h => h1 ((hcondLast t).mp h)) (blk1 V c 0 t) (blk1 V c 1 t) (blk1 V c 2 t) s.2.1 s.2.2.1 s.2.2.2 VS0 VS0.junk
theorem rM_readL (c : Dev nD) (t : Fin cfg1.N) (h0 : ¬t.val % 8 = 0) (h1 : ¬t.val % 8 = 7) (s : St Ideal) :
    VS1.read (Elt Ideal) (VS1.writes (Elt Ideal) VS1.junk (rM (F := Ideal) V c t h0 h1 s).2.1)
      = stepL (blk1 V c 0 t) (blk1 V c 1 t) s.2.1 s.2.2.1 :=
  runMid_readL (F := Ideal) c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) (fun h => h0 ((hcondFirst t).mp h)) (fun h => h1 ((hcondLast t).mp h)) (blk1 V c 0 t) (blk1 V c 1 t) (blk1 V c 2 t) s.2.1 s.2.2.1 s.2.2.2 VS1 VS1.junk
theorem rM_readA (c : Dev nD) (t : Fin cfg1.N) (h0 : ¬t.val % 8 = 0) (h1 : ¬t.val % 8 = 7) (s : St Ideal) :
    VS2.read (Elt Ideal) (VS2.writes (Elt Ideal) VS2.junk (rM (F := Ideal) V c t h0 h1 s).2.2.1)
      = stepA (blk1 V c 0 t) (blk1 V c 1 t) (blk1 V c 2 t) s.2.1 s.2.2.2 :=
  runMid_readA (F := Ideal) c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) (fun h => h0 ((hcondFirst t).mp h)) (fun h => h1 ((hcondLast t).mp h)) (blk1 V c 0 t) (blk1 V c 1 t) (blk1 V c 2 t) s.2.1 s.2.2.1 s.2.2.2 VS2 VS2.junk

theorem rL_readO (c : Dev nD) (t : Fin cfg1.N) (h0 : ¬t.val % 8 = 0) (h1 : t.val % 8 = 7) (s : St Ideal) :
    VO.read (Elt Ideal) (VO.writes (Elt Ideal) VO.junk (rL (F := Ideal) V c t h0 h1 s).1)
      = quotOut (stepA (blk1 V c 0 t) (blk1 V c 1 t) (blk1 V c 2 t) s.2.1 s.2.2.2) (stepL (blk1 V c 0 t) (blk1 V c 1 t) s.2.1 s.2.2.1) :=
  runLast_readO (F := Ideal) c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) (fun h => h0 ((hcondFirst t).mp h)) ((hcondLast t).mpr h1) (blk1 V c 0 t) (blk1 V c 1 t) (blk1 V c 2 t) s.2.1 s.2.2.1 s.2.2.2 VO VO.junk
theorem rL_readM (c : Dev nD) (t : Fin cfg1.N) (h0 : ¬t.val % 8 = 0) (h1 : t.val % 8 = 7) (s : St Ideal) :
    VS0.read (Elt Ideal) (VS0.writes (Elt Ideal) VS0.junk (rL (F := Ideal) V c t h0 h1 s).2.1)
      = stepM (blk1 V c 0 t) (blk1 V c 1 t) s.2.1 :=
  runLast_readM (F := Ideal) c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) (fun h => h0 ((hcondFirst t).mp h)) ((hcondLast t).mpr h1) (blk1 V c 0 t) (blk1 V c 1 t) (blk1 V c 2 t) s.2.1 s.2.2.1 s.2.2.2 VS0 VS0.junk
theorem rL_readL (c : Dev nD) (t : Fin cfg1.N) (h0 : ¬t.val % 8 = 0) (h1 : t.val % 8 = 7) (s : St Ideal) :
    VS1.read (Elt Ideal) (VS1.writes (Elt Ideal) VS1.junk (rL (F := Ideal) V c t h0 h1 s).2.2.1)
      = stepL (blk1 V c 0 t) (blk1 V c 1 t) s.2.1 s.2.2.1 :=
  runLast_readL (F := Ideal) c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) (fun h => h0 ((hcondFirst t).mp h)) ((hcondLast t).mpr h1) (blk1 V c 0 t) (blk1 V c 1 t) (blk1 V c 2 t) s.2.1 s.2.2.1 s.2.2.2 VS1 VS1.junk
theorem rL_readA (c : Dev nD) (t : Fin cfg1.N) (h0 : ¬t.val % 8 = 0) (h1 : t.val % 8 = 7) (s : St Ideal) :
    VS2.read (Elt Ideal) (VS2.writes (Elt Ideal) VS2.junk (rL (F := Ideal) V c t h0 h1 s).2.2.2.1)
      = stepA (blk1 V c 0 t) (blk1 V c 1 t) (blk1 V c 2 t) s.2.1 s.2.2.2 :=
  runLast_readA (F := Ideal) c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) (fun h => h0 ((hcondFirst t).mp h)) ((hcondLast t).mpr h1) (blk1 V c 0 t) (blk1 V c 1 t) (blk1 V c 2 t) s.2.1 s.2.2.1 s.2.2.2 VS2 VS2.junk

/-- After a first key block the scratch buffers hold one step from the start values. -/
theorem st_first (c : Dev nD) (t : Fin cfg1.N) (h0 : t.val % 8 = 0) :
    (stAt (F := Ideal) V c t.val t.isLt).2.1 = stepM (blk1 V c 0 t) (blk1 V c 1 t) (m0 (F := Ideal))
    ∧ (stAt (F := Ideal) V c t.val t.isLt).2.2.1 = stepL (blk1 V c 0 t) (blk1 V c 1 t) (m0 (F := Ideal)) (l0 (F := Ideal))
    ∧ (stAt (F := Ideal) V c t.val t.isLt).2.2.2
        = stepA (blk1 V c 0 t) (blk1 V c 1 t) (blk1 V c 2 t) (m0 (F := Ideal)) (a0 (F := Ideal)) := by
  have h1 : ¬t.val % 8 = 7 := by omega
  have e := stAt_first (F := Ideal) V c t h0 h1
  refine ⟨?_, ?_, ?_⟩
  · rw [e, stOf_m]; exact rF_readM V c t h0 h1
  · rw [e, stOf_l]; exact rF_readL V c t h0 h1
  · rw [e, stOf_a]; exact rF_readA V c t h0 h1

/-- The buffers the point before `t` left. -/
abbrev prev (c : Dev nD) (t : Fin cfg1.N) : St Ideal :=
  stAt (F := Ideal) V c (t.val - 1) (Nat.lt_of_le_of_lt (Nat.sub_le _ _) t.isLt)

/-- After any later key block the scratch buffers hold one step from what the point before left. -/
theorem st_next (c : Dev nD) (t : Fin cfg1.N) (h0 : ¬t.val % 8 = 0) :
    (stAt (F := Ideal) V c t.val t.isLt).2.1 = stepM (blk1 V c 0 t) (blk1 V c 1 t) (prev V c t).2.1
    ∧ (stAt (F := Ideal) V c t.val t.isLt).2.2.1 = stepL (blk1 V c 0 t) (blk1 V c 1 t) (prev V c t).2.1 (prev V c t).2.2.1
    ∧ (stAt (F := Ideal) V c t.val t.isLt).2.2.2
        = stepA (blk1 V c 0 t) (blk1 V c 1 t) (blk1 V c 2 t) (prev V c t).2.1 (prev V c t).2.2.2 := by
  by_cases h1 : t.val % 8 = 7
  · have e := stAt_last (F := Ideal) V c t h0 h1
    refine ⟨?_, ?_, ?_⟩
    · rw [e, stOf_m]; exact rL_readM V c t h0 h1 (prev V c t)
    · rw [e, stOf_l]; exact rL_readL V c t h0 h1 (prev V c t)
    · rw [e, stOf_a]; exact rL_readA V c t h0 h1 (prev V c t)
  · have e := stAt_mid (F := Ideal) V c t h0 h1
    refine ⟨?_, ?_, ?_⟩
    · rw [e, stOf_m]; exact rM_readM V c t h0 h1 (prev V c t)
    · rw [e, stOf_l]; exact rM_readL V c t h0 h1 (prev V c t)
    · rw [e, stOf_a]; exact rM_readA V c t h0 h1 (prev V c t)

/-- After a last key block the output buffer holds the new weighted sum divided by the new denominator. -/
theorem st_last_out (c : Dev nD) (t : Fin cfg1.N) (h0 : ¬t.val % 8 = 0) (h1 : t.val % 8 = 7) :
    (stAt (F := Ideal) V c t.val t.isLt).1
      = quotOut (stAt (F := Ideal) V c t.val t.isLt).2.2.2 (stAt (F := Ideal) V c t.val t.isLt).2.2.1 := by
  obtain ⟨-, eL, eA⟩ := st_next V c t h0
  rw [eL, eA]
  have e := stAt_last (F := Ideal) V c t h0 h1
  rw [e, stOf_o]; exact rL_readO V c t h0 h1 (prev V c t)

/-! ## A row across its eight key blocks -/

section Row

variable (c : Dev nD) (bb : Fin 4) (qi : Fin 2) (r : Fin 1024)

/-- The query, key and value blocks at key block `j` of (bb, qi). -/
abbrev B0 (j : Fin 8) : Vec Ideal S1x1024x1024 .bf16 := blk1 V c 0 (pt bb qi j)
abbrev B1 (j : Fin 8) : Vec Ideal S1x256x1024 .bf16 := blk1 V c 1 (pt bb qi j)
abbrev B2 (j : Fin 8) : Vec Ideal S1x256x1024 .bf16 := blk1 V c 2 (pt bb qi j)

/-- The recurrence's data for row `r`: key block `j`'s scores of the row, the largest of them, and the value block's
    entries in column `d` (beyond the eighth block: zero, minus infinity, zero). -/
def sE : ℕ → Fin 256 → EReal := fun j k =>
  if h : j < 8 then scoreAt (B0 V c bb qi ⟨j, h⟩) (B1 V c bb qi ⟨j, h⟩) r k else 0
def bmE : ℕ → EReal := fun j =>
  if h : j < 8 then blockMax (B0 V c bb qi ⟨j, h⟩) (B1 V c bb qi ⟨j, h⟩) r else ⊥
def vE (d : Fin 1024) : ℕ → Fin 256 → EReal := fun j k =>
  if h : j < 8 then B2 V c bb qi ⟨j, h⟩ (ix3 0 k d) else 0

theorem pt_mod (j : ℕ) (hj : j < 8) : (pt bb qi ⟨j, hj⟩).val % 8 = j := by
  show (16 * bb.val + 8 * qi.val + j) % 8 = j; omega

/-- After key block `j` row `r` of the scratch buffers holds the recurrence after `j + 1` blocks. -/
theorem row_after (j : ℕ) (hj : j < 8) :
    RowInv (sE V c bb qi r) (bmE V c bb qi r) (vE V c bb qi) r (j + 1)
      (stAt (F := Ideal) V c (pt bb qi ⟨j, hj⟩).val (pt bb qi ⟨j, hj⟩).isLt).2.1
      (stAt (F := Ideal) V c (pt bb qi ⟨j, hj⟩).val (pt bb qi ⟨j, hj⟩).isLt).2.2.1
      (stAt (F := Ideal) V c (pt bb qi ⟨j, hj⟩).val (pt bb qi ⟨j, hj⟩).isLt).2.2.2 := by
  induction j with
  | zero =>
    obtain ⟨eM, eL, eA⟩ := st_first V c (pt bb qi ⟨0, hj⟩) (pt_mod bb qi 0 hj)
    rw [eM, eL, eA]
    exact rowInv_step _ _ _ r 0 (B0 V c bb qi ⟨0, hj⟩) (B1 V c bb qi ⟨0, hj⟩) (B2 V c bb qi ⟨0, hj⟩) (m0 (F := Ideal)) (l0 (F := Ideal)) (a0 (F := Ideal))
      (dif_pos hj) (fun k => dif_pos hj) (fun d k => dif_pos hj) (rowInv_start _ _ _ r)
  | succ j ih =>
    have hj' : j < 8 := by omega
    have hne : ¬(pt bb qi ⟨j + 1, hj⟩).val % 8 = 0 := by rw [pt_mod]; omega
    obtain ⟨eM, eL, eA⟩ := st_next V c (pt bb qi ⟨j + 1, hj⟩) hne
    have ep : prev V c (pt bb qi ⟨j + 1, hj⟩)
        = stAt (F := Ideal) V c (pt bb qi ⟨j, hj'⟩).val (pt bb qi ⟨j, hj'⟩).isLt :=
      stAt_congr V c _ _ (by show 16 * bb.val + 8 * qi.val + (j + 1) - 1 = 16 * bb.val + 8 * qi.val + j; omega)
    rw [eM, eL, eA, ep]
    exact rowInv_step _ _ _ r (j + 1) (B0 V c bb qi ⟨j + 1, hj⟩) (B1 V c bb qi ⟨j + 1, hj⟩) (B2 V c bb qi ⟨j + 1, hj⟩) _ _ _
      (dif_pos hj) (fun k => dif_pos hj) (fun d k => dif_pos hj) (ih hj')

/-- After the eighth key block the output buffer's entry (r, d) is the recurrence's weighted sum over its denominator. -/
theorem out_after (d : Fin 1024) :
    (stAt (F := Ideal) V c (pt bb qi 7).val (pt bb qi 7).isLt).1 (ix3 0 r d)
      = Ideal.div (OnlineE.aE (sE V c bb qi r) (vE V c bb qi d) (bmE V c bb qi r) 8)
          (OnlineE.lE (sE V c bb qi r) (bmE V c bb qi r) 8) := by
  have h7 : (7 : ℕ) < 8 := by norm_num
  have hm : (pt bb qi 7).val % 8 = 7 := pt_mod bb qi 7 h7
  obtain ⟨-, hL, hA⟩ := row_after V c bb qi r 7 h7
  rw [st_last_out V c (pt bb qi 7) (by omega) hm]
  show k1_pay3 _ _ (ix3 0 r d) = _
  rw [quot]
  exact congrArg₂ Ideal.div (hA d) hL

end Row

/-! ## The output array -/

/-- The output array after the region, at batch member bb, row 1024 qi + r, column d. -/
theorem attn_value_blocks (c : Dev nD) (bb : Fin 4) (qi : Fin 2) (r d : Fin 1024) :
    (dat1 V c).arrAt 3 cfg1.N (ix3 bb (qrow qi r) d)
      = Ideal.div (OnlineE.aE (sE V c bb qi r) (vE V c bb qi d) (bmE V c bb qi r) 8)
          (OnlineE.lE (sE V c bb qi r) (bmE V c bb qi r) 8) := by
  rw [arr3_apply]
  exact out_after V c bb qi r d

/-! ## The recurrence's data in terms of the three arrays -/

/-- The scaled score of query row `q` against key row `k` of batch member `bb`. -/
def scoreG (Q K : S4x2048x1024.Idx → EReal) (bb : Fin 4) (q k : Fin 2048) : EReal :=
  (∑ e : Fin 1024, Q (ix3 bb q e) * K (ix3 bb k e)) * Ideal.ofBits .f32 0x3D000000#32

/-- Key block `j`'s scores of the row are the array scores at key rows 256 j … 256 j + 255. -/
theorem sE_eq (c : Dev nD) (bb : Fin 4) (qi : Fin 2) (r : Fin 1024) (j : ℕ) (hj : j < 8) (k : Fin 256) :
    sE V c bb qi r j k = scoreG (V c main_v5) (V c main_v6) bb (qrow qi r) (krow ⟨j, hj⟩ k) := by
  unfold sE
  rw [dif_pos hj]
  unfold scoreAt scoreG
  refine congrArg (· * _) (Finset.sum_congr rfl fun e _ => ?_)
  exact congrArg₂ (· * ·) (blkQ_at V c bb qi ⟨j, hj⟩ r e) (blkK_at V c bb qi ⟨j, hj⟩ k e)

/-- Key block `j`'s value entries in column `d` are the value array's at key rows 256 j … 256 j + 255. -/
theorem vE_eq (c : Dev nD) (bb : Fin 4) (qi : Fin 2) (d : Fin 1024) (j : ℕ) (hj : j < 8) (k : Fin 256) :
    vE V c bb qi d j k = (V c main_v7 : S4x2048x1024.Idx → EReal) (ix3 bb (krow ⟨j, hj⟩ k) d) := by
  unfold vE
  rw [dif_pos hj]
  exact blkV_at V c bb qi ⟨j, hj⟩ k d

/-- Key block `j`'s largest score of the row is the maximum, from minus infinity, of the block's scores. -/
theorem bmE_eq (c : Dev nD) (bb : Fin 4) (qi : Fin 2) (r : Fin 1024) (j : ℕ) (hj : j < 8) :
    bmE V c bb qi r j = (Finset.univ : Finset (Fin 256)).fold max ⊥ (sE V c bb qi r j) := by
  have hf : sE V c bb qi r j = fun k => scoreAt (B0 V c bb qi ⟨j, hj⟩) (B1 V c bb qi ⟨j, hj⟩) r k :=
    funext fun k => dif_pos hj
  unfold bmE
  rw [dif_pos hj, hf]
  unfold blockMax
  rw [negInf_word]

/-- The summary: the output array at batch member bb, row 1024 qi + r, column d is the online softmax recurrence over
    eight blocks of 256, whose data are the row's scores against the key rows, the value array's column, and each
    block's largest score. -/
theorem attn_value (c : Dev nD) (bb : Fin 4) (qi : Fin 2) (r d : Fin 1024)
    (S Vd : Fin 2048 → EReal)
    (hS : ∀ key, S key = scoreG (V c main_v5) (V c main_v6) bb (qrow qi r) key)
    (hV : ∀ key, Vd key = (V c main_v7 : S4x2048x1024.Idx → EReal) (ix3 bb key d)) :
    ∃ (sE' vE' : ℕ → Fin 256 → EReal) (bmE' : ℕ → EReal),
      (dat1 V c).arrAt 3 cfg1.N (ix3 bb (qrow qi r) d)
          = Ideal.div (OnlineE.aE sE' vE' bmE' 8) (OnlineE.lE sE' bmE' 8)
      ∧ (∀ (j : ℕ) (hj : j < 8) (k : Fin 256), sE' j k = S (krow ⟨j, hj⟩ k))
      ∧ (∀ (j : ℕ) (hj : j < 8) (k : Fin 256), vE' j k = Vd (krow ⟨j, hj⟩ k))
      ∧ (∀ j : ℕ, j < 8 → bmE' j = (Finset.univ : Finset (Fin 256)).fold max ⊥ (sE' j)) :=
  ⟨sE V c bb qi r, vE V c bb qi d, bmE V c bb qi r, attn_value_blocks V c bb qi r d,
    fun j hj k => (sE_eq V c bb qi r j hj k).trans (hS _).symm,
    fun j hj k => (vE_eq V c bb qi d j hj k).trans (hV _).symm,
    fun j hj => bmE_eq V c bb qi r j hj⟩

end Cert.KernelIdeal.AttnValue

end
-- ==== Proof.LibBlockSum.lean ====
/-
  Regrouping a finite sum into consecutive blocks, in any commutative additive monoid (no cancellation and no
  finiteness is used, so it holds on the extended reals): a sum over `n * k` consecutive indices is the sum over the
  `n` blocks of the sums over the `k` places inside a block, place `e` of block `s` being index `e + k * s`.
-/
import Mathlib

namespace Cert.Lib.BlockSum

/-- Place `e` of block `s`, as an index below `n * k`: the natural `e + k * s`. -/
theorem place_val (n k : ℕ) (s : Fin n) (e : Fin k) : (finProdFinEquiv (s, e) : Fin (n * k)).val = e.val + k * s.val := rfl

/-- A sum over `Fin (n * k)` read block by block. -/
theorem sum_fin_mul_fin {M : Type*} [AddCommMonoid M] (n k : ℕ) (f : Fin (n * k) → M) :
    ∑ i : Fin (n * k), f i = ∑ s : Fin n, ∑ e : Fin k, f (finProdFinEquiv (s, e)) := by
  rw [← Fintype.sum_prod_type']
  exact (Equiv.sum_comp finProdFinEquiv f).symm

/-- The same with the summand a function of the natural under the index. -/
theorem sum_fin_mul {M : Type*} [AddCommMonoid M] (n k : ℕ) (f : ℕ → M) :
    ∑ i : Fin (n * k), f i.val = ∑ s : Fin n, ∑ e : Fin k, f (e.val + k * s.val) :=
  sum_fin_mul_fin n k fun i => f i.val

end Cert.Lib.BlockSum
-- ==== Proof.Bridge.lean ====
/-
  One row of 2048 real scores met in 8 consecutive blocks of 256. The online softmax over the 8 blocks (a running
  shift, a running denominator and a running weighted sum, rescaled whenever the shift moves) ends with the same
  quotient as the one-pass softmax-weighted sum over the whole row at any real shift: the online recursion's
  closed form is a sum over blocks and places, and a sum over 2048 = 8 * 256 consecutive indices is the sum over
  the blocks of the sums over the places, place `e` of block `j` being index `e + 256 * j`.
-/
import proofs.«116119_j1176821039548_2_alg».proof.Proof.LibOnlineSoftmax
import proofs.«116119_j1176821039548_2_alg».proof.Proof.LibBlockSum
import proofs.«116119_j1176821039548_2_alg».proof.Proof.Spec

noncomputable section

namespace Cert.Bridge

open Idealize.ShloMosaic

/-- The entry at place `e` of block `j` of a row of 2048 (zero past the eighth block). -/
def blockOf (S : Fin 2048 → ℝ) : ℕ → Fin 256 → ℝ :=
  fun j e => if h : j < 8 then S ⟨e.val + 256 * j, by have := e.isLt; omega⟩ else 0

theorem blockOf_lt (S : Fin 2048 → ℝ) {j : ℕ} (h : j < 8) (e : Fin 256) :
    blockOf S j e = S ⟨e.val + 256 * j, by have := e.isLt; omega⟩ := dif_pos h

/-- A sum over a row of 2048 read block by block, in any commutative additive monoid. -/
theorem sum_blocks {A : Type*} [AddCommMonoid A] (f : Fin 2048 → A) :
    ∑ k : Fin 2048, f k
      = ∑ j ∈ Finset.range 8, ∑ e : Fin 256,
          if h : j < 8 then f ⟨e.val + 256 * j, by have := e.isLt; omega⟩ else 0 := by
  rw [Finset.sum_range]
  rw [show (∑ k : Fin 2048, f k) = ∑ s : Fin 8, ∑ e : Fin 256, f (finProdFinEquiv (s, e)) from
    Cert.Lib.BlockSum.sum_fin_mul_fin 8 256 f]
  refine Finset.sum_congr rfl fun s _ => Finset.sum_congr rfl fun e _ => ?_
  rw [dif_pos s.isLt]
  exact congrArg f (Fin.ext (Cert.Lib.BlockSum.place_val 8 256 s e))

/-- The row's sum of exponentials at a real shift, block by block. -/
theorem den_blocks (S : Fin 2048 → ℝ) (M : ℝ) :
    ∑ k' : Fin 2048, Ideal.exp (((S k' : ℝ) : EReal) - (M : EReal))
      = ∑ j' ∈ Finset.range 8, ∑ e' : Fin 256, Ideal.exp (((blockOf S j' e' : ℝ) : EReal) - (M : EReal)) := by
  rw [sum_blocks]
  refine Finset.sum_congr rfl fun j hj => Finset.sum_congr rfl fun e _ => ?_
  have hj' : j < 8 := Finset.mem_range.1 hj
  rw [dif_pos hj', blockOf_lt S hj']

/-- The online softmax over the 8 blocks of a row ends with the one-pass softmax-weighted sum of the row, at any
    real shift `M` and whatever the blocks' own shifts `bm` were. -/
theorem online_row (S Vd : Fin 2048 → ℝ) (bm : ℕ → ℝ) (M : ℝ) :
    Ideal.div (OnlineSoftmax.a (blockOf S) (blockOf Vd) bm 8) (OnlineSoftmax.l (blockOf S) bm 8)
      = ∑ k : Fin 2048,
          Ideal.div (Ideal.exp (((S k : ℝ) : EReal) - (M : EReal)))
              (∑ k' : Fin 2048, Ideal.exp (((S k' : ℝ) : EReal) - (M : EReal)))
            * ((Vd k : ℝ) : EReal) := by
  have h8 : 0 < 8 := by norm_num
  refine (OnlineSoftmax.final 8 h8 (blockOf S) (blockOf Vd) bm M).trans ?_
  rw [← den_blocks S M]
  refine Eq.trans ?_ (sum_blocks _).symm
  refine Finset.sum_congr rfl fun j hj => Finset.sum_congr rfl fun e _ => ?_
  have hj' : j < 8 := Finset.mem_range.1 hj
  rw [dif_pos hj', blockOf_lt S hj', blockOf_lt Vd hj']

/-- The same with the row, the values and the shift given on the extended reals together with their real witnesses. -/
theorem online_row_ereal (S Vd : Fin 2048 → ℝ) (bm : ℕ → ℝ) (M : ℝ) (S' V' : Fin 2048 → EReal) (M' : EReal)
    (hS : ∀ k, S' k = ((S k : ℝ) : EReal)) (hV : ∀ k, V' k = ((Vd k : ℝ) : EReal)) (hM : M' = (M : EReal)) :
    Ideal.div (OnlineSoftmax.a (blockOf S) (blockOf Vd) bm 8) (OnlineSoftmax.l (blockOf S) bm 8)
      = ∑ k : Fin 2048, Ideal.div (Ideal.exp (S' k - M')) (∑ k' : Fin 2048, Ideal.exp (S' k' - M')) * V' k := by
  rw [online_row S Vd bm M]
  simp only [hS, hV, hM]

/-- In the specification's words: the online softmax over the 8 blocks of row (b, q), weighting column `d` of the
    values, is the specification's attention output at (b, q, d), given real witnesses of the row's scores, of the
    values' column and of the shift. -/
theorem online_attend (S : Fin 4 → Fin 2048 → Fin 2048 → EReal) (Mx : Fin 4 → Fin 2048 → EReal)
    (V : Fin 4 → Fin 2048 → Fin 1024 → EReal) (b : Fin 4) (q : Fin 2048) (d : Fin 1024)
    (Sr Vr : Fin 2048 → ℝ) (bm : ℕ → ℝ) (M : ℝ)
    (hS : ∀ k, S b q k = ((Sr k : ℝ) : EReal)) (hV : ∀ k, V b k d = ((Vr k : ℝ) : EReal)) (hM : Mx b q = (M : EReal)) :
    Ideal.div (OnlineSoftmax.a (blockOf Sr) (blockOf Vr) bm 8) (OnlineSoftmax.l (blockOf Sr) bm 8)
      = Cert.Spec.attend S Mx V b q d := by
  unfold Cert.Spec.attend
  exact online_row_ereal Sr Vr bm M (S b q) (fun k => V b k d) (Mx b q) hS hV hM

end Cert.Bridge

end
-- ==== Proof.BridgeE.lean ====
/-
  A row of 2048 extended-real scores met in 8 consecutive blocks of 256, every entry being the coercion of a real.
  Each block's shift is the maximum of its 256 scores, folded from minus infinity: the maximum of a nonempty finite
  family is one of its members, hence again real. The extended-real online recurrence over the blocks is then the real
  one on the real witnesses, and ends with the one-pass softmax-weighted sum of the whole row at any real shift.
  Place `k` of block `j` is index `256 * j + k` of the row.
-/
import proofs.«116119_j1176821039548_2_alg».proof.Proof.LibOnlineE
import proofs.«116119_j1176821039548_2_alg».proof.Proof.Bridge

noncomputable section

namespace Cert.BridgeE

open Idealize.ShloMosaic

/-- The maximum of a nonempty finite family of extended reals, folded from minus infinity, is one of its members. -/
theorem fold_max_mem {ι : Type*} (f : ι → EReal) (s : Finset ι) (hs : s.Nonempty) :
    ∃ k ∈ s, s.fold max (⊥ : EReal) f = f k := by
  induction hs using Finset.Nonempty.cons_induction with
  | singleton a =>
    exact ⟨a, Finset.mem_singleton_self a, by rw [Finset.fold_singleton]; exact max_bot_right _⟩
  | cons a s ha hs ih =>
    obtain ⟨k, hk, e⟩ := ih
    rw [Finset.fold_cons, e]
    rcases le_total (f a) (f k) with h | h
    · exact ⟨k, Finset.mem_cons.2 (Or.inr hk), max_eq_right h⟩
    · exact ⟨a, Finset.mem_cons.2 (Or.inl rfl), max_eq_left h⟩

/-- So the folded maximum of a nonempty finite family of reals is a real. -/
theorem fold_max_real {n : ℕ} [NeZero n] (f : Fin n → EReal) (hf : ∀ k, ∃ r : ℝ, f k = (r : EReal)) :
    ∃ r : ℝ, (Finset.univ : Finset (Fin n)).fold max (⊥ : EReal) f = (r : EReal) := by
  obtain ⟨k, -, e⟩ := fold_max_mem f Finset.univ Finset.univ_nonempty
  obtain ⟨r, hr⟩ := hf k
  exact ⟨r, e.trans hr⟩

/-- The online softmax over the 8 blocks of a real-valued row of extended reals, each block shifted by its own
    maximum, ends with the one-pass softmax-weighted sum of the row at any real shift `M`. -/
theorem online_blocks (S Vd : Fin 2048 → EReal) (hS : ∀ k, ∃ r : ℝ, S k = (r : EReal))
    (hV : ∀ k, ∃ r : ℝ, Vd k = (r : EReal)) (M : EReal) (hM : ∃ r : ℝ, M = (r : EReal))
    (sE vE : ℕ → Fin 256 → EReal) (bmE : ℕ → EReal)
    (hsE : ∀ j (hj : j < 8) (k : Fin 256), sE j k = S ⟨256 * j + k.val, by have := k.isLt; omega⟩)
    (hvE : ∀ j (hj : j < 8) (k : Fin 256), vE j k = Vd ⟨256 * j + k.val, by have := k.isLt; omega⟩)
    (hbm : ∀ j, j < 8 → bmE j = (Finset.univ : Finset (Fin 256)).fold max (⊥ : EReal) (fun k => sE j k)) :
    Ideal.div (OnlineE.aE sE vE bmE 8) (OnlineE.lE sE bmE 8)
      = ∑ k : Fin 2048, Ideal.div (Ideal.exp (S k - M)) (∑ k' : Fin 2048, Ideal.exp (S k' - M)) * Vd k := by
  choose Sr hSr using hS
  choose Vr hVr using hV
  obtain ⟨Mr, hMr⟩ := hM
  have hbr : ∀ j, ∃ r : ℝ, j < 8 → bmE j = (r : EReal) := fun j => by
    by_cases hj : j < 8
    · obtain ⟨r, hr⟩ := fold_max_real (fun k => sE j k) fun k => ⟨_, (hsE j hj k).trans (hSr _)⟩
      exact ⟨r, fun _ => (hbm j hj).trans hr⟩
    · exact ⟨0, fun h => absurd h hj⟩
  choose bm hbmr using hbr
  have hs : ∀ j, j < 8 → ∀ k, sE j k = ((Cert.Bridge.blockOf Sr j k : ℝ) : EReal) := fun j hj k => by
    rw [Cert.Bridge.blockOf_lt Sr hj, hsE j hj k, hSr]
    exact congrArg (fun i => ((Sr i : ℝ) : EReal)) (Fin.ext (Nat.add_comm _ _))
  have hv : ∀ j, j < 8 → ∀ k, vE j k = ((Cert.Bridge.blockOf Vr j k : ℝ) : EReal) := fun j hj k => by
    rw [Cert.Bridge.blockOf_lt Vr hj, hvE j hj k, hVr]
    exact congrArg (fun i => ((Vr i : ℝ) : EReal)) (Fin.ext (Nat.add_comm _ _))
  rw [OnlineE.aE_eq (Cert.Bridge.blockOf Sr) (Cert.Bridge.blockOf Vr) bm sE vE bmE 8 hs hv hbmr,
    OnlineE.lE_eq (Cert.Bridge.blockOf Sr) bm sE bmE 8 hs hbmr]
  exact Cert.Bridge.online_row_ereal Sr Vr bm Mr S Vd M hSr hVr hMr

/-- In the specification's words: over the 8 blocks of row (b, q) of real-valued scores `S`, weighting column `d` of
    real-valued values `V`, the online softmax ends with the specification's attention output at (b, q, d), the
    shift of the row being real. -/
theorem online_blocks_attend (S : Fin 4 → Fin 2048 → Fin 2048 → EReal) (Mx : Fin 4 → Fin 2048 → EReal)
    (V : Fin 4 → Fin 2048 → Fin 1024 → EReal) (b : Fin 4) (q : Fin 2048) (d : Fin 1024)
    (hS : ∀ k, ∃ r : ℝ, S b q k = (r : EReal)) (hV : ∀ k, ∃ r : ℝ, V b k d = (r : EReal))
    (hM : ∃ r : ℝ, Mx b q = (r : EReal))
    (sE vE : ℕ → Fin 256 → EReal) (bmE : ℕ → EReal)
    (hsE : ∀ j (hj : j < 8) (k : Fin 256), sE j k = S b q ⟨256 * j + k.val, by have := k.isLt; omega⟩)
    (hvE : ∀ j (hj : j < 8) (k : Fin 256), vE j k = V b ⟨256 * j + k.val, by have := k.isLt; omega⟩ d)
    (hbm : ∀ j, j < 8 → bmE j = (Finset.univ : Finset (Fin 256)).fold max (⊥ : EReal) (fun k => sE j k)) :
    Ideal.div (OnlineE.aE sE vE bmE 8) (OnlineE.lE sE bmE 8) = Cert.Spec.attend S Mx V b q d := by
  unfold Cert.Spec.attend
  exact online_blocks (S b q) (fun k => V b k d) hS hV (Mx b q) hM sE vE bmE hsE hvE hbm

end Cert.BridgeE

end
-- ==== Proof.FinitePre.lean ====
/-
  From the precondition to the real numbers. The precondition says of each of the seven argument arrays that every
  entry's absolute value is below plus infinity; on the extended reals that leaves out exactly the two infinities, so
  every entry is a real number. Sums and products of real numbers are real, so every entry of a linear layer of real
  arrays, and every scaled score of two real layers, is a real number too.
-/
import proofs.«116119_j1176821039548_2_alg».proof.Pre_finite_inputs
import proofs.«116119_j1176821039548_2_alg».proof.Proof.Spec
import proofs.«116119_j1176821039548_2_alg».proof.Proof.LibOnlineSoftmax
import Idealize.ShloMosaic.Lib.ReduceAll
import Idealize.ShloMosaic.Lib.ValueIdx
import Idealize.ShloMosaic.PureOps.Ideal.Laws

noncomputable section

namespace Cert.FinitePre

open Idealize.ShloMosaic Idealize.ShloMosaic.ValueIdx

/-- The rank-0 shape has one index. -/
instance : Subsingleton Cert.Pre_finite_inputs.S_.Idx := ⟨fun a b => funext fun d => d.elim0⟩

/-- An extended real whose absolute value is below the word of plus infinity is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | top => simp [Ideal.cmp] at h
  | coe r => exact ⟨r, rfl⟩

/-- If the conjunction over all entries of "the absolute value is below plus infinity" holds of an array, every entry
    is a real number. -/
theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpf .olt (Host.absf a) (broadcastInDim s ![] hb (constant Cert.Pre_finite_inputs.S_ .f32 0x7F800000#32)))
          (constantI Cert.Pre_finite_inputs.S_ 1 1#1) hr hu ix0 = 1#1) :
    ∀ i, ∃ r : ℝ, a i = (r : EReal) := by
  intro i
  have e := Host.reduce_andi_all _ _ hr hu ix0 h i
  exact real_of_abs_lt_top (a i) e

/-- Under the precondition every entry of every argument array is a real number. -/
theorem real_of_pre [Cert.Pre_finite_inputs.Facts]
    (a0 : FVec Ideal Cert.Pre_finite_inputs.S4x2048x1024 .f32) (a1 : FVec Ideal Cert.Pre_finite_inputs.S1024x1024 .f32)
    (a2 : FVec Ideal Cert.Pre_finite_inputs.S1024 .f32) (a3 : FVec Ideal Cert.Pre_finite_inputs.S1024x1024 .f32)
    (a4 : FVec Ideal Cert.Pre_finite_inputs.S1024 .f32) (a5 : FVec Ideal Cert.Pre_finite_inputs.S1024x1024 .f32)
    (a6 : FVec Ideal Cert.Pre_finite_inputs.S1024 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ix0
  dsimp only [Cert.Pre_finite_inputs.fn, Cert.Pre_finite_inputs.fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ e0, all_real a1 _ _ _ e1, all_real a2 _ _ _ e2, all_real a3 _ _ _ e3,
    all_real a4 _ _ _ e4, all_real a5 _ _ _ e5, all_real a6 _ _ _ e6⟩

/-! ## Linear layers and scores of real arrays are real -/

/-- Every entry of a linear layer of real arrays is a real number. -/
theorem proj_real (x : Cert.Spec.SX.Idx → EReal) (W : Cert.Spec.SW.Idx → EReal) (bias : Cert.Spec.SB.Idx → EReal)
    (hx : ∀ i, ∃ r : ℝ, x i = (r : EReal)) (hW : ∀ i, ∃ r : ℝ, W i = (r : EReal))
    (hb : ∀ i, ∃ r : ℝ, bias i = (r : EReal)) (b : Fin 4) (s : Fin 2048) (e : Fin 1024) :
    ∃ r : ℝ, Cert.Spec.proj x W bias b s e = (r : EReal) := by
  choose xr hxr using hx
  choose Wr hWr using hW
  choose br hbr using hb
  refine ⟨(∑ d : Fin 1024, xr (ix3 b s d) * Wr (ix2 e d)) + br (ix1 e), ?_⟩
  unfold Cert.Spec.proj
  rw [EReal.coe_add, OnlineSoftmax.coe_sum, hbr]
  refine congrArg (· + _) (Finset.sum_congr rfl fun d _ => ?_)
  rw [hxr, hWr, EReal.coe_mul]

/-- Every scaled score of two real layers is a real number. -/
theorem score_real (Q K : Fin 4 → Fin 2048 → Fin 1024 → EReal)
    (hQ : ∀ b s e, ∃ r : ℝ, Q b s e = (r : EReal)) (hK : ∀ b s e, ∃ r : ℝ, K b s e = (r : EReal))
    (b : Fin 4) (q k : Fin 2048) :
    ∃ r : ℝ, Cert.Spec.score (((1 / 32 : ℝ)) : EReal) Q K b q k = (r : EReal) := by
  choose Qr hQr using hQ
  choose Kr hKr using hK
  refine ⟨(∑ d : Fin 1024, Qr b q d * Kr b k d) * (1 / 32), ?_⟩
  unfold Cert.Spec.score
  rw [EReal.coe_mul, OnlineSoftmax.coe_sum]
  refine congrArg (· * _) (Finset.sum_congr rfl fun d _ => ?_)
  rw [hQr, hKr, EReal.coe_mul]

end Cert.FinitePre

end
-- ==== Proof.KernelValueIdeal.lean ====
/-
  The kernel's value. The output array of the second region holds, at batch member `b`, query row `q`, column `d`,
  the online softmax recurrence over the eight key blocks of the row, its data being the scaled inner products of
  the query row with the key rows and the value rows' entries in column `d`. The three projections the region reads
  are the linear layers of the launch arrays; under the precondition every entry of those is a real number, so every
  score and every value entry is real, each block's largest score is real, and the recurrence ends with the one-pass
  softmax-weighted sum of the whole row at any real shift.
-/
import proofs.«116119_j1176821039548_2_alg».proof.Proof.MainRunIdeal
import proofs.«116119_j1176821039548_2_alg».proof.Proof.QkvValueIdeal
import proofs.«116119_j1176821039548_2_alg».proof.Proof.AttnValueIdeal
import proofs.«116119_j1176821039548_2_alg».proof.Proof.BridgeE
import proofs.«116119_j1176821039548_2_alg».proof.Proof.FinitePre
import proofs.«116119_j1176821039548_2_alg».proof.Proof.Spec

set_option maxRecDepth 16384

noncomputable section

namespace Cert.KernelIdeal.KernelValue

open Cert.KernelIdeal Cert.KernelIdeal.Gen
open Idealize.ShloMosaic Idealize.ShloMosaic.TcCoe Idealize.ShloMosaic.ValueIdx Idealize.SL.Sem

/-! ## The recurrence's data in the specification's words -/

section Data

variable (m : (ℓ : Loc nD τ sig) → Buf (Elt Ideal) ℓ) (c : Dev nD) (bb : Fin 4) (qi : Fin 2)

/-- Key block `j`'s score of query row `r` against its key `k` is the specification's scaled score of the query
    and key layers at rows `1024 qi + r` and `256 j + k`. -/
theorem sE_eq (r : Fin 1024) (j : ℕ) (hj : j < 8) (k : Fin 256) :
    AttnValue.sE (Hand.V3 m) c bb qi r j k
      = Cert.Spec.score (((1 / 32 : ℝ)) : EReal)
          (Cert.Spec.proj (m ((c : Thread nD τ).loc main_arg0)) (m ((c : Thread nD τ).loc main_arg1)) (m ((c : Thread nD τ).loc main_arg2)))
          (Cert.Spec.proj (m ((c : Thread nD τ).loc main_arg0)) (m ((c : Thread nD τ).loc main_arg3)) (m ((c : Thread nD τ).loc main_arg4)))
          bb (AttnValue.qrow qi r) ⟨256 * j + k.val, by have := k.isLt; omega⟩ := by
  unfold AttnValue.sE
  rw [dif_pos hj]
  unfold AttnArith.scoreAt Cert.Spec.score
  rw [AttnArith.scale_word]
  refine congrArg (· * _) (Finset.sum_congr rfl fun e _ => ?_)
  exact congrArg₂ (· * ·)
    ((AttnValue.blkQ_at (Hand.V3 m) c bb qi ⟨j, hj⟩ r e).trans (QkvValue.q_apply m c bb (AttnValue.qrow qi r) e))
    ((AttnValue.blkK_at (Hand.V3 m) c bb qi ⟨j, hj⟩ k e).trans (QkvValue.k_apply m c bb (AttnValue.krow ⟨j, hj⟩ k) e))

/-- Key block `j`'s value entry at key `k`, column `d`, is the value layer at row `256 j + k`. -/
theorem vE_eq (d : Fin 1024) (j : ℕ) (hj : j < 8) (k : Fin 256) :
    AttnValue.vE (Hand.V3 m) c bb qi d j k
      = Cert.Spec.proj (m ((c : Thread nD τ).loc main_arg0)) (m ((c : Thread nD τ).loc main_arg5)) (m ((c : Thread nD τ).loc main_arg6)) bb ⟨256 * j + k.val, by have := k.isLt; omega⟩ d := by
  unfold AttnValue.vE
  rw [dif_pos hj]
  exact (AttnValue.blkV_at (Hand.V3 m) c bb qi ⟨j, hj⟩ k d).trans (QkvValue.v_apply m c bb (AttnValue.krow ⟨j, hj⟩ k) d)

end Data

/-- Each key block's shift is the largest of its scores of the row, folded from minus infinity. -/
theorem bmE_eq (V : (c : Dev nD) → (b : Ref sig .tc) → Buf (Elt Ideal) ((c : Thread nD τ).loc b)) (c : Dev nD)
    (bb : Fin 4) (qi : Fin 2) (r : Fin 1024) (j : ℕ) (hj : j < 8) :
    AttnValue.bmE V c bb qi r j
      = (Finset.univ : Finset (Fin 256)).fold max (⊥ : EReal) (fun k => AttnValue.sE V c bb qi r j k) := by
  have hs : (fun k => AttnValue.sE V c bb qi r j k)
      = fun k => AttnArith.scoreAt (AttnValue.B0 V c bb qi ⟨j, hj⟩) (AttnValue.B1 V c bb qi ⟨j, hj⟩) r k :=
    funext fun k => by unfold AttnValue.sE; rw [dif_pos hj]
  rw [hs]
  unfold AttnValue.bmE
  rw [dif_pos hj]
  unfold AttnArith.blockMax
  rw [AttnArith.negInf_word]

/-! ## The value -/

/-- Under the precondition, at any real shifts `M`, the result array the program leaves is the specification's
    attention output of the launch arrays, entry by entry. -/
theorem kernel_value [Cert.Pre_finite_inputs.Facts] (m : (ℓ : Loc nD τ sig) → Buf (Elt Ideal) ℓ) (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = fun _ => 1#1)
    (M : Fin 4 → Fin 2048 → EReal) (hM : ∀ b q, ∃ r : ℝ, M b q = (r : EReal))
    (b : Fin 4) (q : Fin 2048) (d : Fin 1024) :
    Hand.W4 m c (Proc.devRef .tc main_v8) (ix3 b q d)
      = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) M b q d := by
  obtain ⟨h0, h1, h2, h3, h4, h5, h6⟩ := Cert.FinitePre.real_of_pre _ _ _ _ _ _ _ hpre
  have hq : q.val < 2048 := q.isLt
  obtain ⟨qi, r, rfl⟩ : ∃ (qi : Fin 2) (r : Fin 1024), q = AttnValue.qrow qi r :=
    ⟨⟨q.val / 1024, by omega⟩, ⟨q.val % 1024, by omega⟩,
      Fin.ext (by show q.val = 1024 * (q.val / 1024) + q.val % 1024; omega)⟩
  refine (congrFun (Hand.W4_main_v8 m c) _).trans ?_
  refine (AttnValue.attn_value_blocks (Hand.V3 m) c b qi r d).trans ?_
  unfold Cert.Spec.out
  exact Cert.BridgeE.online_blocks_attend _ M _ b (AttnValue.qrow qi r) d
    (fun k => Cert.FinitePre.score_real _ _
      (fun b' s e => Cert.FinitePre.proj_real _ _ _ h0 h1 h2 b' s e)
      (fun b' s e => Cert.FinitePre.proj_real _ _ _ h0 h3 h4 b' s e) b _ k)
    (fun k => Cert.FinitePre.proj_real _ _ _ h0 h5 h6 b k d)
    (hM b _) _ _ _
    (sE_eq m c b qi r) (vE_eq m c b qi d) (bmE_eq (Hand.V3 m) c b qi r)

end Cert.KernelIdeal.KernelValue

end
-- ==== Proof.RefValue.lean ====
/-
  The reference program's result, read index by index. Its three linear layers are the specification's
  projections, its scale is the real number 1/32 (one over the square root of 1024), its scores are the
  specification's scores, and its softmax subtracts from every score of a row the maximum of that row's scores
  (taken together with minus infinity, which changes nothing). So the result at (b, q, d) is the specification's
  attention output with that row maximum as the shift. When the scores of a row are real numbers the row maximum
  is one of them, hence a real number.
-/
import proofs.«116119_j1176821039548_2_alg».proof.Proof.Gen.ReferenceIdeal.Read
import proofs.«116119_j1176821039548_2_alg».proof.Proof.Spec

noncomputable section

namespace Cert.ReferenceIdeal.RefValue

open Idealize.ShloMosaic Idealize.ShloMosaic.ValueIdx Idealize.ShloMosaic.TcCoe Idealize.SL.Sem Cert.ReferenceIdeal Cert.ReferenceIdeal.Gen

/-- The argument arrays' types: the activations, a weight matrix, a bias vector. -/
abbrev AX := (⟨S4x2048x1024, .f32⟩ : BufTy).Contents (Elt Ideal)
abbrev AW := (⟨S1024x1024, .f32⟩ : BufTy).Contents (Elt Ideal)
abbrev AB := (⟨S1024, .f32⟩ : BufTy).Contents (Elt Ideal)

/-! ## The constants -/

/-- The word of 1024.0 denotes the real number 1024. -/
theorem ofBits_1024 : Ideal.ofBits .f32 0x44800000#32 = ((1024 : ℝ) : EReal) := by
  simp [Ideal.ofBits, Ideal.ieee, -EReal.coe_mul]; norm_num

/-- The word of 1.0 denotes the real number 1. -/
theorem ofBits_one : Ideal.ofBits .f32 0x3F800000#32 = ((1 : ℝ) : EReal) := by
  simp [Ideal.ofBits, Ideal.ieee, -EReal.coe_mul]; norm_num

/-- The word with sign bit set, all-ones exponent and zero fraction denotes minus infinity. -/
theorem ofBits_neg_inf : Ideal.ofBits .f32 0xFF800000#32 = (⊥ : EReal) := by
  simp [Ideal.ofBits, Ideal.ieee]

/-- The square root of 1024 is 32, since 32 squared is 1024. -/
theorem sqrt_1024 : Real.sqrt 1024 = 32 := by
  rw [show (1024 : ℝ) = 32 ^ 2 by norm_num]
  exact Real.sqrt_sq (by norm_num)

/-- The scale: one divided by the square root of 1024 is the real number 1/32. -/
theorem scale_eq :
    Ideal.div (Ideal.ofBits .f32 0x3F800000#32) (Ideal.sqrt (Ideal.ofBits .f32 0x44800000#32)) = (((1 / 32 : ℝ)) : EReal) := by
  rw [ofBits_one, ofBits_1024]
  have hs : Ideal.sqrt ((1024 : ℝ) : EReal) = ((32 : ℝ) : EReal) := by
    show (if (1024 : ℝ) < 0 then (⊥ : EReal) else ((Real.sqrt 1024 : ℝ) : EReal)) = _
    rw [if_neg (by norm_num), sqrt_1024]
  rw [hs]
  unfold Ideal.div
  rw [if_neg (by exact_mod_cast (by norm_num : (32 : ℝ) ≠ 0))]
  rw [← EReal.coe_inv, ← EReal.coe_mul]
  norm_num

/-! ## The linear layers -/

theorem lidx0 (b : Fin 4) (s : Fin 2048) (e d : Fin 1024) : Read.lidx_main_v0 (ix3 b s e) d = ix3 b s d :=
  funext fun a => Fin.ext (by match a with | ⟨0, _⟩ => rfl | ⟨1, _⟩ => rfl | ⟨2, _⟩ => rfl)
theorem ridx0 (b : Fin 4) (s : Fin 2048) (e d : Fin 1024) : Read.ridx_main_v0 (ix3 b s e) d = ix2 e d :=
  funext fun a => Fin.ext (by match a with | ⟨0, _⟩ => rfl | ⟨1, _⟩ => rfl)
theorem bidx2 (b : Fin 4) (s : Fin 2048) (e : Fin 1024) : Read.idx_main_v1 (Read.idx_main_v2 (ix3 b s e)) = ix1 e :=
  funext fun a => Fin.ext (by match a with | ⟨0, _⟩ => rfl)
theorem lidx4 (b : Fin 4) (s : Fin 2048) (e d : Fin 1024) : Read.lidx_main_v4 (ix3 b s e) d = ix3 b s d :=
  funext fun a => Fin.ext (by match a with | ⟨0, _⟩ => rfl | ⟨1, _⟩ => rfl | ⟨2, _⟩ => rfl)
theorem ridx4 (b : Fin 4) (s : Fin 2048) (e d : Fin 1024) : Read.ridx_main_v4 (ix3 b s e) d = ix2 e d :=
  funext fun a => Fin.ext (by match a with | ⟨0, _⟩ => rfl | ⟨1, _⟩ => rfl)
theorem bidx6 (b : Fin 4) (s : Fin 2048) (e : Fin 1024) : Read.idx_main_v5 (Read.idx_main_v6 (ix3 b s e)) = ix1 e :=
  funext fun a => Fin.ext (by match a with | ⟨0, _⟩ => rfl)
theorem lidx8 (b : Fin 4) (s : Fin 2048) (e d : Fin 1024) : Read.lidx_main_v8 (ix3 b s e) d = ix3 b s d :=
  funext fun a => Fin.ext (by match a with | ⟨0, _⟩ => rfl | ⟨1, _⟩ => rfl | ⟨2, _⟩ => rfl)
theorem ridx8 (b : Fin 4) (s : Fin 2048) (e d : Fin 1024) : Read.ridx_main_v8 (ix3 b s e) d = ix2 e d :=
  funext fun a => Fin.ext (by match a with | ⟨0, _⟩ => rfl | ⟨1, _⟩ => rfl)
theorem bidx10 (b : Fin 4) (s : Fin 2048) (e : Fin 1024) : Read.idx_main_v9 (Read.idx_main_v10 (ix3 b s e)) = ix1 e :=
  funext fun a => Fin.ext (by match a with | ⟨0, _⟩ => rfl)

/-- The query layer: row `s` of batch member `b` against row `e` of the weights, plus the bias entry `e`. -/
theorem proj_q (x : AX) (W : AW) (bias : AB) (b : Fin 4) (s : Fin 2048) (e : Fin 1024) :
    Read.val_main_v3 (F := Ideal) x W bias (ix3 b s e) = Cert.Spec.proj x W bias b s e := by
  rw [Read.val_main_v3_apply, Read.val_main_v0_apply, Read.val_main_v2_apply, Read.val_main_v1_apply, bidx2]
  simp only [lidx0, ridx0, Ideal.addf_def]
  rfl

/-- The key layer. -/
theorem proj_k (x : AX) (W : AW) (bias : AB) (b : Fin 4) (s : Fin 2048) (e : Fin 1024) :
    Read.val_main_v7 (F := Ideal) x W bias (ix3 b s e) = Cert.Spec.proj x W bias b s e := by
  rw [Read.val_main_v7_apply, Read.val_main_v4_apply, Read.val_main_v6_apply, Read.val_main_v5_apply, bidx6]
  simp only [lidx4, ridx4, Ideal.addf_def]
  rfl

/-- The value layer. -/
theorem proj_v (x : AX) (W : AW) (bias : AB) (b : Fin 4) (s : Fin 2048) (e : Fin 1024) :
    Read.val_main_v11 (F := Ideal) x W bias (ix3 b s e) = Cert.Spec.proj x W bias b s e := by
  rw [Read.val_main_v11_apply, Read.val_main_v8_apply, Read.val_main_v10_apply, Read.val_main_v9_apply, bidx10]
  simp only [lidx8, ridx8, Ideal.addf_def]
  rfl

/-! ## The scores -/

/-- The broadcast scale is 1/32 at every index. -/
theorem scale15 (i : S4x2048x2048.Idx) : Read.val_main_v15 (F := Ideal) i = (((1 / 32 : ℝ)) : EReal) := by
  rw [Read.val_main_v15_apply, Read.val_main_v13_apply, Read.val_main_cst_0_apply, Read.val_main_v12_apply,
    Read.val_main_cst_apply]
  simp only [Ideal.hostDivf_def, Ideal.hostUnary_sqrt_def, Ideal.ofBits_def]
  exact scale_eq

theorem lidx14 (b : Fin 4) (q k : Fin 2048) (d : Fin 1024) : Read.lidx_main_v14 (ix3 b q k) d = ix3 b q d :=
  funext fun a => Fin.ext (by match a with | ⟨0, _⟩ => rfl | ⟨1, _⟩ => rfl | ⟨2, _⟩ => rfl)
theorem ridx14 (b : Fin 4) (q k : Fin 2048) (d : Fin 1024) : Read.ridx_main_v14 (ix3 b q k) d = ix3 b k d :=
  funext fun a => Fin.ext (by match a with | ⟨0, _⟩ => rfl | ⟨1, _⟩ => rfl | ⟨2, _⟩ => rfl)

/-- The scaled score of query row `q` against key row `k`. -/
theorem score16 (x : AX) (Wq : AW) (bq : AB) (Wk : AW) (bk : AB) (b : Fin 4) (q k : Fin 2048) :
    Read.val_main_v16 (F := Ideal) x Wq bq Wk bk (ix3 b q k)
      = Cert.Spec.score (((1 / 32 : ℝ)) : EReal) (Cert.Spec.proj x Wq bq) (Cert.Spec.proj x Wk bk) b q k := by
  rw [Read.val_main_v16_apply, Read.val_main_v14_apply, scale15]
  simp only [lidx14, ridx14, proj_q, proj_k, Ideal.mulf_def]
  rfl

/-! ## The row maximum -/

/-- A maximum-reduction over the last axis of a [4, 2048, 2048] array, at row (b, q): the fold of `max`, from the
    initial value, over the row's entries. -/
theorem rowMax_apply (y : (⟨S4x2048x2048, .f32⟩ : BufTy).Contents (Elt Ideal)) (init : (⟨S_, .f32⟩ : BufTy).Contents (Elt Ideal))
    (h' : S4x2048x2048.ReducesTo [2] S4x2048) (hu : 0 < S_.numel) (b : Fin 4) (q : Fin 2048) :
    Host.reduce (FloatOps.maximumf (F := Ideal) (φ := .f32)) y init h' hu (ix2 b q)
      = (Finset.univ : Finset (Fin 2048)).fold max (init (Shape.Idx.first hu)) (fun k => y (ix3 b q k)) := by
  have h : S4x2048x2048.Reduces [2] S4x2048 := by decide
  rw [Host.reduce_eq_fold_single _ y init h' h hu (ix2 b q)]
  have e : (y ∘ h.lift (ix2 b q)) = fun k : Fin 2048 => y (ix3 b q k) :=
    funext fun k => congrArg y (funext fun a => Fin.ext (by match a with | ⟨0, _⟩ => rfl | ⟨1, _⟩ => rfl | ⟨2, _⟩ => rfl))
  rw [e]
  rfl

/-- The reference's row shift: the maximum of row (b, q)'s scores, taken from minus infinity, and once more
    against minus infinity. -/
def Mref (x : AX) (Wq : AW) (bq : AB) (Wk : AW) (bk : AB) (Wv : AW) (bv : AB) (b : Fin 4) (q : Fin 2048) : EReal :=
  max ⊥ ((Finset.univ : Finset (Fin 2048)).fold max ⊥ fun k =>
    Cert.Spec.score (((1 / 32 : ℝ)) : EReal) (Cert.Spec.proj x Wq bq) (Cert.Spec.proj x Wk bk) b q k)

theorem max19 (x : AX) (Wq : AW) (bq : AB) (Wk : AW) (bk : AB) (Wv : AW) (bv : AB) (b : Fin 4) (q : Fin 2048) :
    Read.val_main_v19 (F := Ideal) x Wq bq Wk bk (ix2 b q) = Mref x Wq bq Wk bk Wv bv b q := by
  rw [Read.val_main_v19_apply, Read.val_main_v18_apply, Read.val_main_cst_2_apply]
  unfold Read.val_main_v17
  rw [rowMax_apply, Read.val_main_cst_1_apply]
  simp only [score16, Ideal.maximumf_def, Ideal.ofBits_def, ofBits_neg_inf]
  rfl

/-! ## The softmax weights -/

theorem idx2120 (b : Fin 4) (q k : Fin 2048) : Read.idx_main_v20 (Read.idx_main_v21 (ix3 b q k)) = ix2 b q :=
  funext fun a => Fin.ext (by match a with | ⟨0, _⟩ => rfl | ⟨1, _⟩ => rfl)
theorem idx2625 (b : Fin 4) (q k : Fin 2048) : Read.idx_main_v25 (Read.idx_main_v26 (ix3 b q k)) = ix2 b q :=
  funext fun a => Fin.ext (by match a with | ⟨0, _⟩ => rfl | ⟨1, _⟩ => rfl)
theorem idx24 (b : Fin 4) (q k : Fin 2048) : Read.idx_main_v24 (ix2 b q) k = ix3 b q k :=
  funext fun a => Fin.ext (by match a with | ⟨0, _⟩ => rfl | ⟨1, _⟩ => rfl | ⟨2, _⟩ => rfl)

/-- The exponential of a score less its row's shift. -/
theorem exp23 (x : AX) (Wq : AW) (bq : AB) (Wk : AW) (bk : AB) (Wv : AW) (bv : AB) (b : Fin 4) (q k : Fin 2048) :
    Read.val_main_v23 (F := Ideal) x Wq bq Wk bk (ix3 b q k)
      = Ideal.exp (Cert.Spec.score (((1 / 32 : ℝ)) : EReal) (Cert.Spec.proj x Wq bq) (Cert.Spec.proj x Wk bk) b q k
          - Mref x Wq bq Wk bk Wv bv b q) := by
  rw [Read.val_main_v23_apply, Read.val_main_v22_apply, Read.val_main_v21_apply, Read.val_main_v20_apply, idx2120,
    max19 x Wq bq Wk bk Wv bv, score16]
  simp only [Ideal.hostUnary_exp_def, Ideal.subf_def]

/-- The row's sum of exponentials (the sum starts from the zero word, which is the number 0). -/
theorem sum24 (x : AX) (Wq : AW) (bq : AB) (Wk : AW) (bk : AB) (Wv : AW) (bv : AB) (b : Fin 4) (q : Fin 2048) :
    Read.val_main_v24 (F := Ideal) x Wq bq Wk bk (ix2 b q)
      = ∑ k' : Fin 2048, Ideal.exp (Cert.Spec.score (((1 / 32 : ℝ)) : EReal) (Cert.Spec.proj x Wq bq) (Cert.Spec.proj x Wk bk) b q k'
          - Mref x Wq bq Wk bk Wv bv b q) := by
  rw [Read.val_main_v24_apply, Read.val_main_cst_3_apply]
  simp only [idx24, exp23 x Wq bq Wk bk Wv bv, Ideal.ofBits_def, Ideal.ofBits_zero_f32, zero_add]

/-- The softmax weight of key row `k` in query row `q`. -/
theorem w27 (x : AX) (Wq : AW) (bq : AB) (Wk : AW) (bk : AB) (Wv : AW) (bv : AB) (b : Fin 4) (q k : Fin 2048) :
    Read.val_main_v27 (F := Ideal) x Wq bq Wk bk (ix3 b q k)
      = Ideal.div
          (Ideal.exp (Cert.Spec.score (((1 / 32 : ℝ)) : EReal) (Cert.Spec.proj x Wq bq) (Cert.Spec.proj x Wk bk) b q k
            - Mref x Wq bq Wk bk Wv bv b q))
          (∑ k' : Fin 2048, Ideal.exp (Cert.Spec.score (((1 / 32 : ℝ)) : EReal) (Cert.Spec.proj x Wq bq) (Cert.Spec.proj x Wk bk) b q k'
            - Mref x Wq bq Wk bk Wv bv b q)) := by
  rw [Read.val_main_v27_apply, Read.val_main_v26_apply, Read.val_main_v25_apply, idx2625,
    sum24 x Wq bq Wk bk Wv bv, exp23 x Wq bq Wk bk Wv bv]
  simp only [Ideal.hostDivf_def]

/-! ## The result -/

theorem lidx28 (b : Fin 4) (q k : Fin 2048) (d : Fin 1024) : Read.lidx_main_v28 (ix3 b q d) k = ix3 b q k :=
  funext fun a => Fin.ext (by match a with | ⟨0, _⟩ => rfl | ⟨1, _⟩ => rfl | ⟨2, _⟩ => rfl)
theorem ridx28 (b : Fin 4) (q k : Fin 2048) (d : Fin 1024) : Read.ridx_main_v28 (ix3 b q d) k = ix3 b k d :=
  funext fun a => Fin.ext (by match a with | ⟨0, _⟩ => rfl | ⟨1, _⟩ => rfl | ⟨2, _⟩ => rfl)

/-- The reference's result at (b, q, d) is the specification's attention output, shifted by the reference's own
    row maximum. -/
theorem ref_apply (x : AX) (Wq : AW) (bq : AB) (Wk : AW) (bk : AB) (Wv : AW) (bv : AB) (b : Fin 4) (q : Fin 2048) (d : Fin 1024) :
    Read.val_main_v28 (F := Ideal) x Wq bq Wk bk Wv bv (ix3 b q d)
      = Cert.Spec.out x Wq bq Wk bk Wv bv (Mref x Wq bq Wk bk Wv bv) b q d := by
  rw [Read.val_main_v28_apply]
  unfold Cert.Spec.out Cert.Spec.attend
  refine Finset.sum_congr rfl fun k _ => ?_
  rw [lidx28, ridx28, w27 x Wq bq Wk bk Wv bv, proj_v]

/-- The same, for the reference's result as its run states it: a function of the launch contents of the seven
    argument buffers. -/
theorem ref_run_apply (m : (ℓ : Loc nD τ sig) → Buf (Elt Ideal) ℓ) (c : Dev nD) (b : Fin 4) (q : Fin 2048) (d : Fin 1024) :
    Cert.ReferenceIdeal.Value.res_main_v28 (F := Ideal) m c (ix3 b q d)
      = Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6))
          (Mref (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))) b q d := by
  rw [Read.val_main_v28_eq]
  exact ref_apply _ _ _ _ _ _ _ b q d

/-! ## The shift is a real number when the row's scores are -/

/-- A fold of `max` from minus infinity over a nonempty finite family is one of the family's values. -/
theorem fold_max_mem {ι : Type} (f : ι → EReal) (s : Finset ι) (hs : s.Nonempty) :
    ∃ k ∈ s, s.fold max ⊥ f = f k := by
  induction hs using Finset.Nonempty.cons_induction with
  | singleton a => exact ⟨a, Finset.mem_singleton_self a, by rw [Finset.fold_singleton, max_bot_right]⟩
  | cons a s ha hs ih =>
    obtain ⟨k, hk, e⟩ := ih
    rw [Finset.fold_cons, e]
    rcases max_choice (f a) (f k) with h | h
    · exact ⟨a, Finset.mem_cons_self a s, h⟩
    · exact ⟨k, Finset.mem_cons.2 (Or.inr hk), h⟩

/-- If every score of row (b, q) is a real number, so is the row's shift: it is one of the scores. -/
theorem Mref_real (x : AX) (Wq : AW) (bq : AB) (Wk : AW) (bk : AB) (Wv : AW) (bv : AB) (b : Fin 4) (q : Fin 2048)
    (h : ∀ k : Fin 2048, ∃ r : ℝ,
      Cert.Spec.score (((1 / 32 : ℝ)) : EReal) (Cert.Spec.proj x Wq bq) (Cert.Spec.proj x Wk bk) b q k = (r : EReal)) :
    ∃ r : ℝ, Mref x Wq bq Wk bk Wv bv b q = (r : EReal) := by
  obtain ⟨k, _, e⟩ := fold_max_mem
    (fun k : Fin 2048 => Cert.Spec.score (((1 / 32 : ℝ)) : EReal) (Cert.Spec.proj x Wq bq) (Cert.Spec.proj x Wk bk) b q k)
    Finset.univ ⟨(0 : Fin 2048), Finset.mem_univ _⟩
  obtain ⟨r, hr⟩ := h k
  exact ⟨r, by unfold Mref; rw [max_bot_left, e, hr]⟩

end Cert.ReferenceIdeal.RefValue

end
-- ==== Proof.AlgebraicClaim.lean ====
/-
  The value claim. At the ideal instance the kernel program's result array is, index by index, the softmax-weighted
  sum of the value projections — the online recurrence over eight blocks of keys collapses to the one-pass softmax at
  any finite shift — and the reference's result array is the same sum at its own shift, the row maximum, which is
  finite because every input entry is. Both programs leave their arguments as launched.
-/
import proofs.«116119_j1176821039548_2_alg».proof.Proof.FrameClaims
import proofs.«116119_j1176821039548_2_alg».proof.Proof.KernelValueIdeal
import proofs.«116119_j1176821039548_2_alg».proof.Proof.RefValue
import proofs.«116119_j1176821039548_2_alg».proof.Proof.FinitePre

noncomputable section

namespace Cert.Proof.Claims

open Idealize.ShloMosaic Idealize.ShloMosaic.TcCoe Idealize.SL.Sem Idealize.ShloMosaic.ValueIdx

theorem algebraic : Cert.algebraic_KernelIdeal_ReferenceIdeal := by
  intro m ρ m' ρ' hpre hagree
  refine ⟨fun c => Cert.KernelIdeal.Hand.W4 (F := Ideal) m c (Proc.devRef .tc Cert.KernelIdeal.main_v8), ?_, ?_⟩
  · exact (θ_run (Cert.KernelIdeal.defs (F := Ideal)) _ _).mono (fun r h c =>
      ⟨h c _ (Cert.KernelIdeal.Hand.mem_uc Cert.KernelIdeal.main_v8 (by decide)),
        (h c _ (Cert.KernelIdeal.Hand.mem_uc Cert.KernelIdeal.main_arg0 (by decide))).trans (Cert.KernelIdeal.Hand.W4_main_arg0 m c),
        (h c _ (Cert.KernelIdeal.Hand.mem_uc Cert.KernelIdeal.main_arg1 (by decide))).trans (Cert.KernelIdeal.Hand.W4_main_arg1 m c),
        (h c _ (Cert.KernelIdeal.Hand.mem_uc Cert.KernelIdeal.main_arg2 (by decide))).trans (Cert.KernelIdeal.Hand.W4_main_arg2 m c),
        (h c _ (Cert.KernelIdeal.Hand.mem_uc Cert.KernelIdeal.main_arg3 (by decide))).trans (Cert.KernelIdeal.Hand.W4_main_arg3 m c),
        (h c _ (Cert.KernelIdeal.Hand.mem_uc Cert.KernelIdeal.main_arg4 (by decide))).trans (Cert.KernelIdeal.Hand.W4_main_arg4 m c),
        (h c _ (Cert.KernelIdeal.Hand.mem_uc Cert.KernelIdeal.main_arg5 (by decide))).trans (Cert.KernelIdeal.Hand.W4_main_arg5 m c),
        (h c _ (Cert.KernelIdeal.Hand.mem_uc Cert.KernelIdeal.main_arg6 (by decide))).trans (Cert.KernelIdeal.Hand.W4_main_arg6 m c)⟩)
      (Cert.KernelIdeal.Hand.run_all (F := Ideal) m ρ)
  · refine (θ_run (Cert.ReferenceIdeal.defs (F := Ideal)) _ _).mono (fun r h c => ⟨(h c).1.trans ?_, (h c).2⟩)
      (Cert.ReferenceIdeal.Value.run (F := Ideal) m' ρ')
    funext i
    obtain ⟨b, q, d, rfl⟩ : ∃ (b : Fin 4) (q : Fin 2048) (d : Fin 1024), i = ix3 b q d := ⟨i 0, i 1, i 2, eq_ix3 i⟩
    rw [Cert.ReferenceIdeal.RefValue.ref_run_apply m' c b q d]
    rw [(hagree c).1, (hagree c).2.1, (hagree c).2.2.1, (hagree c).2.2.2.1, (hagree c).2.2.2.2.1, (hagree c).2.2.2.2.2.1,
      (hagree c).2.2.2.2.2.2]
    obtain ⟨h0, h1, h2, h3, h4, h5, h6⟩ := Cert.FinitePre.real_of_pre _ _ _ _ _ _ _ (hpre c)
    exact (Cert.KernelIdeal.KernelValue.kernel_value m c (hpre c) _
      (fun b q => Cert.ReferenceIdeal.RefValue.Mref_real _ _ _ _ _ _ _ b q
        (fun k => Cert.FinitePre.score_real _ _ (Cert.FinitePre.proj_real _ _ _ h0 h1 h2) (Cert.FinitePre.proj_real _ _ _ h0 h3 h4) b q k))
      b q d).symm

end Cert.Proof.Claims

end
-- ==== Proof.lean ====
/-
  The certificate's claim: the three programs' frames, the empty ledger of the ideal pass, and the equality of the two
  idealized programs' results on the extended reals. The kernel program is two kernel regions among reshapes — three
  linear layers written 512 rows at a time, then attention over blocks of 1024 queries and 256 keys with the softmax
  kept online in three scratch buffers; the reference computes the same layers, the scores, a one-pass softmax and the
  weighted sum on the host. Each conjunct is proved in a module of its own.
-/
import proofs.«116119_j1176821039548_2_alg».proof.Defs
import proofs.«116119_j1176821039548_2_alg».proof.Proof.Gen.Kernel
import proofs.«116119_j1176821039548_2_alg».proof.Proof.Gen.Kernel.Skeleton
import proofs.«116119_j1176821039548_2_alg».proof.Proof.Gen.Kernel.Launch
import proofs.«116119_j1176821039548_2_alg».proof.Proof.Gen.Kernel.Regions
import proofs.«116119_j1176821039548_2_alg».proof.Proof.Gen.Kernel.Points
import proofs.«116119_j1176821039548_2_alg».proof.Proof.Gen.KernelIdeal
import proofs.«116119_j1176821039548_2_alg».proof.Proof.Gen.KernelIdeal.Skeleton
import proofs.«116119_j1176821039548_2_alg».proof.Proof.Gen.KernelIdeal.Launch
import proofs.«116119_j1176821039548_2_alg».proof.Proof.Gen.KernelIdeal.Regions
import proofs.«116119_j1176821039548_2_alg».proof.Proof.Gen.KernelIdeal.Points
import proofs.«116119_j1176821039548_2_alg».proof.Proof.Gen.ReferenceIdeal
import proofs.«116119_j1176821039548_2_alg».proof.Proof.Gen.Pre_finite_inputs
import proofs.«116119_j1176821039548_2_alg».proof.Proof.FrameClaims
import proofs.«116119_j1176821039548_2_alg».proof.Proof.AlgebraicClaim
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
